-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x512 : Shape := ⟨3, ![2, 4096, 512]⟩
abbrev S2x4096x4096 : Shape := ⟨3, ![2, 4096, 4096]⟩
abbrev S64x512 : Shape := ⟨2, ![64, 512]⟩
abbrev S64 : Shape := ⟨1, ![64]⟩
abbrev S_ : Shape := ⟨0, ![]⟩

class Facts : Prop where
  bcast_S_S2x4096x512 : S_.BroadcastsInDim S2x4096x512 (![] : Fin 0 → Fin S2x4096x512.rank)
  reducesTo_S2x4096x512_S_d0_1_2 : S2x4096x512.ReducesTo [0, 1, 2] S_
  h_S_ : 0 < S_.numel
  bcast_S_S2x4096x4096 : S_.BroadcastsInDim S2x4096x4096 (![] : Fin 0 → Fin S2x4096x4096.rank)
  reducesTo_S2x4096x4096_S_d0_1_2 : S2x4096x4096.ReducesTo [0, 1, 2] S_
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x512 .f32) (main_arg8 : FVec F S64 .f32) (main_v33 : IVec S_ 1) : IVec S_ 1 :=
  let main_v34 : FVec F S64x512 .f32 := Host.absf main_arg7
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x512 .f32) (main_arg6 : FVec F S64 .f32) (main_arg7 : FVec F S64x512 .f32) (main_arg8 : FVec F S64 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg5
  let main_cst_8 : FVec F S_ .f32 := constant S_ .f32 0x7F800000#32
  let main_v25 : FVec F S64x512 .f32 := broadcastInDim S64x512 ![] bcast_S_S64x512 main_cst_8
  let main_v26 : IVec S64x512 1 := cmpf .olt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2x4096x512 .f32) (main_arg1 : FVec F S2x4096x4096 .f32) (main_arg2 : FVec F S2x4096x4096 .f32) (main_arg3 : FVec F S64x512 .f32) (main_arg4 : FVec F S64 .f32) (main_arg5 : FVec F S64x512 .f32) (main_arg6 : FVec F S64 .f32) (main_arg7 : FVec F S64x512 .f32) (main_arg8 : FVec F S64 .f32) : IVec S_ 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_c : IVec S_ 1 := constantI S_ 1 1#1
  let main_v3 : IVec S_ 1 := (fun x v => Host.reduce IntOp.andi x v reducesTo_S2x4096x512_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S2x4096x4096 .f32 := Host.absf main_arg2
  let main_cst_2 : FVec F S_ .f32 := constant S_ .f32 0x7F800000#32
  let main_v10 : FVec F S2x4096x4096 .f32 := broadcastInDim S2x4096x4096 ![] bcast_S_S2x4096x4096 main_cst_2
  let main_v11 : IVec S2x4096x4096 1 := cmpf .olt main_v9 main_v10
  let main_c_3 : IVec S_ 1 := constantI S_ 1 1#1
  let main_v12 : IVec S_ 1 := (fun x v => Host.reduce IntOp.andi x v reducesTo_S2x4096x4096_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_arg8 main_v13 main_v16
-- ==== Kernel.lean ====
abbrev S2x4096x512 : Shape := ⟨3, ![2, 4096, 512]⟩
abbrev S2x4096x4096 : Shape := ⟨3, ![2, 4096, 4096]⟩
abbrev S64x512 : Shape := ⟨2, ![64, 512]⟩
abbrev S64 : Shape := ⟨1, ![64]⟩
abbrev S_ : Shape := ⟨0, ![]⟩
abbrev S128x512 : Shape := ⟨2, ![128, 512]⟩
abbrev S128 : Shape := ⟨1, ![128]⟩
abbrev S2x4096x128 : Shape := ⟨3, ![2, 4096, 128]⟩
abbrev S1x1024x512 : Shape := ⟨3, ![1, 1024, 512]⟩
abbrev S1x1024x128 : Shape := ⟨3, ![1, 1024, 128]⟩
abbrev S1024x512 : Shape := ⟨2, ![1024, 512]⟩
abbrev S1024x128 : Shape := ⟨2, ![1024, 128]⟩
abbrev S1x128 : Shape := ⟨2, ![1, 128]⟩
abbrev S1x1024x1024 : Shape := ⟨3, ![1, 1024, 1024]⟩
abbrev S1024x1 : Shape := ⟨2, ![1024, 1]⟩
abbrev S1024x1024 : Shape := ⟨2, ![1024, 1024]⟩
abbrev S1024 : Shape := ⟨1, ![1024]⟩
abbrev S2x4096x64 : Shape := ⟨3, ![2, 4096, 64]⟩

abbrev nBuf : Space → Nat
  | .hbm => 32
  | .vmem => 29
  | .smem => 0
  | _ => 0

abbrev bufTy : (tb : Table) → Fin (tcTables nBuf tb) → BufTy
  | .hbm, ⟨0, _⟩ => ⟨S2x4096x512, .f32⟩
  | .hbm, ⟨1, _⟩ => ⟨S2x4096x4096, .f32⟩
  | .hbm, ⟨2, _⟩ => ⟨S2x4096x4096, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S64x512, .f32⟩
  | .hbm, ⟨8, _⟩ => ⟨S64, .f32⟩
  | .hbm, ⟨9, _⟩ => ⟨S_, .i32⟩
  | .hbm, ⟨10, _⟩ => ⟨S_, .f32⟩
  | .hbm, ⟨11, _⟩ => ⟨S128x512, .f32⟩
  | .hbm, ⟨12, _⟩ => ⟨S_, .i32⟩
  | .hbm, ⟨13, _⟩ => ⟨S_, .f32⟩
  | .hbm, ⟨14, _⟩ => ⟨S128x512, .f32⟩
  | .hbm, ⟨15, _⟩ => ⟨S_, .i32⟩
  | .hbm, ⟨16, _⟩ => ⟨S_, .f32⟩
  | .hbm, ⟨17, _⟩ => ⟨S128x512, .f32⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S2x4096x128, .bf16⟩
  | .hbm, ⟨28, _⟩ => ⟨S2x4096x128, .bf16⟩
  | .hbm, ⟨29, _⟩ => ⟨S2x4096x128, .bf16⟩
  | .hbm, ⟨30, _⟩ => ⟨S2x4096x128, .f32⟩
  | .hbm, ⟨31, _⟩ => ⟨S2x4096x64, .f32⟩
  | .local _ .vmem, ⟨0, _⟩ => ⟨S1x1024x512, .f32⟩
  | .local _ .vmem, ⟨1, _⟩ => ⟨S1x1024x512, .f32⟩
  | .local _ .vmem, ⟨2, _⟩ => ⟨S128x512, .f32⟩
  | .local _ .vmem, ⟨3, _⟩ => ⟨S128, .f32⟩
  | .local _ .vmem, ⟨4, _⟩ => ⟨S128x512, .f32⟩
  | .local _ .vmem, ⟨5, _⟩ => ⟨S128, .f32⟩
  | .local _ .vmem, ⟨6, _⟩ => ⟨S128x512, .f32⟩
  | .local _ .vmem, ⟨7, _⟩ => ⟨S128, .f32⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .bf16⟩
  | .local _ .vmem, ⟨16, _⟩ => ⟨S1x1024x128, .bf16⟩
  | .local _ .vmem, ⟨17, _⟩ => ⟨S1x1024x128, .bf16⟩
  | .local _ .vmem, ⟨18, _⟩ => ⟨S1x1024x128, .bf16⟩
  | .local _ .vmem, ⟨19, _⟩ => ⟨S1x1024x128, .bf16⟩
  | .local _ .vmem, ⟨20, _⟩ => ⟨S1x1024x1024, .f32⟩
  | .local _ .vmem, ⟨21, _⟩ => ⟨S1x1024x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x128, .f32⟩
  | .local _ .vmem, ⟨25, _⟩ => ⟨S1x1024x128, .f32⟩
  | .local _ .vmem, ⟨26, _⟩ => ⟨S1024x1, .f32⟩
  | .local _ .vmem, ⟨27, _⟩ => ⟨S1024x1, .f32⟩
  | .local _ .vmem, ⟨28, _⟩ => ⟨S1024x128, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_c_1 : Ref sig .tc := ⟨.hbm, 15, rfl⟩
abbrev main_call2_v0 : Ref sig .tc := ⟨.hbm, 16, rfl⟩
abbrev main_v2 : Ref sig .tc := ⟨.hbm, 17, rfl⟩
abbrev main_c_2 : Ref sig .tc := ⟨.hbm, 18, rfl⟩
abbrev main_call3_v0 : Ref sig .tc := ⟨.hbm, 19, rfl⟩
abbrev main_v3 : Ref sig .tc := ⟨.hbm, 20, rfl⟩
abbrev main_c_3 : Ref sig .tc := ⟨.hbm, 21, rfl⟩
abbrev main_call4_v0 : Ref sig .tc := ⟨.hbm, 22, rfl⟩
abbrev main_v4 : Ref sig .tc := ⟨.hbm, 23, rfl⟩
abbrev main_c_4 : Ref sig .tc := ⟨.hbm, 24, rfl⟩
abbrev main_call5_v0 : Ref sig .tc := ⟨.hbm, 25, rfl⟩
abbrev main_v5 : Ref sig .tc := ⟨.hbm, 26, rfl⟩
abbrev main_v6_0 : Ref sig .tc := ⟨.hbm, 27, rfl⟩
abbrev main_v6_1 : Ref sig .tc := ⟨.hbm, 28, rfl⟩
abbrev main_v6_2 : Ref sig .tc := ⟨.hbm, 29, rfl⟩
abbrev main_v7 : Ref sig .tc := ⟨.hbm, 30, rfl⟩
abbrev main_v8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨3, ![2, 4, 4], ![false, false, false]⟩

def k1_cond2 (i : grid1.Coords) : BitVec 1 :=
  let arg2 : BitVec 32 := BitVec.ofNat 32 (i 2).val
  let c3_i32 : BitVec 32 := 3#32
  let v48 : BitVec 1 := Scalar.cmpi .eq arg2 c3_i32
  let v49 : BitVec 32 := Scalar.extui v48
  let c0_i32_33 : BitVec 32 := 0#32
  let v50 : BitVec 1 := Scalar.cmpi .ne v49 c0_i32_33
  v50

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  pads_S64x512_S128x512_0640_000 : S64x512.Pads (![0, 0] : Fin 2 → Nat) ![64, 0] ![0, 0] S128x512
  h_S_ : 0 < S_.numel
  pads_S64_S128_0640 : S64.Pads (![0] : Fin 1 → Nat) ![64] ![0] S128
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S1024x128 : S1x128.Broadcasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  slices_S2x4096x128_S2x4096x64_0_0_0 : S2x4096x128.Slices ![0, 0, 0] S2x4096x64
  dot_S1024x512_S128x512_S1024x128_1_1_0_0_n_n_wf : DotDims.WF S1024x512 S128x512 S1024x128 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x4096x512.size a
  hwx0_0 : ∀ i : grid0.Coords, EltTy.bits .f32 = 32 ∨ (Rect.block (s := S2x4096x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x128.size a ≤ S2x4096x128.size a
  hwx0_7 : ∀ i : grid0.Coords, EltTy.bits .bf16 = 32 ∨ (Rect.block (s := S2x4096x128) S1x1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x128.size a ≤ S2x4096x128.size a
  hwx0_8 : ∀ i : grid0.Coords, EltTy.bits .bf16 = 32 ∨ (Rect.block (s := S2x4096x128) S1x1024x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x128.size a ≤ S2x4096x128.size a
  hwx0_9 : ∀ i : grid0.Coords, EltTy.bits .bf16 = 32 ∨ (Rect.block (s := S2x4096x128) S1x1024x128.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S2x4096x128.size a
  hwx1_0 : ∀ i : grid1.Coords, EltTy.bits .bf16 = 32 ∨ (Rect.block (s := S2x4096x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S2x4096x128.size a
  hwx1_1 : ∀ i : grid1.Coords, EltTy.bits .bf16 = 32 ∨ (Rect.block (s := S2x4096x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S2x4096x128.size a
  hwx1_2 : ∀ i : grid1.Coords, EltTy.bits .bf16 = 32 ∨ (Rect.block (s := S2x4096x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S2x4096x4096.size a
  hwx1_3 : ∀ i : grid1.Coords, EltTy.bits .f32 = 32 ∨ (Rect.block (s := S2x4096x4096) S1x1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S2x4096x4096.size a
  hwx1_4 : ∀ i : grid1.Coords, EltTy.bits .f32 = 32 ∨ (Rect.block (s := S2x4096x4096) S1x1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x128.size a ≤ S2x4096x128.size a
  hwx1_5 : ∀ i : grid1.Coords, EltTy.bits .f32 = 32 ∨ (Rect.block (s := S2x4096x128) S1x1024x128.size (cc1_transform_5 i) (hinb1_5 i)).WholeWords (EltTy.packing .f32)

variable [Facts₀]

def dot_S1024x512_S128x512_S1024x128_1_1_0_0_n_n : DotDims S1024x512 S128x512 S1024x128 where
  lhsContracting := [1]
  rhsContracting := [1]
  lhsNonContracting := [0]
  rhsNonContracting := [0]
  lhsBatch := []
  rhsBatch := []
  wf := dot_S1024x512_S128x512_S1024x128_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x1024x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_2) S1x1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v6_0) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S1x1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x4096x512 : Shape := ⟨3, ![2, 4096, 512]⟩
abbrev S2x4096x4096 : Shape := ⟨3, ![2, 4096, 4096]⟩
abbrev S64x512 : Shape := ⟨2, ![64, 512]⟩
abbrev S64 : Shape := ⟨1, ![64]⟩
abbrev S2x4096x64 : Shape := ⟨3, ![2, 4096, 64]⟩
abbrev S1x1x64 : Shape := ⟨3, ![1, 1, 64]⟩
abbrev S_ : Shape := ⟨0, ![]⟩
abbrev S2x4096 : Shape := ⟨2, ![2, 4096]⟩
abbrev S2x4096x1 : Shape := ⟨3, ![2, 4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x4096, .f32⟩
  | .hbm, ⟨2, _⟩ => ⟨S2x4096x4096, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S64, .f32⟩
  | .hbm, ⟨7, _⟩ => ⟨S64x512, .f32⟩
  | .hbm, ⟨8, _⟩ => ⟨S64, .f32⟩
  | .hbm, ⟨9, _⟩ => ⟨S2x4096x64, .f32⟩
  | .hbm, ⟨10, _⟩ => ⟨S1x1x64, .f32⟩
  | .hbm, ⟨11, _⟩ => ⟨S2x4096x64, .f32⟩
  | .hbm, ⟨12, _⟩ => ⟨S2x4096x64, .f32⟩
  | .hbm, ⟨13, _⟩ => ⟨S2x4096x64, .f32⟩
  | .hbm, ⟨14, _⟩ => ⟨S1x1x64, .f32⟩
  | .hbm, ⟨15, _⟩ => ⟨S2x4096x64, .f32⟩
  | .hbm, ⟨16, _⟩ => ⟨S2x4096x64, .f32⟩
  | .hbm, ⟨17, _⟩ => ⟨S2x4096x64, .f32⟩
  | .hbm, ⟨18, _⟩ => ⟨S1x1x64, .f32⟩
  | .hbm, ⟨19, _⟩ => ⟨S2x4096x64, .f32⟩
  | .hbm, ⟨20, _⟩ => ⟨S2x4096x64, .f32⟩
  | .hbm, ⟨21, _⟩ => ⟨S_, .f32⟩
  | .hbm, ⟨22, _⟩ => ⟨S_, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S_, .f32⟩
  | .hbm, ⟨29, _⟩ => ⟨S2x4096, .f32⟩
  | .hbm, ⟨30, _⟩ => ⟨S_, .f32⟩
  | .hbm, ⟨31, _⟩ => ⟨S2x4096, .f32⟩
  | .hbm, ⟨32, _⟩ => ⟨S2x4096, .f32⟩
  | .hbm, ⟨33, _⟩ => ⟨S2x4096x1, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S2x4096x4096, .f32⟩
  | .hbm, ⟨41, _⟩ => ⟨S2x4096x4096, .f32⟩
  | .hbm, ⟨42, _⟩ => ⟨S2x4096x64, .f32⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S2x4096x64_0_1_2 : S1x1x64.BroadcastsInDim S2x4096x64 (![0, 1, 2] : Fin 3 → Fin S2x4096x64.rank)
  bcast_S_S2x4096x4096 : S_.BroadcastsInDim S2x4096x4096 (![] : Fin 0 → Fin S2x4096x4096.rank)
  reducesTo_S2x4096x4096_S2x4096_d2 : S2x4096x4096.ReducesTo [2] S2x4096
  h_S_ : 0 < S_.numel
  bcast_S_S2x4096 : S_.BroadcastsInDim S2x4096 (![] : Fin 0 → Fin S2x4096.rank)
  bcast_S2x4096_S2x4096x1_0_1 : S2x4096.BroadcastsInDim S2x4096x1 (![0, 1] : Fin 2 → Fin S2x4096x1.rank)
  bcast_S2x4096x1_S2x4096x4096_0_1_2 : S2x4096x1.BroadcastsInDim S2x4096x4096 (![0, 1, 2] : Fin 3 → Fin S2x4096x4096.rank)
  dot_S2x4096x512_S64x512_S2x4096x64_2_1_01_0_n_n_wf : DotDims.WF S2x4096x512 S64x512 S2x4096x64 [2] [1] [0, 1] [0] [] []
  dot_S2x4096x64_S2x4096x64_S2x4096x4096_2_2_1_1_0_0_wf : DotDims.WF S2x4096x64 S2x4096x64 S2x4096x4096 [2] [2] [1] [1] [0] [0]
  dot_S2x4096x4096_S2x4096x64_S2x4096x64_2_1_1_2_0_0_wf : DotDims.WF S2x4096x4096 S2x4096x64 S2x4096x64 [2] [1] [1] [2] [0] [0]

variable [Facts₀]

def dot_S2x4096x512_S64x512_S2x4096x64_2_1_01_0_n_n : DotDims S2x4096x512 S64x512 S2x4096x64 where
  lhsContracting := [2]
  rhsContracting := [1]
  lhsNonContracting := [0, 1]
  rhsNonContracting := [0]
  lhsBatch := []
  rhsBatch := []
  wf := dot_S2x4096x512_S64x512_S2x4096x64_2_1_01_0_n_n_wf
def dot_S2x4096x64_S2x4096x64_S2x4096x4096_2_2_1_1_0_0 : DotDims S2x4096x64 S2x4096x64 S2x4096x4096 where
  lhsContracting := [2]
  rhsContracting := [2]
  lhsNonContracting := [1]
  rhsNonContracting := [1]
  lhsBatch := [0]
  rhsBatch := [0]
  wf := dot_S2x4096x64_S2x4096x64_S2x4096x4096_2_2_1_1_0_0_wf
def dot_S2x4096x4096_S2x4096x64_S2x4096x64_2_1_1_2_0_0 : DotDims S2x4096x4096 S2x4096x64 S2x4096x64 where
  lhsContracting := [2]
  rhsContracting := [1]
  lhsNonContracting := [1]
  rhsNonContracting := [2]
  lhsBatch := [0]
  rhsBatch := [0]
  wf := dot_S2x4096x4096_S2x4096x64_S2x4096x64_2_1_1_2_0_0_wf

class Facts : Prop extends Facts₀ where

variable [Facts]
-- ==== Proof.WordQkvRegion.lean ====
/- REGION 0 of the program's @main: the projection kernel `cc0__qkv_kernel` (pipeline 0), on its grid of
   2 x 4 = 8 points. At every point the body reads its seven input windows whole — the feature block of
   1024 rows and 512 columns, and the three padded weight matrices (128 x 512) with their three padded biases
   (128) —, forms the three products  x · Wᵀ + b  (the operands cut to bf16, the sum kept in f32, the result cut to
   bf16) and writes each whole into its own output window (1024 x 128). So what the body leaves in an output
   buffer is a closed function of three input blocks, and an input buffer is left as found.

   This module states that, at ANY float instance `F` and at ANY contents `V` of the core's buffers when the
   region is entered:
   * `iblk0`     — a window's block at a point, read off its array at `V`;
   * `before0_W_of` — an input window's staging buffer holds that block at every point, whether the pipeline
     fetched it there (the feature window, at every point) or not (a weight or a bias: fetched at the first point
     only, its block index never moves afterwards);
   * `out0_7`, `out0_8`, `out0_9` — the output buffers after the body, as the one store's payload laid over the
     whole buffer, with `cover0_W`: that one rectangle is the whole buffer;
   * `sound_kernel0` — the body's triple on whole staging memrefs;
   * `dat0` — the pipeline's proof data, with `A_eq0`, `after0_W`, `before0_W`;
   * `body_obligation0` — the body obligation of the pipeline at every point. -/
import proofs.«121072_j35897336660236_2_alg».proof.Proof.Gen.Kernel.Launch
import proofs.«121072_j35897336660236_2_alg».proof.Proof.Gen.Kernel.Skeleton
import proofs.«121072_j35897336660236_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion, one step per coordinate of the
-- long axes
set_option maxRecDepth 16384

noncomputable section

namespace Cert.Kernel.Qkv

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point (the feature window: its block index moves with the point and it is fetched at every point), for ANY proof data whose
    array is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point (a weight window: its block index is the same at every point, so after the one fetch at the first point the buffer still holds the block), for ANY proof data whose
    array is `V`'s (`hA`) and whose body leaves the block in place (`hafter`). The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point (a bias window: its block index is the same at every point, so after the one fetch at the first point the buffer still holds the block), for ANY proof data whose
    array is `V`'s (`hA`) and whose body leaves the block in place (`hafter`). The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point (a weight window: its block index is the same at every point, so after the one fetch at the first point the buffer still holds the block), for ANY proof data whose
    array is `V`'s (`hA`) and whose body leaves the block in place (`hafter`). The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point (a bias window: its block index is the same at every point, so after the one fetch at the first point the buffer still holds the block), for ANY proof data whose
    array is `V`'s (`hA`) and whose body leaves the block in place (`hafter`). The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point (a weight window: its block index is the same at every point, so after the one fetch at the first point the buffer still holds the block), for ANY proof data whose
    array is `V`'s (`hA`) and whose body leaves the block in place (`hafter`). The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point (a bias window: its block index is the same at every point, so after the one fetch at the first point the buffer still holds the block), for ANY proof data whose
    array is `V`'s (`hA`) and whose body leaves the block in place (`hafter`). The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is through the whole buffer -/

abbrev r0_0 : Rect S1x1024x512 := Rect.unit (s := S1x1024x512) ![0, 0, 0] S1x1024x512.size inb_S1x1024x512_S1x1024x512_0_0_0
abbrev r0_1 : Rect S128x512 := Rect.unit (s := S128x512) ![0, 0] S128x512.size inb_S128x512_S128x512_0_0
abbrev r0_2 : Rect S128 := Rect.unit (s := S128) ![0] S128.size inb_S128_S128_0
abbrev r0_3 : Rect S1x1024x128 := Rect.unit (s := S1x1024x128) ![0, 0, 0] S1x1024x128.size inb_S1x1024x128_S1x1024x128_0_0_0

/-! ## What the body leaves in each output window's buffer -/

/-- Window 7's staging buffer (the query block) after the body, from the feature block `x`, the weight block `w` and
    the bias block `b`: its one store, through the whole buffer, of  x · wᵀ + b  cut to bf16. -/
def out0_7 (x : Vec F S1x1024x512 .f32) (w : Vec F S128x512 .f32) (b : Vec F S128 .f32) : Vec F S1x1024x128 .bf16 :=
  View.canon [⟨r0_3, k0_pay5 (View.ld x r0_0) (View.ld w r0_1) (View.ld b r0_2)⟩]

/-- The one rectangle is the whole buffer, so it covers it. -/
theorem cover0_7 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 8's staging buffer (the key block) after the body, from the feature block `x`, the weight block `w` and
    the bias block `b`: its one store, through the whole buffer, of  x · wᵀ + b  cut to bf16. -/
def out0_8 (x : Vec F S1x1024x512 .f32) (w : Vec F S128x512 .f32) (b : Vec F S128 .f32) : Vec F S1x1024x128 .bf16 :=
  View.canon [⟨r0_3, k0_pay1 (k0_pay6 (View.ld x r0_0) (View.ld w r0_1) (View.ld b r0_2))⟩]

/-- The one rectangle is the whole buffer, so it covers it. -/
theorem cover0_8 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 9's staging buffer (the value block) after the body, from the feature block `x`, the weight block `w` and
    the bias block `b`: its one store, through the whole buffer, of  x · wᵀ + b  cut to bf16. -/
def out0_9 (x : Vec F S1x1024x512 .f32) (w : Vec F S128x512 .f32) (b : Vec F S128 .f32) : Vec F S1x1024x128 .bf16 :=
  View.canon [⟨r0_3, k0_pay2 (k0_pay4 (View.ld x r0_0) (View.ld w r0_1) (View.ld b r0_2))⟩]

/-- The one rectangle is the whole buffer, so it covers it. -/
theorem cover0_9 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-! ## The body's triple -/

set_option maxHeartbeats 4000000 in
/-- The kernel body at any grid coordinates, on whole staging memrefs, the inputs' at read contents `xW` and the
    outputs' at anything, runs to the continuation holding the inputs' as they were and each output's at `out0_W` of the
    inputs'. (The body reads each output buffer once before it overwrites it whole; what it read there is used nowhere.) -/
theorem sound_kernel0 (c : Dev nD) (E : Set ℕ) (i : grid0.Coords) (arg2 : Memref sig .tc .vmem S1x1024x512 .f32) (harg2 : arg2.IsWhole) (arg3 : Memref sig .tc .vmem S128x512 .f32) (harg3 : arg3.IsWhole) (arg4 : Memref sig .tc .vmem S128 .f32) (harg4 : arg4.IsWhole) (arg5 : Memref sig .tc .vmem S128x512 .f32) (harg5 : arg5.IsWhole) (arg6 : Memref sig .tc .vmem S128 .f32) (harg6 : arg6.IsWhole) (arg7 : Memref sig .tc .vmem S128x512 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x1024x128 .bf16) (harg10 : arg10.IsWhole) (arg11 : Memref sig .tc .vmem S1x1024x128 .bf16) (harg11 : arg11.IsWhole)
    (x0 : Vec F S1x1024x512 .f32) (x1 : Vec F S128x512 .f32) (x2 : Vec F S128 .f32) (x3 : Vec F S128x512 .f32) (x4 : Vec F S128 .f32) (x5 : Vec F S128x512 .f32) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at point `t`
    each input's buffer at its block and each output's at `out0_W` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant
    and the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.Kernel.Qkv.body_obligation0' depends on axioms: [propext, Classical.choice, Quot.sound] -/
#guard_msgs in #print axioms body_obligation0

end Cert.Kernel.Qkv

end
-- ==== Proof.WordFlashRuns.lean ====
/-
  The flash-attention region (the second pallas_call), what its three control cases share.

  The grid is (batch, query tile, key tile) = (2, 4, 4), the key tile innermost: point t works on key tile t mod 4.
  The body keeps three scratch buffers between points — the running row maximum, the running normaliser and the
  running accumulator — which it resets at key tile 0, updates at every tile, and divides into the output block at key
  tile 3. So a point is in one of three cases: first tile (reset, no output), a middle tile (no reset, no output), last
  tile (no reset, output stored). Stated here, for any float instance and any contents V of the buffers at the region's
  entry: the blocks the windows show at a point, that an input's staging buffer holds its block whether or not it was
  fetched at that point, the two branch conditions in closed form over the points, where the output window is idle,
  the names of the staging and scratch memrefs, and the region invariant with the three scratch buffers in front.
-/
import proofs.«121072_j35897336660236_2_alg».proof.Proof.Gen.Kernel.Launch
import proofs.«121072_j35897336660236_2_alg».proof.Proof.Gen.Kernel.Skeleton
import proofs.«121072_j35897336660236_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch it the block index has not moved since the point before. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the pipeline
    does not fetch it the block index has not moved since the point before. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the pipeline
    does not fetch it the block index has not moved since the point before. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the pipeline
    does not fetch it the block index has not moved since the point before. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the pipeline
    does not fetch it the block index has not moved since the point before. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- "This is key tile 0": the first conditional of the body, a chain of comparisons on the third grid coordinate. -/
abbrev isFirst (i : grid1.Coords) : Prop := (Scalar.cmpi .ne (Scalar.extui (Scalar.cmpi .eq (BitVec.ofNat 32 (i 2).val) 0#32)) 0#32) = 1#1
/-- It holds at the points that are 0 modulo 4. -/
theorem isFirst_iff : ∀ t : Fin cfg1.N, isFirst (grid1.coords t) ↔ t.val % 4 = 0 :=
  (by decide +kernel : ∀ t : Fin grid1.N, isFirst (grid1.coords t) ↔ t.val % 4 = 0)

/-- "This is key tile 3": the second conditional. -/
abbrev isLast (i : grid1.Coords) : Prop := k1_cond2 i = 1#1
/-- It holds at the points that are 3 modulo 4. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- Off the last key tile the output window is idle: the body stores nothing into it -/
theorem idle5 : ∀ t : Fin cfg1.N, ¬isLast (grid1.coords t) → cfg1.idle 5 (grid1.coords t) = true := by decide +kernel
/-- and the pipeline does not write its block back. -/
theorem noFlush5 : ∀ t : Fin cfg1.N, ¬isLast (grid1.coords t) → (cfg1.win 5).flush t = false := by decide +kernel
/-- On the last key tile it is live. -/
theorem live5 : ∀ t : Fin cfg1.N, isLast (grid1.coords t) → cfg1.idle 5 (grid1.coords t) = false := by decide +kernel

/-! ## The memrefs the body is called with -/

/-- One staging buffer of the output window, through which its contents are stated. -/
abbrev VO : View sig .tc .vmem S1x1024x128 .f32 := (Memref.whole cc1_stg5_0 : Memref sig .tc .vmem S1x1024x128 .f32).view
abbrev ms0 (t : Fin cfg1.N) : Memref sig .tc .vmem S1x1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024x128 .f32 := win1_5.stage (cfg1.slots t 5)
abbrev hs5 (t : Fin cfg1.N) : (ms5 t).IsWhole := hstage1_5 ((cfg1.slots t 5).cast nbuf1_5)
/-- The running row maximum, -/
abbrev scMax : Memref sig .tc .vmem S1024x1 .f32 := Memref.whole cc1_scratch0
/-- the running normaliser, -/
abbrev scSum : Memref sig .tc .vmem S1024x1 .f32 := Memref.whole cc1_scratch1
/-- the running accumulator. -/
abbrev scAcc : Memref sig .tc .vmem S1024x128 .f32 := Memref.whole cc1_scratch2
abbrev VMax : View sig .tc .vmem S1024x1 .f32 := scMax.view
abbrev VSum : View sig .tc .vmem S1024x1 .f32 := scSum.view
abbrev VAcc : View sig .tc .vmem S1024x128 .f32 := scAcc.view

/-! ## The region invariant with the scratch in front -/

/-- The scoped buffers of the core that this region neither stages nor uses as scratch: the other region's staging buffers. -/
abbrev others : List (Ref sig .tc) :=
  [cc0_stg0_0, cc0_stg0_1, cc0_stg1_0, cc0_stg2_0, cc0_stg3_0, cc0_stg4_0, cc0_stg5_0, cc0_stg6_0, cc0_stg7_0, cc0_stg7_1, cc0_stg8_0, cc0_stg8_1, cc0_stg9_0, cc0_stg9_1]

/-- Those buffers, each whole at some contents. -/
def othersHeld (c : Dev nD) : sProp 𝕄 :=
  bigSepL others fun b => iprop(∃ f : Buf (Elt F) ((c : Thread nD τ).loc b), ((c : Thread nD τ).loc b) ↦{fullShare} f)

/-- What the launch hands the region besides the windows: the three scratch buffers at some contents, the other scoped
    buffers, the generator register. -/
theorem PhiA_eq (c : Dev nD) :
    (Pipeline.ΦA spec1 c : sProp 𝕄)
      = iprop(((∃ d, owns (c : Thread nD τ) scMax fullShare d) ∗ (∃ d, owns (c : Thread nD τ) scSum fullShare d) ∗ (∃ d, owns (c : Thread nD τ) scAcc fullShare d) ∗ othersHeld c) ∗ (∃ r, prngReg c r)) := by
  unfold Pipeline.ΦA
  rw [Pipeline.scopedRest_eq_of_list spec1 c (cc1_scratch0 :: cc1_scratch1 :: cc1_scratch2 :: others) (by decide) (by decide)]
  simp only [scMax, scSum, scAcc, owns_whole]
  rfl

end Cert.Kernel.Flash

end
-- ==== Proof.WordFlashRunA.lean ====
/-
  The flash-attention body at a FIRST key tile (reset taken, output not stored).

  On whole staging memrefs — the five inputs at their blocks, the output's at contents handed back untouched, the three
  scratch buffers at anything — the body runs to the end leaving the inputs and the output as they were and each scratch
  buffer with the pieces its stores wrote (the reset, then the update). The pieces are found by the run itself.
-/
import proofs.«121072_j35897336660236_2_alg».proof.Proof.WordFlashRuns

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a first key tile, with the pieces each scratch buffer ends with. -/
noncomputable def runFirst (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : isFirst i) (hc1 : ¬isLast i)
    (x0 : Vec F S1x1024x128 .bf16) (x1 : Vec F S1x1024x128 .bf16) (x2 : Vec F S1x1024x128 .bf16) (x3 : Vec F S1x1024x1024 .f32) (x4 : Vec F S1x1024x1024 .f32) :
    Σ' (L5 : List (View.Piece (Elt F) S1x1024x128 .f32)) (LM : List (View.Piece (Elt F) S1024x1 .f32)) (LS : List (View.Piece (Elt F) S1024x1 .f32)), { LA : List (View.Piece (Elt F) S1024x128 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, ⟨%da, %fa, -, HA⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HS]; · iexists _; iexact HS
    iexists _; iexact HA

end Cert.Kernel.Flash

end
-- ==== Proof.WordFlashRunB.lean ====
/-
  The flash-attention body at a MIDDLE key tile (no reset, output not stored).

  On whole staging memrefs — the five inputs at their blocks, the output's at contents handed back untouched, the three
  scratch buffers at what the tile before left — the body runs to the end leaving the inputs and the output as they were
  and each scratch buffer with the pieces its update wrote.
-/
import proofs.«121072_j35897336660236_2_alg».proof.Proof.WordFlashRunA

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle key tile, with the pieces each scratch buffer ends with. -/
noncomputable def runMiddle (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : ¬isLast i)
    (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    Σ' (L5 : List (View.Piece (Elt F) S1x1024x128 .f32)) (LM : List (View.Piece (Elt F) S1024x1 .f32)) (LS : List (View.Piece (Elt F) S1024x1 .f32)), { LA : List (View.Piece (Elt F) S1024x128 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xm ∗ owns (c : Thread nD τ) arg10 fullShare xs ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfm; obtain rfl := harg10.eq_unread hfs; obtain rfl := harg11.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HS]; · iexists _; iexact HS
    iexists _; iexact HA

end Cert.Kernel.Flash

end
-- ==== Proof.WordFlashRunC.lean ====
/-
  The flash-attention body at a LAST key tile (no reset, output stored).

  On whole staging memrefs — the five inputs at their blocks, the output's at anything, the three scratch buffers at
  what the tile before left — the body runs to the end leaving the inputs as they were, each scratch buffer with the
  pieces its update wrote, and the output's buffer with the piece its one store wrote: the accumulator over the
  normaliser.
-/
import proofs.«121072_j35897336660236_2_alg».proof.Proof.WordFlashRunB

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a last key tile, with the pieces the output's buffer and each scratch buffer end with. -/
noncomputable def runLast (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : isLast i)
    (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    Σ' (L5 : List (View.Piece (Elt F) S1x1024x128 .f32)) (LM : List (View.Piece (Elt F) S1024x1 .f32)) (LS : List (View.Piece (Elt F) S1024x1 .f32)), { LA : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xm ∗ owns (c : Thread nD τ) arg10 fullShare xs ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fm, %hfm, HM⟩, ⟨%fs, %hfs, HS⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfm; obtain rfl := harg10.eq_unread hfs; obtain rfl := harg11.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HM]; · iexists _; iexact HM
    isplitl [HS]; · iexists _; iexact HS
    iexists _; iexact HA

end Cert.Kernel.Flash

end
-- ==== Proof.WordFlashRegion.lean ====
/-
  The flash-attention region: what its buffers hold point by point, and its body obligation.

  After the body at a point the three scratch buffers hold what that point's case leaves — its stores' pieces read
  back — computed from the point's input blocks and, off the first key tile, from what the point before left. The output
  window's buffer holds, at a last key tile, the piece stored there (at the other points it is idle and handed back as
  found). The region invariant is the launch's before the first point and afterwards the three scratch buffers at the
  contents just described, beside the other scoped buffers and the generator register. The body obligation at a point
  is a case split on the point modulo 4 into the three runs.
-/
import proofs.«121072_j35897336660236_2_alg».proof.Proof.WordFlashRunC

set_option maxRecDepth 16384

noncomputable section

namespace Cert.Kernel.Flash

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What is carried from one key tile to the next: the row maxima, the normalisers, the accumulators. -/
abbrev Carry (F : FTy → Type) [FloatOps F] : Type := Vec F S1024x1 .f32 × Vec F S1024x1 .f32 × Vec F S1024x128 .f32

/-! ## The three runs at a point of the grid -/

/-- The run of a first key tile at point t, on the pipeline's staging memrefs and the point's input blocks. -/
abbrev atFirst (c : Dev nD) (t : Fin cfg1.N) (h0 : isFirst (grid1.coords t)) (h1 : ¬isLast (grid1.coords t)) :=
  runFirst (F := F) c (grid1.coords t) (ms0 t) (hs0 t) (ms1 t) (hs1 t) (ms2 t) (hs2 t) (ms3 t) (hs3 t) (ms4 t) (hs4 t) (ms5 t) (hs5 t) scMax (Memref.isWhole_whole _) scSum (Memref.isWhole_whole _) scAcc (Memref.isWhole_whole _) h0 h1 (iblk V c 0 t) (iblk V c 1 t) (iblk V c 2 t) (iblk V c 3 t) (iblk V c 4 t)

/-- Its pieces for the row maxima cover their buffer, -/
theorem coverFirstMax (c : Dev nD) (t : Fin cfg1.N) (h0 : isFirst (grid1.coords t)) (h1 : ¬isLast (grid1.coords t)) (y : S1024x1.Idx) :
    ∃ pc ∈ (atFirst V c t h0 h1).2.1, y ∈ pc.1.set :=
  View.cover_of_tiledL (atFirst V c t h0 h1).2.1 S1024x1.size (by sl_kernel_rfl) y
/-- those for the normalisers theirs, -/
theorem coverFirstSum (c : Dev nD) (t : Fin cfg1.N) (h0 : isFirst (grid1.coords t)) (h1 : ¬isLast (grid1.coords t)) (y : S1024x1.Idx) :
    ∃ pc ∈ (atFirst V c t h0 h1).2.2.1, y ∈ pc.1.set :=
  View.cover_of_tiledL (atFirst V c t h0 h1).2.2.1 S1024x1.size (by sl_kernel_rfl) y
/-- those for the accumulators theirs. -/
theorem coverFirstAcc (c : Dev nD) (t : Fin cfg1.N) (h0 : isFirst (grid1.coords t)) (h1 : ¬isLast (grid1.coords t)) (y : S1024x128.Idx) :
    ∃ pc ∈ (atFirst V c t h0 h1).2.2.2.1, y ∈ pc.1.set :=
  View.cover_of_tiledL (atFirst V c t h0 h1).2.2.2.1 S1024x128.size (by sl_kernel_rfl) y

/-- What a first key tile leaves in the output window's buffer (nothing is stored: a placeholder nothing consults). -/
def outFirst (c : Dev nD) (t : Fin cfg1.N) (h0 : isFirst (grid1.coords t)) (h1 : ¬isLast (grid1.coords t)) : Vec F S1x1024x128 .f32 :=
  VO.read (Elt F) (VO.writes (Elt F) VO.junk (atFirst V c t h0 h1).1)
/-- What it leaves in the three scratch buffers: their pieces read back. -/
def carryFirst (c : Dev nD) (t : Fin cfg1.N) (h0 : isFirst (grid1.coords t)) (h1 : ¬isLast (grid1.coords t)) : Carry F :=
  (VMax.read (Elt F) (VMax.writes (Elt F) VMax.junk (atFirst V c t h0 h1).2.1),
   VSum.read (Elt F) (VSum.writes (Elt F) VSum.junk (atFirst V c t h0 h1).2.2.1),
   VAcc.read (Elt F) (VAcc.writes (Elt F) VAcc.junk (atFirst V c t h0 h1).2.2.2.1))

/-- The run of a middle key tile at point t, on the pipeline's staging memrefs and the point's input blocks, over the carry X. -/
abbrev atMiddle (c : Dev nD) (t : Fin cfg1.N) (h0 : ¬isFirst (grid1.coords t)) (h1 : ¬isLast (grid1.coords t)) (X : Carry F) :=
  runMiddle (F := F) c (grid1.coords t) (ms0 t) (hs0 t) (ms1 t) (hs1 t) (ms2 t) (hs2 t) (ms3 t) (hs3 t) (ms4 t) (hs4 t) (ms5 t) (hs5 t) scMax (Memref.isWhole_whole _) scSum (Memref.isWhole_whole _) scAcc (Memref.isWhole_whole _) h0 h1 (iblk V c 0 t) (iblk V c 1 t) (iblk V c 2 t) (iblk V c 3 t) (iblk V c 4 t) X.1 X.2.1 X.2.2

/-- Its pieces for the row maxima cover their buffer, -/
theorem coverMiddleMax (c : Dev nD) (t : Fin cfg1.N) (h0 : ¬isFirst (grid1.coords t)) (h1 : ¬isLast (grid1.coords t)) (X : Carry F) (y : S1024x1.Idx) :
    ∃ pc ∈ (atMiddle V c t h0 h1 X).2.1, y ∈ pc.1.set :=
  View.cover_of_tiledL (atMiddle V c t h0 h1 X).2.1 S1024x1.size (by sl_kernel_rfl) y
/-- those for the normalisers theirs, -/
theorem coverMiddleSum (c : Dev nD) (t : Fin cfg1.N) (h0 : ¬isFirst (grid1.coords t)) (h1 : ¬isLast (grid1.coords t)) (X : Carry F) (y : S1024x1.Idx) :
    ∃ pc ∈ (atMiddle V c t h0 h1 X).2.2.1, y ∈ pc.1.set :=
  View.cover_of_tiledL (atMiddle V c t h0 h1 X).2.2.1 S1024x1.size (by sl_kernel_rfl) y
/-- those for the accumulators theirs. -/
theorem coverMiddleAcc (c : Dev nD) (t : Fin cfg1.N) (h0 : ¬isFirst (grid1.coords t)) (h1 : ¬isLast (grid1.coords t)) (X : Carry F) (y : S1024x128.Idx) :
    ∃ pc ∈ (atMiddle V c t h0 h1 X).2.2.2.1, y ∈ pc.1.set :=
  View.cover_of_tiledL (atMiddle V c t h0 h1 X).2.2.2.1 S1024x128.size (by sl_kernel_rfl) y

/-- What a middle key tile leaves in the output window's buffer (nothing is stored: a placeholder nothing consults). -/
def outMiddle (c : Dev nD) (t : Fin cfg1.N) (h0 : ¬isFirst (grid1.coords t)) (h1 : ¬isLast (grid1.coords t)) (X : Carry F) : Vec F S1x1024x128 .f32 :=
  VO.read (Elt F) (VO.writes (Elt F) VO.junk (atMiddle V c t h0 h1 X).1)
/-- What it leaves in the three scratch buffers: their pieces read back. -/
def carryMiddle (c : Dev nD) (t : Fin cfg1.N) (h0 : ¬isFirst (grid1.coords t)) (h1 : ¬isLast (grid1.coords t)) (X : Carry F) : Carry F :=
  (VMax.read (Elt F) (VMax.writes (Elt F) VMax.junk (atMiddle V c t h0 h1 X).2.1),
   VSum.read (Elt F) (VSum.writes (Elt F) VSum.junk (atMiddle V c t h0 h1 X).2.2.1),
   VAcc.read (Elt F) (VAcc.writes (Elt F) VAcc.junk (atMiddle V c t h0 h1 X).2.2.2.1))

/-- The run of a last key tile at point t, on the pipeline's staging memrefs and the point's input blocks, over the carry X. -/
abbrev atLast (c : Dev nD) (t : Fin cfg1.N) (h0 : ¬isFirst (grid1.coords t)) (h1 : isLast (grid1.coords t)) (X : Carry F) :=
  runLast (F := F) c (grid1.coords t) (ms0 t) (hs0 t) (ms1 t) (hs1 t) (ms2 t) (hs2 t) (ms3 t) (hs3 t) (ms4 t) (hs4 t) (ms5 t) (hs5 t) scMax (Memref.isWhole_whole _) scSum (Memref.isWhole_whole _) scAcc (Memref.isWhole_whole _) h0 h1 (iblk V c 0 t) (iblk V c 1 t) (iblk V c 2 t) (iblk V c 3 t) (iblk V c 4 t) X.1 X.2.1 X.2.2

/-- Its pieces for the row maxima cover their buffer, -/
theorem coverLastMax (c : Dev nD) (t : Fin cfg1.N) (h0 : ¬isFirst (grid1.coords t)) (h1 : isLast (grid1.coords t)) (X : Carry F) (y : S1024x1.Idx) :
    ∃ pc ∈ (atLast V c t h0 h1 X).2.1, y ∈ pc.1.set :=
  View.cover_of_tiledL (atLast V c t h0 h1 X).2.1 S1024x1.size (by sl_kernel_rfl) y
/-- those for the normalisers theirs, -/
theorem coverLastSum (c : Dev nD) (t : Fin cfg1.N) (h0 : ¬isFirst (grid1.coords t)) (h1 : isLast (grid1.coords t)) (X : Carry F) (y : S1024x1.Idx) :
    ∃ pc ∈ (atLast V c t h0 h1 X).2.2.1, y ∈ pc.1.set :=
  View.cover_of_tiledL (atLast V c t h0 h1 X).2.2.1 S1024x1.size (by sl_kernel_rfl) y
/-- those for the accumulators theirs. -/
theorem coverLastAcc (c : Dev nD) (t : Fin cfg1.N) (h0 : ¬isFirst (grid1.coords t)) (h1 : isLast (grid1.coords t)) (X : Carry F) (y : S1024x128.Idx) :
    ∃ pc ∈ (atLast V c t h0 h1 X).2.2.2.1, y ∈ pc.1.set :=
  View.cover_of_tiledL (atLast V c t h0 h1 X).2.2.2.1 S1024x128.size (by sl_kernel_rfl) y
/-- Its one piece for the output block covers the block. -/
theorem coverLastOut (c : Dev nD) (t : Fin cfg1.N) (h0 : ¬isFirst (grid1.coords t)) (h1 : isLast (grid1.coords t)) (X : Carry F) (y : S1x1024x128.Idx) :
    ∃ pc ∈ (atLast V c t h0 h1 X).1, y ∈ pc.1.set :=
  View.cover_of_tiledL (atLast V c t h0 h1 X).1 S1x1024x128.size (by sl_kernel_rfl) y

/-- What a last key tile leaves in the output window's buffer: its piece read back. -/
def outLast (c : Dev nD) (t : Fin cfg1.N) (h0 : ¬isFirst (grid1.coords t)) (h1 : isLast (grid1.coords t)) (X : Carry F) : Vec F S1x1024x128 .f32 :=
  VO.read (Elt F) (VO.writes (Elt F) VO.junk (atLast V c t h0 h1 X).1)
/-- What it leaves in the three scratch buffers: their pieces read back. -/
def carryLast (c : Dev nD) (t : Fin cfg1.N) (h0 : ¬isFirst (grid1.coords t)) (h1 : isLast (grid1.coords t)) (X : Carry F) : Carry F :=
  (VMax.read (Elt F) (VMax.writes (Elt F) VMax.junk (atLast V c t h0 h1 X).2.1),
   VSum.read (Elt F) (VSum.writes (Elt F) VSum.junk (atLast V c t h0 h1 X).2.2.1),
   VAcc.read (Elt F) (VAcc.writes (Elt F) VAcc.junk (atLast V c t h0 h1 X).2.2.2.1))

/-! ## What the buffers hold after each point -/

/-- After the body at position n: the output window's buffer, and the carry. By recursion on the position: the case is
    read off the position modulo 4; off a first key tile the carry of the position before feeds the run. A position that
    is both 0 and 3 modulo 4 does not exist. -/
def stateAt (c : Dev nD) : (n : ℕ) → n < cfg1.N → Vec F S1x1024x128 .f32 × Carry F
  | 0, hn =>
    (outFirst V c ⟨0, hn⟩ ((isFirst_iff ⟨0, hn⟩).mpr (Nat.zero_mod _)) (fun h => (fun h => by (try dsimp only at h); omega) ((isLast_iff ⟨0, hn⟩).mp h)),
     carryFirst V c ⟨0, hn⟩ ((isFirst_iff ⟨0, hn⟩).mpr (Nat.zero_mod _)) (fun h => (fun h => by (try dsimp only at h); omega) ((isLast_iff ⟨0, hn⟩).mp h)))
  | n + 1, hn =>
    if h0 : (n + 1) % 4 = 0 then
      if h1 : (n + 1) % 4 = 3 then
        False.elim (by omega)
      else
        (outFirst V c ⟨n + 1, hn⟩ ((isFirst_iff ⟨n + 1, hn⟩).mpr h0) (fun h => h1 ((isLast_iff ⟨n + 1, hn⟩).mp h)),
         carryFirst V c ⟨n + 1, hn⟩ ((isFirst_iff ⟨n + 1, hn⟩).mpr h0) (fun h => h1 ((isLast_iff ⟨n + 1, hn⟩).mp h)))
    else
      if h1 : (n + 1) % 4 = 3 then
        (outLast V c ⟨n + 1, hn⟩ (fun h => h0 ((isFirst_iff ⟨n + 1, hn⟩).mp h)) ((isLast_iff ⟨n + 1, hn⟩).mpr h1) (stateAt c n (Nat.lt_of_succ_lt hn)).2,
         carryLast V c ⟨n + 1, hn⟩ (fun h => h0 ((isFirst_iff ⟨n + 1, hn⟩).mp h)) ((isLast_iff ⟨n + 1, hn⟩).mpr h1) (stateAt c n (Nat.lt_of_succ_lt hn)).2)
      else
        (outMiddle V c ⟨n + 1, hn⟩ (fun h => h0 ((isFirst_iff ⟨n + 1, hn⟩).mp h)) (fun h => h1 ((isLast_iff ⟨n + 1, hn⟩).mp h)) (stateAt c n (Nat.lt_of_succ_lt hn)).2,
         carryMiddle V c ⟨n + 1, hn⟩ (fun h => h0 ((isFirst_iff ⟨n + 1, hn⟩).mp h)) (fun h => h1 ((isLast_iff ⟨n + 1, hn⟩).mp h)) (stateAt c n (Nat.lt_of_succ_lt hn)).2)

/-- At a first key tile: that case, from the point's blocks alone. -/
theorem stateAt_first (c : Dev nD) (t : Fin cfg1.N) (h0 : t.val % 4 = 0) (h1 : ¬t.val % 4 = 3) :
    stateAt V c t.val t.isLt
      = (outFirst V c t ((isFirst_iff t).mpr h0) (fun h => h1 ((isLast_iff t).mp h)),
         carryFirst V c t ((isFirst_iff t).mpr h0) (fun h => h1 ((isLast_iff t).mp h))) := by
  obtain ⟨n, hn⟩ := t
  cases n with
  | zero => exact rfl
  | succ n => exact (dif_pos h0).trans ((dif_neg h1).trans rfl)

/-- The position before a point. -/
abbrev prev (t : Fin cfg1.N) : t.val - 1 < cfg1.N := Nat.lt_of_le_of_lt (Nat.sub_le _ _) t.isLt

/-- At a middle key tile: that case, over what the point before left. -/
theorem stateAt_middle (c : Dev nD) (t : Fin cfg1.N) (h0 : ¬t.val % 4 = 0) (h1 : ¬t.val % 4 = 3) :
    stateAt V c t.val t.isLt
      = (outMiddle V c t (fun h => h0 ((isFirst_iff t).mp h)) (fun h => h1 ((isLast_iff t).mp h)) (stateAt V c (t.val - 1) (prev t)).2,
         carryMiddle V c t (fun h => h0 ((isFirst_iff t).mp h)) (fun h => h1 ((isLast_iff t).mp h)) (stateAt V c (t.val - 1) (prev t)).2) := by
  obtain ⟨n, hn⟩ := t
  cases n with
  | zero => exact (by exfalso; (try dsimp only at h0); exact absurd (Nat.zero_mod _) h0)
  | succ n => exact (dif_neg h0).trans ((dif_neg h1).trans rfl)

/-- At a last key tile: that case, over what the point before left. -/
theorem stateAt_last (c : Dev nD) (t : Fin cfg1.N) (h0 : ¬t.val % 4 = 0) (h1 : t.val % 4 = 3) :
    stateAt V c t.val t.isLt
      = (outLast V c t (fun h => h0 ((isFirst_iff t).mp h)) ((isLast_iff t).mpr h1) (stateAt V c (t.val - 1) (prev t)).2,
         carryLast V c t (fun h => h0 ((isFirst_iff t).mp h)) ((isLast_iff t).mpr h1) (stateAt V c (t.val - 1) (prev t)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: the launch's invariant before the first point; afterwards the three scratch buffers at what the
    point before left, the other scoped buffers at anything, the generator register at some state. -/
def PhiS (c : Dev nD) : (n : ℕ) → n ≤ cfg1.N → sProp 𝕄
  | 0, _ => Pipeline.ΦA spec1 c
  | n + 1, hn => iprop((owns (c : Thread nD τ) scMax fullShare (stateAt V c n hn).2.1 ∗ owns (c : Thread nD τ) scSum fullShare (stateAt V c n hn).2.2.1
      ∗ owns (c : Thread nD τ) scAcc fullShare (stateAt V c n hn).2.2.2 ∗ othersHeld c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scMax fullShare (stateAt V c n hn).2.1 ∗ owns (c : Thread nD τ) scSum fullShare (stateAt V c n hn).2.2.1
      ∗ owns (c : Thread nD τ) scAcc fullShare (stateAt V c n hn).2.2.2 ∗ othersHeld c) ∗ (∃ r, prngReg c r)) := rfl

theorem PhiS_pos (c : Dev nD) (n : ℕ) (h : n ≤ cfg1.N) (hz : n ≠ 0) :
    PhiS V c n h = iprop((owns (c : Thread nD τ) scMax fullShare (stateAt V c (n - 1) (by omega)).2.1 ∗ owns (c : Thread nD τ) scSum fullShare (stateAt V c (n - 1) (by omega)).2.2.1
      ∗ owns (c : Thread nD τ) scAcc fullShare (stateAt V c (n - 1) (by omega)).2.2.2 ∗ othersHeld c) ∗ (∃ r, prngReg c r)) := by
  cases n with
  | zero => exact absurd rfl hz
  | succ n => rfl

/-! ## The proof data -/

/-- The arrays as the region finds them; after the body at a point each input's buffer at its block and the output's at
    what `stateAt` says; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (stateAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = (stateAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

theorem leaves0 (c : Dev nD) (t : Fin cfg1.N) :
    (dat V c).leavesExact 0 t = owns (c : Thread nD τ) (ms0 t) fullShare (iblk V c 0 t) := by
  unfold Dat.leavesExact; rw [live0 t, after0]
theorem leaves1 (c : Dev nD) (t : Fin cfg1.N) :
    (dat V c).leavesExact 1 t = owns (c : Thread nD τ) (ms1 t) fullShare (iblk V c 1 t) := by
  unfold Dat.leavesExact; rw [live1 t, after1]
theorem leaves2 (c : Dev nD) (t : Fin cfg1.N) :
    (dat V c).leavesExact 2 t = owns (c : Thread nD τ) (ms2 t) fullShare (iblk V c 2 t) := by
  unfold Dat.leavesExact; rw [live2 t, after2]
theorem leaves3 (c : Dev nD) (t : Fin cfg1.N) :
    (dat V c).leavesExact 3 t = owns (c : Thread nD τ) (ms3 t) fullShare (iblk V c 3 t) := by
  unfold Dat.leavesExact; rw [live3 t, after3]
theorem leaves4 (c : Dev nD) (t : Fin cfg1.N) :
    (dat V c).leavesExact 4 t = owns (c : Thread nD τ) (ms4 t) fullShare (iblk V c 4 t) := by
  unfold Dat.leavesExact; rw [live4 t, after4]

/-! ## The body obligation -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point. The inputs' memrefs hold their blocks; the position modulo 4 says which case the point is in;
    the invariant hands the run the scratch buffers at what the point before left (at anything before the first point)
    and takes them back at this point's contents; off a last key tile the output's buffer is handed back as found; the
    core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4]
  have hN : t.val < 32 := lt_of_lt_of_eq t.isLt (show cfg1.N = 32 from N_1)
  by_cases h0 : t.val % 4 = 0
  · by_cases h1 : t.val % 4 = 3
    · exfalso; omega
    · rw [Dat.leavesExact_idle (dat V c) 5 t (idle5 t (fun h => h1 ((isLast_iff t).mp h))) (noFlush5 t (fun h => h1 ((isLast_iff t).mp h)))]
      rw [stateAt_first V c t h0 h1]
      unfold carryFirst; (try dsimp only)
      by_cases hz : t.val = 0
      · rw [Phi_castSucc V c t, PhiS_zero V c _ _ hz, PhiA_eq]
        iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
        iapply ((atFirst V c t ((isFirst_iff t).mpr h0) (fun h => h1 ((isLast_iff t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HS]; · iexact HS
        isplitl [HA]; · iexact HA
        iintro ⟨H0, H1, H2, H3, H4, H5, ⟨%em, HM⟩, ⟨%es, HS⟩, ⟨%ea, HA⟩⟩
        isplitl [HM HS HA HR Hg]
        · isplitl [HM HS HA HR]
          · isplitl [HM]
            · unfold owns; iexists _; isplitr
              swap; · iexact HM
              ipureintro; exact View.read_writes_of_cover _ _ _ _ _ (coverFirstMax V c t _ _)
            isplitl [HS]
            · unfold owns; iexists _; isplitr
              swap; · iexact HS
              ipureintro; exact View.read_writes_of_cover _ _ _ _ _ (coverFirstSum V c t _ _)
            isplitl [HA]
            · unfold owns; iexists _; isplitr
              swap; · iexact HA
              ipureintro; exact View.read_writes_of_cover _ _ _ _ _ (coverFirstAcc V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi_castSucc V c t, PhiS_pos V c _ _ hz]
        iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
        iapply ((atFirst V c t ((isFirst_iff t).mpr h0) (fun h => h1 ((isLast_iff t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexists _; iexact HM
        isplitl [HS]; · iexists _; iexact HS
        isplitl [HA]; · iexists _; iexact HA
        iintro ⟨H0, H1, H2, H3, H4, H5, ⟨%em, HM⟩, ⟨%es, HS⟩, ⟨%ea, HA⟩⟩
        isplitl [HM HS HA HR Hg]
        · isplitl [HM HS HA HR]
          · isplitl [HM]
            · unfold owns; iexists _; isplitr
              swap; · iexact HM
              ipureintro; exact View.read_writes_of_cover _ _ _ _ _ (coverFirstMax V c t _ _)
            isplitl [HS]
            · unfold owns; iexists _; isplitr
              swap; · iexact HS
              ipureintro; exact View.read_writes_of_cover _ _ _ _ _ (coverFirstSum V c t _ _)
            isplitl [HA]
            · unfold owns; iexists _; isplitr
              swap; · iexact HA
              ipureintro; exact View.read_writes_of_cover _ _ _ _ _ (coverFirstAcc V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dat V c).leavesExact 5 t = owns (c : Thread nD τ) (ms5 t) fullShare ((dat V c).after 5 t) from by
        unfold Dat.leavesExact; rw [live5 t ((isLast_iff t).mpr h1)], after5]
      rw [stateAt_last V c t h0 h1]
      unfold outLast carryLast; (try dsimp only)
      rw [Phi_castSucc V c t, PhiS_pos V c _ _ hz]
      iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
      iapply ((atLast V c t (fun h => h0 ((isFirst_iff t).mp h)) ((isLast_iff t).mpr h1) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, ⟨%e5, H5⟩, ⟨%em, HM⟩, ⟨%es, HS⟩, ⟨%ea, HA⟩⟩
      isplitl [HM HS HA HR Hg]
      · isplitl [HM HS HA HR]
        · isplitl [HM]
          · unfold owns; iexists _; isplitr
            swap; · iexact HM
            ipureintro; exact View.read_writes_of_cover _ _ _ _ _ (coverLastMax V c t _ _ _)
          isplitl [HS]
          · unfold owns; iexists _; isplitr
            swap; · iexact HS
            ipureintro; exact View.read_writes_of_cover _ _ _ _ _ (coverLastSum V c t _ _ _)
          isplitl [HA]
          · unfold owns; iexists _; isplitr
            swap; · iexact HA
            ipureintro; exact View.read_writes_of_cover _ _ _ _ _ (coverLastAcc V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastOut V c t _ _ _)
    · rw [Dat.leavesExact_idle (dat V c) 5 t (idle5 t (fun h => h1 ((isLast_iff t).mp h))) (noFlush5 t (fun h => h1 ((isLast_iff t).mp h)))]
      rw [stateAt_middle V c t h0 h1]
      unfold carryMiddle; (try dsimp only)
      rw [Phi_castSucc V c t, PhiS_pos V c _ _ hz]
      iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
      iapply ((atMiddle V c t (fun h => h0 ((isFirst_iff t).mp h)) (fun h => h1 ((isLast_iff t).mp h)) _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, ⟨%em, HM⟩, ⟨%es, HS⟩, ⟨%ea, HA⟩⟩
      isplitl [HM HS HA HR Hg]
      · isplitl [HM HS HA HR]
        · isplitl [HM]
          · unfold owns; iexists _; isplitr
            swap; · iexact HM
            ipureintro; exact View.read_writes_of_cover _ _ _ _ _ (coverMiddleMax V c t _ _ _)
          isplitl [HS]
          · unfold owns; iexists _; isplitr
            swap; · iexact HS
            ipureintro; exact View.read_writes_of_cover _ _ _ _ _ (coverMiddleSum V c t _ _ _)
          isplitl [HA]
          · unfold owns; iexists _; isplitr
            swap; · iexact HA
            ipureintro; exact View.read_writes_of_cover _ _ _ _ _ (coverMiddleAcc V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: what the scratch buffers hold is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HM, HS, HA, HR⟩, Hg⟩
  isplitl [HM HS HA HR]
  · isplitl [HM]; · iexists _; iexact HM
    isplitl [HS]; · iexists _; iexact HS
    isplitl [HA]; · iexists _; iexact HA
    iexact HR
  iexact Hg

theorem hout (c : Dev nD) : (dat V c).Φ (Fin.last cfg1.N) ⊢ Pipeline.ΦA spec1 c :=
  Phi_out V c _ (by rw [Fin.val_last]; have : cfg1.N = 32 := N_1; omega)

/-- info: 'Cert.Kernel.Flash.body_obligation' depends on axioms: [propext, Classical.choice, Quot.sound] -/
#guard_msgs in #print axioms body_obligation

end Cert.Kernel.Flash

end
-- ==== Proof.WordWholeRun.lean ====
/-
  The whole run of the kernel program: the host prefix (zero-padding the projection weights and biases from 64 to 128
  output features), the projection region, the attention region, the host suffix (slicing the output back to 64 features).

  Between two items a core holds every unscoped buffer at known contents: the launch memory, then each host stretch
  applied in turn, then — after a region — the region's arrays at what its pipeline leaves (inputs as entered, each output
  at its written-back blocks) and every other buffer as before. Each region is a segment of the several-regions launch
  theorem entered from and left at those contents. The run's conclusion names EVERY unscoped buffer of every core at the
  final contents; the frame (the arguments end as launched) and the result buffer's contents are read off it.
-/
import proofs.«121072_j35897336660236_2_alg».proof.Proof.Gen.Kernel.Regions
import proofs.«121072_j35897336660236_2_alg».proof.Proof.WordQkvRegion
import proofs.«121072_j35897336660236_2_alg».proof.Proof.WordFlashRegion

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- The projection region's entry contents: the launch memory after the twelve host stretches of the prefix, read at
    the TensorCore's references. -/
abbrev In0 : (c : Dev nD) → (b : Ref sig .tc) → Buf (Elt F) ((c : Thread nD τ).loc b) := fun c b => V12 m c b

/-- At the projection region's exit: its arrays at what the pipeline leaves, every other buffer as entered. -/
def Mid (c : Dev nD) : Valuation τ sig (Elt F) :=
  Pipeline.withArrays spec0 c (V12 m c) fun w => (Qkv.dat0 (In0 m) c).arrAt w cfg0.N
theorem Mid_arr (c : Dev nD) (w : Fin cfg0.W) :
    Mid m c (Proc.devRef .tc (Pipeline.arrRef spec0 w)) = (Qkv.dat0 (In0 m) c).arrAt w cfg0.N := by
  unfold Mid; exact Pipeline.withArrays_arr spec0 launch0.win.arr_inj c _ _ w
theorem Mid_of_ne (c : Dev nD) (b : Ref sig .tc) (hb : ∀ w, Pipeline.arrRef spec0 w ≠ b) :
    Mid m c (Proc.devRef .tc b) = V12 m c (Proc.devRef .tc b) := by
  unfold Mid; exact Pipeline.withArrays_of_ne spec0 c _ _ b hb
/-- The attention region's entry contents. -/
abbrev In1 : (c : Dev nD) → (b : Ref sig .tc) → Buf (Elt F) ((c : Thread nD τ).loc b) := fun c b => Mid m c b
theorem hF0 (c : Dev nD) (w : Fin cfg0.W) : (Qkv.dat0 (In0 m) c).arrAt w cfg0.N = In1 m c (Pipeline.arrRef spec0 w) :=
  (Mid_arr m c w).symm
theorem hrest0 (c : Dev nD) : ∀ b, b ∉ Finset.univ.image (Pipeline.arrRef spec0) → In1 m c b = In0 m c b :=
  fun b hb => Mid_of_ne m c b fun w e => hb (Finset.mem_image.mpr ⟨w, Finset.mem_univ _, e⟩)

/-- At the attention region's exit. -/
def Late (c : Dev nD) : Valuation τ sig (Elt F) :=
  Pipeline.withArrays spec1 c (Mid m c) fun w => (Flash.dat (In1 m) c).arrAt w cfg1.N
theorem Late_arr (c : Dev nD) (w : Fin cfg1.W) :
    Late m c (Proc.devRef .tc (Pipeline.arrRef spec1 w)) = (Flash.dat (In1 m) c).arrAt w cfg1.N := by
  unfold Late; exact Pipeline.withArrays_arr spec1 launch1.win.arr_inj c _ _ w
theorem Late_of_ne (c : Dev nD) (b : Ref sig .tc) (hb : ∀ w, Pipeline.arrRef spec1 w ≠ b) :
    Late m c (Proc.devRef .tc b) = Mid m c (Proc.devRef .tc b) := by
  unfold Late; exact Pipeline.withArrays_of_ne spec1 c _ _ b hb
abbrev Out1 : (c : Dev nD) → (b : Ref sig .tc) → Buf (Elt F) ((c : Thread nD τ).loc b) := fun c b => Late m c b
theorem hF1 (c : Dev nD) (w : Fin cfg1.W) : (Flash.dat (In1 m) c).arrAt w cfg1.N = Out1 m c (Pipeline.arrRef spec1 w) :=
  (Late_arr m c w).symm
theorem hrest1 (c : Dev nD) : ∀ b, b ∉ Finset.univ.image (Pipeline.arrRef spec1) → Out1 m c b = In1 m c b :=
  fun b hb => Late_of_ne m c b fun w e => hb (Finset.mem_image.mpr ⟨w, Finset.mem_univ _, e⟩)

/-- After the host suffix: the final contents. -/
abbrev End (c : Dev nD) : Valuation τ sig (Elt F) := StableHlo.after hostOps2 (Late m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Qkv.dat0 (In0 m) c
  | ⟨1, _⟩ => fun c => Flash.dat (In1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the final contents, the generator register. -/
abbrev Tₙ (c : Dev nD) : sProp 𝕄 := iprop(StableHlo.held (c : Thread nD τ) (Pipeline.ucRefs τ sig) (End m c) ∗ ∃ r, prngReg c r)

/-! ## The regions as segments -/

-- unifying a library lemma stated over the pinned configuration with the printed one unfolds plain definitions in a
-- metavariable's type
set_option backward.isDefEq.respectTransparency.types false in
/-- Region 0 over the thread state: entered with every unscoped buffer at `V12`, left with them at `Mid`. Its arrays
    are split out of the unscoped buffers and put back at what the pipeline leaves; the generator register goes into
    the region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation0 (In0 m) c).loose
  hwaits := Pipeline.hwaits_of_owed_zero _ _ _ _ L lv 0 fun _ _ => rfl
  pre c := iprop(StableHlo.held (c : Thread nD τ) (Pipeline.ucRefs τ sig) (V12 m c) ∗ R c)
  post c := iprop(StableHlo.held (c : Thread nD τ) (Pipeline.ucRefs τ sig) (Mid m c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (In1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Region 1 over the thread state: entered with every unscoped buffer at `Mid`, left with them at `Late`. Its arrays
    are split out of the unscoped buffers and put back at what the pipeline leaves; the generator register goes into
    the region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation (In1 m) c).loose
  hwaits := Pipeline.hwaits_of_owed_zero _ _ _ _ L lv 1 fun _ _ => rfl
  pre c := iprop(StableHlo.held (c : Thread nD τ) (Pipeline.ucRefs τ sig) (Mid m c) ∗ R c)
  post c := iprop(StableHlo.held (c : Thread nD τ) (Pipeline.ucRefs τ sig) (Late m c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Flash.hin (In1 m) c)
    unfold Pipeline.ΦA
    iintro ⟨Hp, -, Hr⟩
    isplitl [Hr]; · iexact Hr
    iexact Hp
  hout c := by
    rw [Pipeline.ownSems0_none]
    refine BIBase.Entails.trans (Flash.hout (In1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host suffix as the last segment: it leaves the final thread state beside nothing owed. -/
abbrev lastSeg : Pipeline.HostSeg (Name := ℕ) (U := UR sig nD τ) (pcfgs (F := F)) defs₀ 𝒱₀ L lv :=
  hseg hostOps2 hostOps2_sub hostOps2_fresh (Late m)

/-- @main's fifteen segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .region (reg0 m),
    .region (reg1 m),
    .host (lastSeg m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state every unscoped buffer of every core holds the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = End m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (End m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = End m c b)
    (hfin := fun c s' => by
      iintro ⟨⟨Hh, -⟩, HSI⟩
      unfold StableHlo.held
      imodintro
      iapply (pointsTo_read_all (Pipeline.ucRefs τ sig) (fun b => (((c : Thread nD τ)).1, b)) (End m c) s')
      isplitl [Hh] <;> iassumption)
    (hQ := fun s h c => h c)

/-- info: 'Cert.Kernel.Whole.run_all' depends on axioms: [propext, Classical.choice, Quot.sound] -/
#guard_msgs in #print axioms run_all

/-! ## The arguments end as launched -/

/-- A buffer the host prefix does not write reaches the projection region as launched. -/
theorem prefix_keep (c : Dev nD) (b : Ref sig .tc)
    (hp : b ∉ hostOps0_11_W ∧ b ∉ hostOps0_10_W ∧ b ∉ hostOps0_9_W ∧ b ∉ hostOps0_8_W ∧ b ∉ hostOps0_7_W ∧ b ∉ hostOps0_6_W ∧ b ∉ hostOps0_5_W ∧ b ∉ hostOps0_4_W ∧ b ∉ hostOps0_3_W ∧ b ∉ hostOps0_2_W ∧ b ∉ hostOps0_1_W ∧ b ∉ hostOps0_W) :
    V12 m c b = m ((c : Thread nD τ).loc b) :=
  (V12_of m c b hp.1).trans <| (V11_of m c b hp.2.1).trans <| (V10_of m c b hp.2.2.1).trans <| (V9_of m c b hp.2.2.2.1).trans <| (V8_of m c b hp.2.2.2.2.1).trans <| (V7_of m c b hp.2.2.2.2.2.1).trans <| (V6_of m c b hp.2.2.2.2.2.2.1).trans <| (V5_of m c b hp.2.2.2.2.2.2.2.1).trans <| (V4_of m c b hp.2.2.2.2.2.2.2.2.1).trans <| (V3_of m c b hp.2.2.2.2.2.2.2.2.2.1).trans <| (V2_of m c b hp.2.2.2.2.2.2.2.2.2.2.1).trans <| (V1_of m c b hp.2.2.2.2.2.2.2.2.2.2.2).trans rfl

/-- A buffer no host stretch writes and no region's pipeline stages ends as launched. -/
theorem End_of_untouched (c : Dev nD) (b : Ref sig .tc) (h2 : b ∉ hostOps2_W) (h1 : ∀ w, Pipeline.arrRef spec1 w ≠ b) (h0 : ∀ w, Pipeline.arrRef spec0 w ≠ b)
    (hp : b ∉ hostOps0_11_W ∧ b ∉ hostOps0_10_W ∧ b ∉ hostOps0_9_W ∧ b ∉ hostOps0_8_W ∧ b ∉ hostOps0_7_W ∧ b ∉ hostOps0_6_W ∧ b ∉ hostOps0_5_W ∧ b ∉ hostOps0_4_W ∧ b ∉ hostOps0_3_W ∧ b ∉ hostOps0_2_W ∧ b ∉ hostOps0_1_W ∧ b ∉ hostOps0_W) :
    End m c b = m ((c : Thread nD τ).loc b) :=
  (StableHlo.after_of_writes_sub hostOps2 _ hostOps2_writes h2).trans <| (Late_of_ne m c b h1).trans <| (Mid_of_ne m c b h0).trans <| prefix_keep m c b hp

/-- The features are the projection region's first input: its pipeline leaves an input array as entered. -/
theorem End_main_arg0 (c : Dev nD) : End m c main_arg0 = m ((c : Thread nD τ).loc main_arg0) :=
  (StableHlo.after_of_writes_sub hostOps2 _ hostOps2_writes (by decide)).trans <| (Late_of_ne m c main_arg0 (by decide)).trans <|
    (Mid_arr m c 0).trans <| ((Qkv.dat0 (In0 m) c).arrAt_in 0 rfl _).trans <| (Qkv.A_eq0 (In0 m) c 0).trans <|
    prefix_keep m c main_arg0 ⟨by decide, by decide, by decide, by decide, by decide, by decide, by decide, by decide, by decide, by decide, by decide, by decide⟩
/-- The two additive biases are inputs of the attention region. -/
theorem End_main_arg1 (c : Dev nD) : End m c main_arg1 = m ((c : Thread nD τ).loc main_arg1) :=
  (StableHlo.after_of_writes_sub hostOps2 _ hostOps2_writes (by decide)).trans <| (Late_arr m c 3).trans <|
    ((Flash.dat (In1 m) c).arrAt_in 3 rfl _).trans <| (Flash.A_eq (In1 m) c 3).trans <| (Mid_of_ne m c main_arg1 (by decide)).trans <|
    prefix_keep m c main_arg1 ⟨by decide, by decide, by decide, by decide, by decide, by decide, by decide, by decide, by decide, by decide, by decide, by decide⟩
theorem End_main_arg2 (c : Dev nD) : End m c main_arg2 = m ((c : Thread nD τ).loc main_arg2) :=
  (StableHlo.after_of_writes_sub hostOps2 _ hostOps2_writes (by decide)).trans <| (Late_arr m c 4).trans <|
    ((Flash.dat (In1 m) c).arrAt_in 4 rfl _).trans <| (Flash.A_eq (In1 m) c 4).trans <| (Mid_of_ne m c main_arg2 (by decide)).trans <|
    prefix_keep m c main_arg2 ⟨by decide, by decide, by decide, by decide, by decide, by decide, by decide, by decide, by decide, by decide, by decide, by decide⟩
/-- The projection weights and biases are read by the host prefix only. -/
theorem End_main_arg3 (c : Dev nD) : End m c main_arg3 = m ((c : Thread nD τ).loc main_arg3) :=
  End_of_untouched m c main_arg3 (by decide) (by decide) (by decide) ⟨by decide, by decide, by decide, by decide, by decide, by decide, by decide, by decide, by decide, by decide, by decide, by decide⟩
theorem End_main_arg4 (c : Dev nD) : End m c main_arg4 = m ((c : Thread nD τ).loc main_arg4) :=
  End_of_untouched m c main_arg4 (by decide) (by decide) (by decide) ⟨by decide, by decide, by decide, by decide, by decide, by decide, by decide, by decide, by decide, by decide, by decide, by decide⟩
theorem End_main_arg5 (c : Dev nD) : End m c main_arg5 = m ((c : Thread nD τ).loc main_arg5) :=
  End_of_untouched m c main_arg5 (by decide) (by decide) (by decide) ⟨by decide, by decide, by decide, by decide, by decide, by decide, by decide, by decide, by decide, by decide, by decide, by decide⟩
theorem End_main_arg6 (c : Dev nD) : End m c main_arg6 = m ((c : Thread nD τ).loc main_arg6) :=
  End_of_untouched m c main_arg6 (by decide) (by decide) (by decide) ⟨by decide, by decide, by decide, by decide, by decide, by decide, by decide, by decide, by decide, by decide, by decide, by decide⟩
theorem End_main_arg7 (c : Dev nD) : End m c main_arg7 = m ((c : Thread nD τ).loc main_arg7) :=
  End_of_untouched m c main_arg7 (by decide) (by decide) (by decide) ⟨by decide, by decide, by decide, by decide, by decide, by decide, by decide, by decide, by decide, by decide, by decide, by decide⟩
theorem End_main_arg8 (c : Dev nD) : End m c main_arg8 = m ((c : Thread nD τ).loc main_arg8) :=
  End_of_untouched m c main_arg8 (by decide) (by decide) (by decide) ⟨by decide, by decide, by decide, by decide, by decide, by decide, by decide, by decide, by decide, by decide, by decide, by decide⟩

/-- The nine arguments, read off a final memory that holds every unscoped buffer at the final contents. -/
theorem args_kept (mem : (ℓ : Loc nD τ sig) → Buf (Elt F) ℓ) (c : Dev nD)
    (h : ∀ b ∈ Pipeline.ucRefs τ sig, mem (((c : Thread nD τ)).1, b) = End m c b) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8) :=
  ⟨(h _ (mem_uc main_arg0 (by decide))).trans (End_main_arg0 m c), (h _ (mem_uc main_arg1 (by decide))).trans (End_main_arg1 m c),
   (h _ (mem_uc main_arg2 (by decide))).trans (End_main_arg2 m c), (h _ (mem_uc main_arg3 (by decide))).trans (End_main_arg3 m c),
   (h _ (mem_uc main_arg4 (by decide))).trans (End_main_arg4 m c), (h _ (mem_uc main_arg5 (by decide))).trans (End_main_arg5 m c),
   (h _ (mem_uc main_arg6 (by decide))).trans (End_main_arg6 m c), (h _ (mem_uc main_arg7 (by decide))).trans (End_main_arg7 m c),
   (h _ (mem_uc main_arg8 (by decide))).trans (End_main_arg8 m c)⟩

/-- THE FRAME, at any float instance: every weakly fair execution terminates, nothing faults, the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r.2.mem c (h c)) (run_all m ρ)

end Cert.Kernel.Whole

end
-- ==== Proof.QkvRegion.lean ====
/- REGION 0 of the program's @main: the projection kernel `cc0__qkv_kernel` (pipeline 0), on its grid of
   2 x 4 = 8 points. At every point the body reads its seven input windows whole — the feature block of
   1024 rows and 512 columns, and the three padded weight matrices (128 x 512) with their three padded biases
   (128) —, forms the three products  x · Wᵀ + b  (the operands cut to bf16, the sum kept in f32, the result cut to
   bf16) and writes each whole into its own output window (1024 x 128). So what the body leaves in an output
   buffer is a closed function of three input blocks, and an input buffer is left as found.

   This module states that, at ANY float instance `F` and at ANY contents `V` of the core's buffers when the
   region is entered:
   * `iblk0`     — a window's block at a point, read off its array at `V`;
   * `before0_W_of` — an input window's staging buffer holds that block at every point, whether the pipeline
     fetched it there (the feature window, at every point) or not (a weight or a bias: fetched at the first point
     only, its block index never moves afterwards);
   * `out0_7`, `out0_8`, `out0_9` — the output buffers after the body, as the one store's payload laid over the
     whole buffer, with `cover0_W`: that one rectangle is the whole buffer;
   * `sound_kernel0` — the body's triple on whole staging memrefs;
   * `dat0` — the pipeline's proof data, with `A_eq0`, `after0_W`, `before0_W`;
   * `body_obligation0` — the body obligation of the pipeline at every point. -/
import proofs.«121072_j35897336660236_2_alg».proof.Proof.Gen.KernelIdeal.Launch
import proofs.«121072_j35897336660236_2_alg».proof.Proof.Gen.KernelIdeal.Skeleton
import proofs.«121072_j35897336660236_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents is decided by a structural recursion, one step per coordinate of the
-- long axes
set_option maxRecDepth 16384

noncomputable section

namespace Cert.KernelIdeal.Qkv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point (the feature window: its block index moves with the point and it is fetched at every point), for ANY proof data whose
    array is `V`'s (`hA`) and whose body leaves the block in place (`hafter`). The window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point (a weight window: its block index is the same at every point, so after the one fetch at the first point the buffer still holds the block), for ANY proof data whose
    array is `V`'s (`hA`) and whose body leaves the block in place (`hafter`). The window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point (a bias window: its block index is the same at every point, so after the one fetch at the first point the buffer still holds the block), for ANY proof data whose
    array is `V`'s (`hA`) and whose body leaves the block in place (`hafter`). The window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point (a weight window: its block index is the same at every point, so after the one fetch at the first point the buffer still holds the block), for ANY proof data whose
    array is `V`'s (`hA`) and whose body leaves the block in place (`hafter`). The window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point (a bias window: its block index is the same at every point, so after the one fetch at the first point the buffer still holds the block), for ANY proof data whose
    array is `V`'s (`hA`) and whose body leaves the block in place (`hafter`). The window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point (a weight window: its block index is the same at every point, so after the one fetch at the first point the buffer still holds the block), for ANY proof data whose
    array is `V`'s (`hA`) and whose body leaves the block in place (`hafter`). The window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point (a bias window: its block index is the same at every point, so after the one fetch at the first point the buffer still holds the block), for ANY proof data whose
    array is `V`'s (`hA`) and whose body leaves the block in place (`hafter`). The window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is through the whole buffer -/

abbrev r0_0 : Rect S1x1024x512 := Rect.unit (s := S1x1024x512) ![0, 0, 0] S1x1024x512.size inb_S1x1024x512_S1x1024x512_0_0_0
abbrev r0_1 : Rect S128x512 := Rect.unit (s := S128x512) ![0, 0] S128x512.size inb_S128x512_S128x512_0_0
abbrev r0_2 : Rect S128 := Rect.unit (s := S128) ![0] S128.size inb_S128_S128_0
abbrev r0_3 : Rect S1x1024x128 := Rect.unit (s := S1x1024x128) ![0, 0, 0] S1x1024x128.size inb_S1x1024x128_S1x1024x128_0_0_0

/-! ## What the body leaves in each output window's buffer -/

/-- Window 7's staging buffer (the query block) after the body, from the feature block `x`, the weight block `w` and
    the bias block `b`: its one store, through the whole buffer, of  x · wᵀ + b  cut to bf16. -/
def out0_7 (x : Vec F S1x1024x512 .f32) (w : Vec F S128x512 .f32) (b : Vec F S128 .f32) : Vec F S1x1024x128 .bf16 :=
  View.canon [⟨r0_3, k0_pay5 (View.ld x r0_0) (View.ld w r0_1) (View.ld b r0_2)⟩]

/-- The one rectangle is the whole buffer, so it covers it. -/
theorem cover0_7 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 8's staging buffer (the key block) after the body, from the feature block `x`, the weight block `w` and
    the bias block `b`: its one store, through the whole buffer, of  x · wᵀ + b  cut to bf16. -/
def out0_8 (x : Vec F S1x1024x512 .f32) (w : Vec F S128x512 .f32) (b : Vec F S128 .f32) : Vec F S1x1024x128 .bf16 :=
  View.canon [⟨r0_3, k0_pay1 (k0_pay6 (View.ld x r0_0) (View.ld w r0_1) (View.ld b r0_2))⟩]

/-- The one rectangle is the whole buffer, so it covers it. -/
theorem cover0_8 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-- Window 9's staging buffer (the value block) after the body, from the feature block `x`, the weight block `w` and
    the bias block `b`: its one store, through the whole buffer, of  x · wᵀ + b  cut to bf16. -/
def out0_9 (x : Vec F S1x1024x512 .f32) (w : Vec F S128x512 .f32) (b : Vec F S128 .f32) : Vec F S1x1024x128 .bf16 :=
  View.canon [⟨r0_3, k0_pay2 (k0_pay4 (View.ld x r0_0) (View.ld w r0_1) (View.ld b r0_2))⟩]

/-- The one rectangle is the whole buffer, so it covers it. -/
theorem cover0_9 (p0 : Vec F S1x1024x128 .bf16) (y : S1x1024x128.Idx) :
    ∃ pc ∈ ([⟨r0_3, p0⟩] : List (View.Piece (Elt F) S1x1024x128 .bf16)), y ∈ pc.1.set :=
  View.cover_of_tiled [⟨r0_3, p0⟩] S1x1024x128.size (by rfl) y

/-! ## The body's triple -/

set_option maxHeartbeats 4000000 in
/-- The kernel body at any grid coordinates, on whole staging memrefs, the inputs' at read contents `xW` and the
    outputs' at anything, runs to the continuation holding the inputs' as they were and each output's at `out0_W` of the
    inputs'. (The body reads each output buffer once before it overwrites it whole; what it read there is used nowhere.) -/
theorem sound_kernel0 (c : Dev nD) (E : Set ℕ) (i : grid0.Coords) (arg2 : Memref sig .tc .vmem S1x1024x512 .f32) (harg2 : arg2.IsWhole) (arg3 : Memref sig .tc .vmem S128x512 .f32) (harg3 : arg3.IsWhole) (arg4 : Memref sig .tc .vmem S128 .f32) (harg4 : arg4.IsWhole) (arg5 : Memref sig .tc .vmem S128x512 .f32) (harg5 : arg5.IsWhole) (arg6 : Memref sig .tc .vmem S128 .f32) (harg6 : arg6.IsWhole) (arg7 : Memref sig .tc .vmem S128x512 .f32) (harg7 : arg7.IsWhole) (arg8 : Memref sig .tc .vmem S128 .f32) (harg8 : arg8.IsWhole) (arg9 : Memref sig .tc .vmem S1x1024x128 .bf16) (harg9 : arg9.IsWhole) (arg10 : Memref sig .tc .vmem S1x1024x128 .bf16) (harg10 : arg10.IsWhole) (arg11 : Memref sig .tc .vmem S1x1024x128 .bf16) (harg11 : arg11.IsWhole)
    (x0 : Vec F S1x1024x512 .f32) (x1 : Vec F S128x512 .f32) (x2 : Vec F S128 .f32) (x3 : Vec F S128x512 .f32) (x4 : Vec F S128 .f32) (x5 : Vec F S128x512 .f32) (x6 : Vec F S128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2) ∗ owns (c : Thread nD τ) arg10 fullShare (out0_8 x0 x3 x4) ∗ owns (c : Thread nD τ) arg11 fullShare (out0_9 x0 x5 x6)) -∗ K ⟨⟩))
      ⊢ wp frame (wpE (defs₀ (F := F)) Variants.none c none) E (cc0__qkv_kernel i arg2 harg2 arg3 harg3 arg4 harg4 arg5 harg5 arg6 harg6 arg7 harg7 arg8 harg8 arg9 harg9 arg10 harg10 arg11 harg11) K := by
  simp only [cc0__qkv_kernel_eq_skeleton]; unfold cc0__qkv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover0_7 _)
  isplitl [H8]
  · iexists _; isplitr
    swap; · iexact H8
    ipureintro
    try dsimp only
    exact View.read_writes_eq_canon _ _ _ (cover0_8 _)
  iexists _; isplitr
  swap; · iexact H9
  ipureintro
  try dsimp only
  exact View.read_writes_eq_canon _ _ _ (cover0_9 _)

/-! ## The pipeline's proof data -/

/-- The proof data of pipeline 0 on core `c`: the arrays as the region finds them (`V`); after the body at point `t`
    each input's buffer at its block and each output's at `out0_W` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant
    and the core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- info: 'Cert.KernelIdeal.Qkv.body_obligation0' depends on axioms: [propext, Classical.choice, Quot.sound] -/
#guard_msgs in #print axioms body_obligation0

end Cert.KernelIdeal.Qkv

end
-- ==== Proof.FlashRuns.lean ====
/-
  The flash-attention region (the second pallas_call), what its three control cases share.

  The grid is (batch, query tile, key tile) = (2, 4, 4), the key tile innermost: point t works on key tile t mod 4.
  The body keeps three scratch buffers between points — the running row maximum, the running normaliser and the
  running accumulator — which it resets at key tile 0, updates at every tile, and divides into the output block at key
  tile 3. So a point is in one of three cases: first tile (reset, no output), a middle tile (no reset, no output), last
  tile (no reset, output stored). Stated here, for any float instance and any contents V of the buffers at the region's
  entry: the blocks the windows show at a point, that an input's staging buffer holds its block whether or not it was
  fetched at that point, the two branch conditions in closed form over the points, where the output window is idle,
  the names of the staging and scratch memrefs, and the region invariant with the three scratch buffers in front.
-/
import proofs.«121072_j35897336660236_2_alg».proof.Proof.Gen.KernelIdeal.Launch
import proofs.«121072_j35897336660236_2_alg».proof.Proof.Gen.KernelIdeal.Skeleton
import proofs.«121072_j35897336660236_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where the pipeline
    does not fetch it the block index has not moved since the point before. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where the pipeline
    does not fetch it the block index has not moved since the point before. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where the pipeline
    does not fetch it the block index has not moved since the point before. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where the pipeline
    does not fetch it the block index has not moved since the point before. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where the pipeline
    does not fetch it the block index has not moved since the point before. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- "This is key tile 0": the first conditional of the body, a chain of comparisons on the third grid coordinate. -/
abbrev isFirst (i : grid1.Coords) : Prop := (Scalar.cmpi .ne (Scalar.extui (Scalar.cmpi .eq (BitVec.ofNat 32 (i 2).val) 0#32)) 0#32) = 1#1
/-- It holds at the points that are 0 modulo 4. -/
theorem isFirst_iff : ∀ t : Fin cfg1.N, isFirst (grid1.coords t) ↔ t.val % 4 = 0 :=
  (by decide +kernel : ∀ t : Fin grid1.N, isFirst (grid1.coords t) ↔ t.val % 4 = 0)

/-- "This is key tile 3": the second conditional. -/
abbrev isLast (i : grid1.Coords) : Prop := k1_cond2 i = 1#1
/-- It holds at the points that are 3 modulo 4. -/
theorem isLast_iff : ∀ t : Fin cfg1.N, isLast (grid1.coords t) ↔ t.val % 4 = 3 :=
  (by decide +kernel : ∀ t : Fin grid1.N, isLast (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem live3 : ∀ t : Fin cfg1.N, cfg1.idle 3 (grid1.coords t) = false := by decide +kernel
theorem live4 : ∀ t : Fin cfg1.N, cfg1.idle 4 (grid1.coords t) = false := by decide +kernel
/-- Off the last key tile the output window is idle: the body stores nothing into it -/
theorem idle5 : ∀ t : Fin cfg1.N, ¬isLast (grid1.coords t) → cfg1.idle 5 (grid1.coords t) = true := by decide +kernel
/-- and the pipeline does not write its block back. -/
theorem noFlush5 : ∀ t : Fin cfg1.N, ¬isLast (grid1.coords t) → (cfg1.win 5).flush t = false := by decide +kernel
/-- On the last key tile it is live. -/
theorem live5 : ∀ t : Fin cfg1.N, isLast (grid1.coords t) → cfg1.idle 5 (grid1.coords t) = false := by decide +kernel

/-! ## The memrefs the body is called with -/

/-- One staging buffer of the output window, through which its contents are stated. -/
abbrev VO : View sig .tc .vmem S1x1024x128 .f32 := (Memref.whole cc1_stg5_0 : Memref sig .tc .vmem S1x1024x128 .f32).view
abbrev ms0 (t : Fin cfg1.N) : Memref sig .tc .vmem S1x1024x128 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x128 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x128 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1x1024x1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024x128 .f32 := win1_5.stage (cfg1.slots t 5)
abbrev hs5 (t : Fin cfg1.N) : (ms5 t).IsWhole := hstage1_5 ((cfg1.slots t 5).cast nbuf1_5)
/-- The running row maximum, -/
abbrev scMax : Memref sig .tc .vmem S1024x1 .f32 := Memref.whole cc1_scratch0
/-- the running normaliser, -/
abbrev scSum : Memref sig .tc .vmem S1024x1 .f32 := Memref.whole cc1_scratch1
/-- the running accumulator. -/
abbrev scAcc : Memref sig .tc .vmem S1024x128 .f32 := Memref.whole cc1_scratch2
abbrev VMax : View sig .tc .vmem S1024x1 .f32 := scMax.view
abbrev VSum : View sig .tc .vmem S1024x1 .f32 := scSum.view
abbrev VAcc : View sig .tc .vmem S1024x128 .f32 := scAcc.view

/-! ## The region invariant with the scratch in front -/

/-- The scoped buffers of the core that this region neither stages nor uses as scratch: the other region's staging buffers. -/
abbrev others : List (Ref sig .tc) :=
  [cc0_stg0_0, cc0_stg0_1, cc0_stg1_0, cc0_stg2_0, cc0_stg3_0, cc0_stg4_0, cc0_stg5_0, cc0_stg6_0, cc0_stg7_0, cc0_stg7_1, cc0_stg8_0, cc0_stg8_1, cc0_stg9_0, cc0_stg9_1]

/-- Those buffers, each whole at some contents. -/
def othersHeld (c : Dev nD) : sProp 𝕄 :=
  bigSepL others fun b => iprop(∃ f : Buf (Elt F) ((c : Thread nD τ).loc b), ((c : Thread nD τ).loc b) ↦{fullShare} f)

/-- What the launch hands the region besides the windows: the three scratch buffers at some contents, the other scoped
    buffers, the generator register. -/
theorem PhiA_eq (c : Dev nD) :
    (Pipeline.ΦA spec1 c : sProp 𝕄)
      = iprop(((∃ d, owns (c : Thread nD τ) scMax fullShare d) ∗ (∃ d, owns (c : Thread nD τ) scSum fullShare d) ∗ (∃ d, owns (c : Thread nD τ) scAcc fullShare d) ∗ othersHeld c) ∗ (∃ r, prngReg c r)) := by
  unfold Pipeline.ΦA
  rw [Pipeline.scopedRest_eq_of_list spec1 c (cc1_scratch0 :: cc1_scratch1 :: cc1_scratch2 :: others) (by decide) (by decide)]
  simp only [scMax, scSum, scAcc, owns_whole]
  rfl

end Cert.KernelIdeal.Flash

end
-- ==== Proof.FlashRunA.lean ====
/-
  The flash-attention body at a FIRST key tile (reset taken, output not stored).

  On whole staging memrefs — the five inputs at their blocks, the output's at contents handed back untouched, the three
  scratch buffers at anything — the body runs to the end leaving the inputs and the output as they were and each scratch
  buffer with the pieces its stores wrote (the reset, then the update). The pieces are found by the run itself.
-/
import proofs.«121072_j35897336660236_2_alg».proof.Proof.FlashRuns

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a first key tile, with the pieces each scratch buffer ends with. -/
noncomputable def runFirst (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : isFirst i) (hc1 : ¬isLast i)
    (x0 : Vec F S1x1024x128 .bf16) (x1 : Vec F S1x1024x128 .bf16) (x2 : Vec F S1x1024x128 .bf16) (x3 : Vec F S1x1024x1024 .f32) (x4 : Vec F S1x1024x1024 .f32) :
    Σ' (L5 : List (View.Piece (Elt F) S1x1024x128 .f32)) (LM : List (View.Piece (Elt F) S1024x1 .f32)) (LS : List (View.Piece (Elt F) S1024x1 .f32)), { LA : List (View.Piece (Elt F) S1024x128 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dm, %fm, -, HM⟩, ⟨%ds, %fs, -, HS⟩, ⟨%da, %fa, -, HA⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HS]; · iexists _; iexact HS
    iexists _; iexact HA

end Cert.KernelIdeal.Flash

end
-- ==== Proof.FlashRunB.lean ====
/-
  The flash-attention body at a MIDDLE key tile (no reset, output not stored).

  On whole staging memrefs — the five inputs at their blocks, the output's at contents handed back untouched, the three
  scratch buffers at what the tile before left — the body runs to the end leaving the inputs and the output as they were
  and each scratch buffer with the pieces its update wrote.
-/
import proofs.«121072_j35897336660236_2_alg».proof.Proof.FlashRunA

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a middle key tile, with the pieces each scratch buffer ends with. -/
noncomputable def runMiddle (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : ¬isLast i)
    (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    Σ' (L5 : List (View.Piece (Elt F) S1x1024x128 .f32)) (LM : List (View.Piece (Elt F) S1024x1 .f32)) (LS : List (View.Piece (Elt F) S1024x1 .f32)), { LA : List (View.Piece (Elt F) S1024x128 .f32) //
      ∀ (xi5 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ owns (c : Thread nD τ) arg9 fullShare xm ∗ owns (c : Thread nD τ) arg10 fullShare xs ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨[], ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fm, %hfm, HM⟩, ⟨%fs, %hfs, HS⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    obtain rfl := harg9.eq_unread hfm; obtain rfl := harg10.eq_unread hfs; obtain rfl := harg11.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HM]; · iexists _; iexact HM
    isplitl [HS]; · iexists _; iexact HS
    iexists _; iexact HA

end Cert.KernelIdeal.Flash

end
-- ==== Proof.FlashRunC.lean ====
/-
  The flash-attention body at a LAST key tile (no reset, output stored).

  On whole staging memrefs — the five inputs at their blocks, the output's at anything, the three scratch buffers at
  what the tile before left — the body runs to the end leaving the inputs as they were, each scratch buffer with the
  pieces its update wrote, and the output's buffer with the piece its one store wrote: the accumulator over the
  normaliser.
-/
import proofs.«121072_j35897336660236_2_alg».proof.Proof.FlashRunB

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a last key tile, with the pieces the output's buffer and each scratch buffer end with. -/
noncomputable def runLast (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : isLast i)
    (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    Σ' (L5 : List (View.Piece (Elt F) S1x1024x128 .f32)) (LM : List (View.Piece (Elt F) S1024x1 .f32)) (LS : List (View.Piece (Elt F) S1024x1 .f32)), { LA : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare xm ∗ owns (c : Thread nD τ) arg10 fullShare xs ∗ owns (c : Thread nD τ) arg11 fullShare xa
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LS) ∗ (∃ f, arg11.view.loc (c : Thread nD τ) ↦[arg11.view.set]{fullShare} arg11.view.writes (Elt F) f LA)) -∗ K ⟨⟩))
          ⊢ wp frame (wpE (defs₀ (F := F)) Variants.none c none) E (cc1__flash_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fm, %hfm, HM⟩, ⟨%fs, %hfs, HS⟩, ⟨%fa, %hfa, HA⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hfm; obtain rfl := harg10.eq_unread hfs; obtain rfl := harg11.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HM]; · iexists _; iexact HM
    isplitl [HS]; · iexists _; iexact HS
    iexists _; iexact HA

end Cert.KernelIdeal.Flash

end
-- ==== Proof.FlashRegion.lean ====
/-
  The flash-attention region: what its buffers hold point by point, and its body obligation.

  After the body at a point the three scratch buffers hold what that point's case leaves — its stores' pieces read
  back — computed from the point's input blocks and, off the first key tile, from what the point before left. The output
  window's buffer holds, at a last key tile, the piece stored there (at the other points it is idle and handed back as
  found). The region invariant is the launch's before the first point and afterwards the three scratch buffers at the
  contents just described, beside the other scoped buffers and the generator register. The body obligation at a point
  is a case split on the point modulo 4 into the three runs.
-/
import proofs.«121072_j35897336660236_2_alg».proof.Proof.FlashRunC

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What is carried from one key tile to the next: the row maxima, the normalisers, the accumulators. -/
abbrev Carry (F : FTy → Type) [FloatOps F] : Type := Vec F S1024x1 .f32 × Vec F S1024x1 .f32 × Vec F S1024x128 .f32

/-! ## The three runs at a point of the grid -/

/-- The run of a first key tile at point t, on the pipeline's staging memrefs and the point's input blocks. -/
abbrev atFirst (c : Dev nD) (t : Fin cfg1.N) (h0 : isFirst (grid1.coords t)) (h1 : ¬isLast (grid1.coords t)) :=
  runFirst (F := F) c (grid1.coords t) (ms0 t) (hs0 t) (ms1 t) (hs1 t) (ms2 t) (hs2 t) (ms3 t) (hs3 t) (ms4 t) (hs4 t) (ms5 t) (hs5 t) scMax (Memref.isWhole_whole _) scSum (Memref.isWhole_whole _) scAcc (Memref.isWhole_whole _) h0 h1 (iblk V c 0 t) (iblk V c 1 t) (iblk V c 2 t) (iblk V c 3 t) (iblk V c 4 t)

/-- Its pieces for the row maxima cover their buffer, -/
theorem coverFirstMax (c : Dev nD) (t : Fin cfg1.N) (h0 : isFirst (grid1.coords t)) (h1 : ¬isLast (grid1.coords t)) (y : S1024x1.Idx) :
    ∃ pc ∈ (atFirst V c t h0 h1).2.1, y ∈ pc.1.set :=
  View.cover_of_tiledL (atFirst V c t h0 h1).2.1 S1024x1.size (by sl_kernel_rfl) y
/-- those for the normalisers theirs, -/
theorem coverFirstSum (c : Dev nD) (t : Fin cfg1.N) (h0 : isFirst (grid1.coords t)) (h1 : ¬isLast (grid1.coords t)) (y : S1024x1.Idx) :
    ∃ pc ∈ (atFirst V c t h0 h1).2.2.1, y ∈ pc.1.set :=
  View.cover_of_tiledL (atFirst V c t h0 h1).2.2.1 S1024x1.size (by sl_kernel_rfl) y
/-- those for the accumulators theirs. -/
theorem coverFirstAcc (c : Dev nD) (t : Fin cfg1.N) (h0 : isFirst (grid1.coords t)) (h1 : ¬isLast (grid1.coords t)) (y : S1024x128.Idx) :
    ∃ pc ∈ (atFirst V c t h0 h1).2.2.2.1, y ∈ pc.1.set :=
  View.cover_of_tiledL (atFirst V c t h0 h1).2.2.2.1 S1024x128.size (by sl_kernel_rfl) y

/-- What a first key tile leaves in the output window's buffer (nothing is stored: a placeholder nothing consults). -/
def outFirst (c : Dev nD) (t : Fin cfg1.N) (h0 : isFirst (grid1.coords t)) (h1 : ¬isLast (grid1.coords t)) : Vec F S1x1024x128 .f32 :=
  VO.read (Elt F) (VO.writes (Elt F) VO.junk (atFirst V c t h0 h1).1)
/-- What it leaves in the three scratch buffers: their pieces read back. -/
def carryFirst (c : Dev nD) (t : Fin cfg1.N) (h0 : isFirst (grid1.coords t)) (h1 : ¬isLast (grid1.coords t)) : Carry F :=
  (VMax.read (Elt F) (VMax.writes (Elt F) VMax.junk (atFirst V c t h0 h1).2.1),
   VSum.read (Elt F) (VSum.writes (Elt F) VSum.junk (atFirst V c t h0 h1).2.2.1),
   VAcc.read (Elt F) (VAcc.writes (Elt F) VAcc.junk (atFirst V c t h0 h1).2.2.2.1))

/-- The run of a middle key tile at point t, on the pipeline's staging memrefs and the point's input blocks, over the carry X. -/
abbrev atMiddle (c : Dev nD) (t : Fin cfg1.N) (h0 : ¬isFirst (grid1.coords t)) (h1 : ¬isLast (grid1.coords t)) (X : Carry F) :=
  runMiddle (F := F) c (grid1.coords t) (ms0 t) (hs0 t) (ms1 t) (hs1 t) (ms2 t) (hs2 t) (ms3 t) (hs3 t) (ms4 t) (hs4 t) (ms5 t) (hs5 t) scMax (Memref.isWhole_whole _) scSum (Memref.isWhole_whole _) scAcc (Memref.isWhole_whole _) h0 h1 (iblk V c 0 t) (iblk V c 1 t) (iblk V c 2 t) (iblk V c 3 t) (iblk V c 4 t) X.1 X.2.1 X.2.2

/-- Its pieces for the row maxima cover their buffer, -/
theorem coverMiddleMax (c : Dev nD) (t : Fin cfg1.N) (h0 : ¬isFirst (grid1.coords t)) (h1 : ¬isLast (grid1.coords t)) (X : Carry F) (y : S1024x1.Idx) :
    ∃ pc ∈ (atMiddle V c t h0 h1 X).2.1, y ∈ pc.1.set :=
  View.cover_of_tiledL (atMiddle V c t h0 h1 X).2.1 S1024x1.size (by sl_kernel_rfl) y
/-- those for the normalisers theirs, -/
theorem coverMiddleSum (c : Dev nD) (t : Fin cfg1.N) (h0 : ¬isFirst (grid1.coords t)) (h1 : ¬isLast (grid1.coords t)) (X : Carry F) (y : S1024x1.Idx) :
    ∃ pc ∈ (atMiddle V c t h0 h1 X).2.2.1, y ∈ pc.1.set :=
  View.cover_of_tiledL (atMiddle V c t h0 h1 X).2.2.1 S1024x1.size (by sl_kernel_rfl) y
/-- those for the accumulators theirs. -/
theorem coverMiddleAcc (c : Dev nD) (t : Fin cfg1.N) (h0 : ¬isFirst (grid1.coords t)) (h1 : ¬isLast (grid1.coords t)) (X : Carry F) (y : S1024x128.Idx) :
    ∃ pc ∈ (atMiddle V c t h0 h1 X).2.2.2.1, y ∈ pc.1.set :=
  View.cover_of_tiledL (atMiddle V c t h0 h1 X).2.2.2.1 S1024x128.size (by sl_kernel_rfl) y

/-- What a middle key tile leaves in the output window's buffer (nothing is stored: a placeholder nothing consults). -/
def outMiddle (c : Dev nD) (t : Fin cfg1.N) (h0 : ¬isFirst (grid1.coords t)) (h1 : ¬isLast (grid1.coords t)) (X : Carry F) : Vec F S1x1024x128 .f32 :=
  VO.read (Elt F) (VO.writes (Elt F) VO.junk (atMiddle V c t h0 h1 X).1)
/-- What it leaves in the three scratch buffers: their pieces read back. -/
def carryMiddle (c : Dev nD) (t : Fin cfg1.N) (h0 : ¬isFirst (grid1.coords t)) (h1 : ¬isLast (grid1.coords t)) (X : Carry F) : Carry F :=
  (VMax.read (Elt F) (VMax.writes (Elt F) VMax.junk (atMiddle V c t h0 h1 X).2.1),
   VSum.read (Elt F) (VSum.writes (Elt F) VSum.junk (atMiddle V c t h0 h1 X).2.2.1),
   VAcc.read (Elt F) (VAcc.writes (Elt F) VAcc.junk (atMiddle V c t h0 h1 X).2.2.2.1))

/-- The run of a last key tile at point t, on the pipeline's staging memrefs and the point's input blocks, over the carry X. -/
abbrev atLast (c : Dev nD) (t : Fin cfg1.N) (h0 : ¬isFirst (grid1.coords t)) (h1 : isLast (grid1.coords t)) (X : Carry F) :=
  runLast (F := F) c (grid1.coords t) (ms0 t) (hs0 t) (ms1 t) (hs1 t) (ms2 t) (hs2 t) (ms3 t) (hs3 t) (ms4 t) (hs4 t) (ms5 t) (hs5 t) scMax (Memref.isWhole_whole _) scSum (Memref.isWhole_whole _) scAcc (Memref.isWhole_whole _) h0 h1 (iblk V c 0 t) (iblk V c 1 t) (iblk V c 2 t) (iblk V c 3 t) (iblk V c 4 t) X.1 X.2.1 X.2.2

/-- Its pieces for the row maxima cover their buffer, -/
theorem coverLastMax (c : Dev nD) (t : Fin cfg1.N) (h0 : ¬isFirst (grid1.coords t)) (h1 : isLast (grid1.coords t)) (X : Carry F) (y : S1024x1.Idx) :
    ∃ pc ∈ (atLast V c t h0 h1 X).2.1, y ∈ pc.1.set :=
  View.cover_of_tiledL (atLast V c t h0 h1 X).2.1 S1024x1.size (by sl_kernel_rfl) y
/-- those for the normalisers theirs, -/
theorem coverLastSum (c : Dev nD) (t : Fin cfg1.N) (h0 : ¬isFirst (grid1.coords t)) (h1 : isLast (grid1.coords t)) (X : Carry F) (y : S1024x1.Idx) :
    ∃ pc ∈ (atLast V c t h0 h1 X).2.2.1, y ∈ pc.1.set :=
  View.cover_of_tiledL (atLast V c t h0 h1 X).2.2.1 S1024x1.size (by sl_kernel_rfl) y
/-- those for the accumulators theirs. -/
theorem coverLastAcc (c : Dev nD) (t : Fin cfg1.N) (h0 : ¬isFirst (grid1.coords t)) (h1 : isLast (grid1.coords t)) (X : Carry F) (y : S1024x128.Idx) :
    ∃ pc ∈ (atLast V c t h0 h1 X).2.2.2.1, y ∈ pc.1.set :=
  View.cover_of_tiledL (atLast V c t h0 h1 X).2.2.2.1 S1024x128.size (by sl_kernel_rfl) y
/-- Its one piece for the output block covers the block. -/
theorem coverLastOut (c : Dev nD) (t : Fin cfg1.N) (h0 : ¬isFirst (grid1.coords t)) (h1 : isLast (grid1.coords t)) (X : Carry F) (y : S1x1024x128.Idx) :
    ∃ pc ∈ (atLast V c t h0 h1 X).1, y ∈ pc.1.set :=
  View.cover_of_tiledL (atLast V c t h0 h1 X).1 S1x1024x128.size (by sl_kernel_rfl) y

/-- What a last key tile leaves in the output window's buffer: its piece read back. -/
def outLast (c : Dev nD) (t : Fin cfg1.N) (h0 : ¬isFirst (grid1.coords t)) (h1 : isLast (grid1.coords t)) (X : Carry F) : Vec F S1x1024x128 .f32 :=
  VO.read (Elt F) (VO.writes (Elt F) VO.junk (atLast V c t h0 h1 X).1)
/-- What it leaves in the three scratch buffers: their pieces read back. -/
def carryLast (c : Dev nD) (t : Fin cfg1.N) (h0 : ¬isFirst (grid1.coords t)) (h1 : isLast (grid1.coords t)) (X : Carry F) : Carry F :=
  (VMax.read (Elt F) (VMax.writes (Elt F) VMax.junk (atLast V c t h0 h1 X).2.1),
   VSum.read (Elt F) (VSum.writes (Elt F) VSum.junk (atLast V c t h0 h1 X).2.2.1),
   VAcc.read (Elt F) (VAcc.writes (Elt F) VAcc.junk (atLast V c t h0 h1 X).2.2.2.1))

/-! ## What the buffers hold after each point -/

/-- After the body at position n: the output window's buffer, and the carry. By recursion on the position: the case is
    read off the position modulo 4; off a first key tile the carry of the position before feeds the run. A position that
    is both 0 and 3 modulo 4 does not exist. -/
def stateAt (c : Dev nD) : (n : ℕ) → n < cfg1.N → Vec F S1x1024x128 .f32 × Carry F
  | 0, hn =>
    (outFirst V c ⟨0, hn⟩ ((isFirst_iff ⟨0, hn⟩).mpr (Nat.zero_mod _)) (fun h => (fun h => by (try dsimp only at h); omega) ((isLast_iff ⟨0, hn⟩).mp h)),
     carryFirst V c ⟨0, hn⟩ ((isFirst_iff ⟨0, hn⟩).mpr (Nat.zero_mod _)) (fun h => (fun h => by (try dsimp only at h); omega) ((isLast_iff ⟨0, hn⟩).mp h)))
  | n + 1, hn =>
    if h0 : (n + 1) % 4 = 0 then
      if h1 : (n + 1) % 4 = 3 then
        False.elim (by omega)
      else
        (outFirst V c ⟨n + 1, hn⟩ ((isFirst_iff ⟨n + 1, hn⟩).mpr h0) (fun h => h1 ((isLast_iff ⟨n + 1, hn⟩).mp h)),
         carryFirst V c ⟨n + 1, hn⟩ ((isFirst_iff ⟨n + 1, hn⟩).mpr h0) (fun h => h1 ((isLast_iff ⟨n + 1, hn⟩).mp h)))
    else
      if h1 : (n + 1) % 4 = 3 then
        (outLast V c ⟨n + 1, hn⟩ (fun h => h0 ((isFirst_iff ⟨n + 1, hn⟩).mp h)) ((isLast_iff ⟨n + 1, hn⟩).mpr h1) (stateAt c n (Nat.lt_of_succ_lt hn)).2,
         carryLast V c ⟨n + 1, hn⟩ (fun h => h0 ((isFirst_iff ⟨n + 1, hn⟩).mp h)) ((isLast_iff ⟨n + 1, hn⟩).mpr h1) (stateAt c n (Nat.lt_of_succ_lt hn)).2)
      else
        (outMiddle V c ⟨n + 1, hn⟩ (fun h => h0 ((isFirst_iff ⟨n + 1, hn⟩).mp h)) (fun h => h1 ((isLast_iff ⟨n + 1, hn⟩).mp h)) (stateAt c n (Nat.lt_of_succ_lt hn)).2,
         carryMiddle V c ⟨n + 1, hn⟩ (fun h => h0 ((isFirst_iff ⟨n + 1, hn⟩).mp h)) (fun h => h1 ((isLast_iff ⟨n + 1, hn⟩).mp h)) (stateAt c n (Nat.lt_of_succ_lt hn)).2)

/-- At a first key tile: that case, from the point's blocks alone. -/
theorem stateAt_first (c : Dev nD) (t : Fin cfg1.N) (h0 : t.val % 4 = 0) (h1 : ¬t.val % 4 = 3) :
    stateAt V c t.val t.isLt
      = (outFirst V c t ((isFirst_iff t).mpr h0) (fun h => h1 ((isLast_iff t).mp h)),
         carryFirst V c t ((isFirst_iff t).mpr h0) (fun h => h1 ((isLast_iff t).mp h))) := by
  obtain ⟨n, hn⟩ := t
  cases n with
  | zero => exact rfl
  | succ n => exact (dif_pos h0).trans ((dif_neg h1).trans rfl)

/-- The position before a point. -/
abbrev prev (t : Fin cfg1.N) : t.val - 1 < cfg1.N := Nat.lt_of_le_of_lt (Nat.sub_le _ _) t.isLt

/-- At a middle key tile: that case, over what the point before left. -/
theorem stateAt_middle (c : Dev nD) (t : Fin cfg1.N) (h0 : ¬t.val % 4 = 0) (h1 : ¬t.val % 4 = 3) :
    stateAt V c t.val t.isLt
      = (outMiddle V c t (fun h => h0 ((isFirst_iff t).mp h)) (fun h => h1 ((isLast_iff t).mp h)) (stateAt V c (t.val - 1) (prev t)).2,
         carryMiddle V c t (fun h => h0 ((isFirst_iff t).mp h)) (fun h => h1 ((isLast_iff t).mp h)) (stateAt V c (t.val - 1) (prev t)).2) := by
  obtain ⟨n, hn⟩ := t
  cases n with
  | zero => exact (by exfalso; (try dsimp only at h0); exact absurd (Nat.zero_mod _) h0)
  | succ n => exact (dif_neg h0).trans ((dif_neg h1).trans rfl)

/-- At a last key tile: that case, over what the point before left. -/
theorem stateAt_last (c : Dev nD) (t : Fin cfg1.N) (h0 : ¬t.val % 4 = 0) (h1 : t.val % 4 = 3) :
    stateAt V c t.val t.isLt
      = (outLast V c t (fun h => h0 ((isFirst_iff t).mp h)) ((isLast_iff t).mpr h1) (stateAt V c (t.val - 1) (prev t)).2,
         carryLast V c t (fun h => h0 ((isFirst_iff t).mp h)) ((isLast_iff t).mpr h1) (stateAt V c (t.val - 1) (prev t)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position n: the launch's invariant before the first point; afterwards the three scratch buffers at what the
    point before left, the other scoped buffers at anything, the generator register at some state. -/
def PhiS (c : Dev nD) : (n : ℕ) → n ≤ cfg1.N → sProp 𝕄
  | 0, _ => Pipeline.ΦA spec1 c
  | n + 1, hn => iprop((owns (c : Thread nD τ) scMax fullShare (stateAt V c n hn).2.1 ∗ owns (c : Thread nD τ) scSum fullShare (stateAt V c n hn).2.2.1
      ∗ owns (c : Thread nD τ) scAcc fullShare (stateAt V c n hn).2.2.2 ∗ othersHeld c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop((owns (c : Thread nD τ) scMax fullShare (stateAt V c n hn).2.1 ∗ owns (c : Thread nD τ) scSum fullShare (stateAt V c n hn).2.2.1
      ∗ owns (c : Thread nD τ) scAcc fullShare (stateAt V c n hn).2.2.2 ∗ othersHeld c) ∗ (∃ r, prngReg c r)) := rfl

theorem PhiS_pos (c : Dev nD) (n : ℕ) (h : n ≤ cfg1.N) (hz : n ≠ 0) :
    PhiS V c n h = iprop((owns (c : Thread nD τ) scMax fullShare (stateAt V c (n - 1) (by omega)).2.1 ∗ owns (c : Thread nD τ) scSum fullShare (stateAt V c (n - 1) (by omega)).2.2.1
      ∗ owns (c : Thread nD τ) scAcc fullShare (stateAt V c (n - 1) (by omega)).2.2.2 ∗ othersHeld c) ∗ (∃ r, prngReg c r)) := by
  cases n with
  | zero => exact absurd rfl hz
  | succ n => rfl

/-! ## The proof data -/

/-- The arrays as the region finds them; after the body at a point each input's buffer at its block and the output's at
    what `stateAt` says; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (stateAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = (stateAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d

theorem leaves0 (c : Dev nD) (t : Fin cfg1.N) :
    (dat V c).leavesExact 0 t = owns (c : Thread nD τ) (ms0 t) fullShare (iblk V c 0 t) := by
  unfold Dat.leavesExact; rw [live0 t, after0]
theorem leaves1 (c : Dev nD) (t : Fin cfg1.N) :
    (dat V c).leavesExact 1 t = owns (c : Thread nD τ) (ms1 t) fullShare (iblk V c 1 t) := by
  unfold Dat.leavesExact; rw [live1 t, after1]
theorem leaves2 (c : Dev nD) (t : Fin cfg1.N) :
    (dat V c).leavesExact 2 t = owns (c : Thread nD τ) (ms2 t) fullShare (iblk V c 2 t) := by
  unfold Dat.leavesExact; rw [live2 t, after2]
theorem leaves3 (c : Dev nD) (t : Fin cfg1.N) :
    (dat V c).leavesExact 3 t = owns (c : Thread nD τ) (ms3 t) fullShare (iblk V c 3 t) := by
  unfold Dat.leavesExact; rw [live3 t, after3]
theorem leaves4 (c : Dev nD) (t : Fin cfg1.N) :
    (dat V c).leavesExact 4 t = owns (c : Thread nD τ) (ms4 t) fullShare (iblk V c 4 t) := by
  unfold Dat.leavesExact; rw [live4 t, after4]

/-! ## The body obligation -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point. The inputs' memrefs hold their blocks; the position modulo 4 says which case the point is in;
    the invariant hands the run the scratch buffers at what the point before left (at anything before the first point)
    and takes them back at this point's contents; off a last key tile the output's buffer is handed back as found; the
    core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).owesAt () t.succ = (dat V c).owesAt () t.castSucc from rfl]
  rw [show (dat V c).Φ t.succ = PhiS V c (t.val + 1) t.isLt from rfl, PhiS_succ]
  rw [leaves0, leaves1, leaves2, leaves3, leaves4]
  have hN : t.val < 32 := lt_of_lt_of_eq t.isLt (show cfg1.N = 32 from N_1)
  by_cases h0 : t.val % 4 = 0
  · by_cases h1 : t.val % 4 = 3
    · exfalso; omega
    · rw [Dat.leavesExact_idle (dat V c) 5 t (idle5 t (fun h => h1 ((isLast_iff t).mp h))) (noFlush5 t (fun h => h1 ((isLast_iff t).mp h)))]
      rw [stateAt_first V c t h0 h1]
      unfold carryFirst; (try dsimp only)
      by_cases hz : t.val = 0
      · rw [Phi_castSucc V c t, PhiS_zero V c _ _ hz, PhiA_eq]
        iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
        iapply ((atFirst V c t ((isFirst_iff t).mpr h0) (fun h => h1 ((isLast_iff t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexact HM
        isplitl [HS]; · iexact HS
        isplitl [HA]; · iexact HA
        iintro ⟨H0, H1, H2, H3, H4, H5, ⟨%em, HM⟩, ⟨%es, HS⟩, ⟨%ea, HA⟩⟩
        isplitl [HM HS HA HR Hg]
        · isplitl [HM HS HA HR]
          · isplitl [HM]
            · unfold owns; iexists _; isplitr
              swap; · iexact HM
              ipureintro; exact View.read_writes_of_cover _ _ _ _ _ (coverFirstMax V c t _ _)
            isplitl [HS]
            · unfold owns; iexists _; isplitr
              swap; · iexact HS
              ipureintro; exact View.read_writes_of_cover _ _ _ _ _ (coverFirstSum V c t _ _)
            isplitl [HA]
            · unfold owns; iexists _; isplitr
              swap; · iexact HA
              ipureintro; exact View.read_writes_of_cover _ _ _ _ _ (coverFirstAcc V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [Phi_castSucc V c t, PhiS_pos V c _ _ hz]
        iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
        iapply ((atFirst V c t ((isFirst_iff t).mpr h0) (fun h => h1 ((isLast_iff t).mp h))).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HM]; · iexists _; iexact HM
        isplitl [HS]; · iexists _; iexact HS
        isplitl [HA]; · iexists _; iexact HA
        iintro ⟨H0, H1, H2, H3, H4, H5, ⟨%em, HM⟩, ⟨%es, HS⟩, ⟨%ea, HA⟩⟩
        isplitl [HM HS HA HR Hg]
        · isplitl [HM HS HA HR]
          · isplitl [HM]
            · unfold owns; iexists _; isplitr
              swap; · iexact HM
              ipureintro; exact View.read_writes_of_cover _ _ _ _ _ (coverFirstMax V c t _ _)
            isplitl [HS]
            · unfold owns; iexists _; isplitr
              swap; · iexact HS
              ipureintro; exact View.read_writes_of_cover _ _ _ _ _ (coverFirstSum V c t _ _)
            isplitl [HA]
            · unfold owns; iexists _; isplitr
              swap; · iexact HA
              ipureintro; exact View.read_writes_of_cover _ _ _ _ _ (coverFirstAcc V c t _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · have hz : t.val ≠ 0 := fun e => h0 (by rw [e])
    by_cases h1 : t.val % 4 = 3
    · rw [show (dat V c).leavesExact 5 t = owns (c : Thread nD τ) (ms5 t) fullShare ((dat V c).after 5 t) from by
        unfold Dat.leavesExact; rw [live5 t ((isLast_iff t).mpr h1)], after5]
      rw [stateAt_last V c t h0 h1]
      unfold outLast carryLast; (try dsimp only)
      rw [Phi_castSucc V c t, PhiS_pos V c _ _ hz]
      iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
      iapply ((atLast V c t (fun h => h0 ((isFirst_iff t).mp h)) ((isLast_iff t).mpr h1) _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HM]; · iexact HM
      isplitl [HS]; · iexact HS
      isplitl [HA]; · iexact HA
      iintro ⟨H0, H1, H2, H3, H4, ⟨%e5, H5⟩, ⟨%em, HM⟩, ⟨%es, HS⟩, ⟨%ea, HA⟩⟩
      isplitl [HM HS HA HR Hg]
      · isplitl [HM HS HA HR]
        · isplitl [HM]
          · unfold owns; iexists _; isplitr
            swap; · iexact HM
            ipureintro; exact View.read_writes_of_cover _ _ _ _ _ (coverLastMax V c t _ _ _)
          isplitl [HS]
          · unfold owns; iexists _; isplitr
            swap; · iexact HS
            ipureintro; exact View.read_writes_of_cover _ _ _ _ _ (coverLastSum V c t _ _ _)
          isplitl [HA]
          · unfold owns; iexists _; isplitr
            swap; · iexact HA
            ipureintro; exact View.read_writes_of_cover _ _ _ _ _ (coverLastAcc V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverLastOut V c t _ _ _)
    · rw [Dat.leavesExact_idle (dat V c) 5 t (idle5 t (fun h => h1 ((isLast_iff t).mp h))) (noFlush5 t (fun h => h1 ((isLast_iff t).mp h)))]
      rw [stateAt_middle V c t h0 h1]
      unfold carryMiddle; (try dsimp only)
      rw [Phi_castSucc V c t, PhiS_pos V c _ _ hz]
      iintro ⟨⟨⟨HM, HS, HA, HR⟩, Hg⟩, Ho, ⟨%d0, H0⟩, ⟨%d1, H1⟩, ⟨%d2, H2⟩, ⟨%d3, H3⟩, ⟨%d4, H4⟩, ⟨%d5, H5⟩⟩
      iapply ((atMiddle V c t (fun h => h0 ((isFirst_iff t).mp h)) (fun h => h1 ((isLast_iff t).mp h)) _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HS]; · iexact HS
      isplitl [HA]; · iexact HA
      iintro ⟨H0, H1, H2, H3, H4, H5, ⟨%em, HM⟩, ⟨%es, HS⟩, ⟨%ea, HA⟩⟩
      isplitl [HM HS HA HR Hg]
      · isplitl [HM HS HA HR]
        · isplitl [HM]
          · unfold owns; iexists _; isplitr
            swap; · iexact HM
            ipureintro; exact View.read_writes_of_cover _ _ _ _ _ (coverMiddleMax V c t _ _ _)
          isplitl [HS]
          · unfold owns; iexists _; isplitr
            swap; · iexact HS
            ipureintro; exact View.read_writes_of_cover _ _ _ _ _ (coverMiddleSum V c t _ _ _)
          isplitl [HA]
          · unfold owns; iexists _; isplitr
            swap; · iexact HA
            ipureintro; exact View.read_writes_of_cover _ _ _ _ _ (coverMiddleAcc V c t _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: what the scratch buffers hold is forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HM, HS, HA, HR⟩, Hg⟩
  isplitl [HM HS HA HR]
  · isplitl [HM]; · iexists _; iexact HM
    isplitl [HS]; · iexists _; iexact HS
    isplitl [HA]; · iexists _; iexact HA
    iexact HR
  iexact Hg

theorem hout (c : Dev nD) : (dat V c).Φ (Fin.last cfg1.N) ⊢ Pipeline.ΦA spec1 c :=
  Phi_out V c _ (by rw [Fin.val_last]; have : cfg1.N = 32 := N_1; omega)

/-- info: 'Cert.KernelIdeal.Flash.body_obligation' depends on axioms: [propext, Classical.choice, Quot.sound] -/
#guard_msgs in #print axioms body_obligation

end Cert.KernelIdeal.Flash

end
-- ==== Proof.WholeRun.lean ====
/-
  The whole run of the kernel program: the host prefix (zero-padding the projection weights and biases from 64 to 128
  output features), the projection region, the attention region, the host suffix (slicing the output back to 64 features).

  Between two items a core holds every unscoped buffer at known contents: the launch memory, then each host stretch
  applied in turn, then — after a region — the region's arrays at what its pipeline leaves (inputs as entered, each output
  at its written-back blocks) and every other buffer as before. Each region is a segment of the several-regions launch
  theorem entered from and left at those contents. The run's conclusion names EVERY unscoped buffer of every core at the
  final contents; the frame (the arguments end as launched) and the result buffer's contents are read off it.
-/
import proofs.«121072_j35897336660236_2_alg».proof.Proof.Gen.KernelIdeal.Regions
import proofs.«121072_j35897336660236_2_alg».proof.Proof.QkvRegion
import proofs.«121072_j35897336660236_2_alg».proof.Proof.FlashRegion

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- The projection region's entry contents: the launch memory after the twelve host stretches of the prefix, read at
    the TensorCore's references. -/
abbrev In0 : (c : Dev nD) → (b : Ref sig .tc) → Buf (Elt F) ((c : Thread nD τ).loc b) := fun c b => V12 m c b

/-- At the projection region's exit: its arrays at what the pipeline leaves, every other buffer as entered. -/
def Mid (c : Dev nD) : Valuation τ sig (Elt F) :=
  Pipeline.withArrays spec0 c (V12 m c) fun w => (Qkv.dat0 (In0 m) c).arrAt w cfg0.N
theorem Mid_arr (c : Dev nD) (w : Fin cfg0.W) :
    Mid m c (Proc.devRef .tc (Pipeline.arrRef spec0 w)) = (Qkv.dat0 (In0 m) c).arrAt w cfg0.N := by
  unfold Mid; exact Pipeline.withArrays_arr spec0 launch0.win.arr_inj c _ _ w
theorem Mid_of_ne (c : Dev nD) (b : Ref sig .tc) (hb : ∀ w, Pipeline.arrRef spec0 w ≠ b) :
    Mid m c (Proc.devRef .tc b) = V12 m c (Proc.devRef .tc b) := by
  unfold Mid; exact Pipeline.withArrays_of_ne spec0 c _ _ b hb
/-- The attention region's entry contents. -/
abbrev In1 : (c : Dev nD) → (b : Ref sig .tc) → Buf (Elt F) ((c : Thread nD τ).loc b) := fun c b => Mid m c b
theorem hF0 (c : Dev nD) (w : Fin cfg0.W) : (Qkv.dat0 (In0 m) c).arrAt w cfg0.N = In1 m c (Pipeline.arrRef spec0 w) :=
  (Mid_arr m c w).symm
theorem hrest0 (c : Dev nD) : ∀ b, b ∉ Finset.univ.image (Pipeline.arrRef spec0) → In1 m c b = In0 m c b :=
  fun b hb => Mid_of_ne m c b fun w e => hb (Finset.mem_image.mpr ⟨w, Finset.mem_univ _, e⟩)

/-- At the attention region's exit. -/
def Late (c : Dev nD) : Valuation τ sig (Elt F) :=
  Pipeline.withArrays spec1 c (Mid m c) fun w => (Flash.dat (In1 m) c).arrAt w cfg1.N
theorem Late_arr (c : Dev nD) (w : Fin cfg1.W) :
    Late m c (Proc.devRef .tc (Pipeline.arrRef spec1 w)) = (Flash.dat (In1 m) c).arrAt w cfg1.N := by
  unfold Late; exact Pipeline.withArrays_arr spec1 launch1.win.arr_inj c _ _ w
theorem Late_of_ne (c : Dev nD) (b : Ref sig .tc) (hb : ∀ w, Pipeline.arrRef spec1 w ≠ b) :
    Late m c (Proc.devRef .tc b) = Mid m c (Proc.devRef .tc b) := by
  unfold Late; exact Pipeline.withArrays_of_ne spec1 c _ _ b hb
abbrev Out1 : (c : Dev nD) → (b : Ref sig .tc) → Buf (Elt F) ((c : Thread nD τ).loc b) := fun c b => Late m c b
theorem hF1 (c : Dev nD) (w : Fin cfg1.W) : (Flash.dat (In1 m) c).arrAt w cfg1.N = Out1 m c (Pipeline.arrRef spec1 w) :=
  (Late_arr m c w).symm
theorem hrest1 (c : Dev nD) : ∀ b, b ∉ Finset.univ.image (Pipeline.arrRef spec1) → Out1 m c b = In1 m c b :=
  fun b hb => Late_of_ne m c b fun w e => hb (Finset.mem_image.mpr ⟨w, Finset.mem_univ _, e⟩)

/-- After the host suffix: the final contents. -/
abbrev End (c : Dev nD) : Valuation τ sig (Elt F) := StableHlo.after hostOps2 (Late m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Qkv.dat0 (In0 m) c
  | ⟨1, _⟩ => fun c => Flash.dat (In1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the final contents, the generator register. -/
abbrev Tₙ (c : Dev nD) : sProp 𝕄 := iprop(StableHlo.held (c : Thread nD τ) (Pipeline.ucRefs τ sig) (End m c) ∗ ∃ r, prngReg c r)

/-! ## The regions as segments -/

-- unifying a library lemma stated over the pinned configuration with the printed one unfolds plain definitions in a
-- metavariable's type
set_option backward.isDefEq.respectTransparency.types false in
/-- Region 0 over the thread state: entered with every unscoped buffer at `V12`, left with them at `Mid`. Its arrays
    are split out of the unscoped buffers and put back at what the pipeline leaves; the generator register goes into
    the region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Qkv.body_obligation0 (In0 m) c).loose
  hwaits := Pipeline.hwaits_of_owed_zero _ _ _ _ L lv 0 fun _ _ => rfl
  pre c := iprop(StableHlo.held (c : Thread nD τ) (Pipeline.ucRefs τ sig) (V12 m c) ∗ R c)
  post c := iprop(StableHlo.held (c : Thread nD τ) (Pipeline.ucRefs τ sig) (Mid m c) ∗ R c)
  X c := iprop(∃ r, prngReg c r)
  Y c := iprop(∃ r, prngReg c r)
  Z c := Pipeline.unscopedRest (Ix := Unit) (Name := ℕ) (U := UR sig nD τ) (Lvl := ℕ) spec0 c (In0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (In0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (In0 m c) (In1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration with the printed one unfolds plain definitions in a
-- metavariable's type
set_option backward.isDefEq.respectTransparency.types false in
/-- Region 1 over the thread state: entered with every unscoped buffer at `Mid`, left with them at `Late`. Its arrays
    are split out of the unscoped buffers and put back at what the pipeline leaves; the generator register goes into
    the region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Flash.body_obligation (In1 m) c).loose
  hwaits := Pipeline.hwaits_of_owed_zero _ _ _ _ L lv 1 fun _ _ => rfl
  pre c := iprop(StableHlo.held (c : Thread nD τ) (Pipeline.ucRefs τ sig) (Mid m c) ∗ R c)
  post c := iprop(StableHlo.held (c : Thread nD τ) (Pipeline.ucRefs τ sig) (Late m c) ∗ R c)
  X c := iprop(∃ r, prngReg c r)
  Y c := iprop(∃ r, prngReg c r)
  Z c := Pipeline.unscopedRest (Ix := Unit) (Name := ℕ) (U := UR sig nD τ) (Lvl := ℕ) spec1 c (In1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (In1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Flash.hin (In1 m) c)
    unfold Pipeline.ΦA
    iintro ⟨Hp, -, Hr⟩
    isplitl [Hr]; · iexact Hr
    iexact Hp
  hout c := by
    rw [Pipeline.ownSems0_none]
    refine BIBase.Entails.trans (Flash.hout (In1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (In1 m c) (Out1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The host suffix as the last segment: it leaves the final thread state beside nothing owed. -/
abbrev lastSeg : Pipeline.HostSeg (Name := ℕ) (U := UR sig nD τ) (pcfgs (F := F)) defs₀ 𝒱₀ L lv :=
  hseg hostOps2 hostOps2_sub hostOps2_fresh (Late m)

/-- @main's fifteen segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .host (hseg hostOps0_7 hostOps0_7_sub hostOps0_7_fresh (V7 m)),
    .host (hseg hostOps0_8 hostOps0_8_sub hostOps0_8_fresh (V8 m)),
    .host (hseg hostOps0_9 hostOps0_9_sub hostOps0_9_fresh (V9 m)),
    .host (hseg hostOps0_10 hostOps0_10_sub hostOps0_10_fresh (V10 m)),
    .host (hseg hostOps0_11 hostOps0_11_sub hostOps0_11_fresh (V11 m)),
    .region (reg0 m),
    .region (reg1 m),
    .host (lastSeg m) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and in every final state every unscoped buffer of every core holds the final contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = End m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (End m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = End m c b)
    (hfin := fun c s' => by
      iintro ⟨⟨Hh, -⟩, HSI⟩
      unfold StableHlo.held
      imodintro
      iapply (pointsTo_read_all (Pipeline.ucRefs τ sig) (fun b => (((c : Thread nD τ)).1, b)) (End m c) s')
      isplitl [Hh] <;> iassumption)
    (hQ := fun s h c => h c)

/-- info: 'Cert.KernelIdeal.Whole.run_all' depends on axioms: [propext, Classical.choice, Quot.sound] -/
#guard_msgs in #print axioms run_all

/-! ## The arguments end as launched -/

/-- A buffer the host prefix does not write reaches the projection region as launched. -/
theorem prefix_keep (c : Dev nD) (b : Ref sig .tc)
    (hp : b ∉ hostOps0_11_W ∧ b ∉ hostOps0_10_W ∧ b ∉ hostOps0_9_W ∧ b ∉ hostOps0_8_W ∧ b ∉ hostOps0_7_W ∧ b ∉ hostOps0_6_W ∧ b ∉ hostOps0_5_W ∧ b ∉ hostOps0_4_W ∧ b ∉ hostOps0_3_W ∧ b ∉ hostOps0_2_W ∧ b ∉ hostOps0_1_W ∧ b ∉ hostOps0_W) :
    V12 m c b = m ((c : Thread nD τ).loc b) :=
  (V12_of m c b hp.1).trans <| (V11_of m c b hp.2.1).trans <| (V10_of m c b hp.2.2.1).trans <| (V9_of m c b hp.2.2.2.1).trans <| (V8_of m c b hp.2.2.2.2.1).trans <| (V7_of m c b hp.2.2.2.2.2.1).trans <| (V6_of m c b hp.2.2.2.2.2.2.1).trans <| (V5_of m c b hp.2.2.2.2.2.2.2.1).trans <| (V4_of m c b hp.2.2.2.2.2.2.2.2.1).trans <| (V3_of m c b hp.2.2.2.2.2.2.2.2.2.1).trans <| (V2_of m c b hp.2.2.2.2.2.2.2.2.2.2.1).trans <| (V1_of m c b hp.2.2.2.2.2.2.2.2.2.2.2).trans rfl

/-- A buffer no host stretch writes and no region's pipeline stages ends as launched. -/
theorem End_of_untouched (c : Dev nD) (b : Ref sig .tc) (h2 : b ∉ hostOps2_W) (h1 : ∀ w, Pipeline.arrRef spec1 w ≠ b) (h0 : ∀ w, Pipeline.arrRef spec0 w ≠ b)
    (hp : b ∉ hostOps0_11_W ∧ b ∉ hostOps0_10_W ∧ b ∉ hostOps0_9_W ∧ b ∉ hostOps0_8_W ∧ b ∉ hostOps0_7_W ∧ b ∉ hostOps0_6_W ∧ b ∉ hostOps0_5_W ∧ b ∉ hostOps0_4_W ∧ b ∉ hostOps0_3_W ∧ b ∉ hostOps0_2_W ∧ b ∉ hostOps0_1_W ∧ b ∉ hostOps0_W) :
    End m c b = m ((c : Thread nD τ).loc b) :=
  (StableHlo.after_of_writes_sub hostOps2 _ hostOps2_writes h2).trans <| (Late_of_ne m c b h1).trans <| (Mid_of_ne m c b h0).trans <| prefix_keep m c b hp

/-- The features are the projection region's first input: its pipeline leaves an input array as entered. -/
theorem End_main_arg0 (c : Dev nD) : End m c main_arg0 = m ((c : Thread nD τ).loc main_arg0) :=
  (StableHlo.after_of_writes_sub hostOps2 _ hostOps2_writes (by decide)).trans <| (Late_of_ne m c main_arg0 (by decide)).trans <|
    (Mid_arr m c 0).trans <| ((Qkv.dat0 (In0 m) c).arrAt_in 0 rfl _).trans <| (Qkv.A_eq0 (In0 m) c 0).trans <|
    prefix_keep m c main_arg0 ⟨by decide, by decide, by decide, by decide, by decide, by decide, by decide, by decide, by decide, by decide, by decide, by decide⟩
/-- The two additive biases are inputs of the attention region. -/
theorem End_main_arg1 (c : Dev nD) : End m c main_arg1 = m ((c : Thread nD τ).loc main_arg1) :=
  (StableHlo.after_of_writes_sub hostOps2 _ hostOps2_writes (by decide)).trans <| (Late_arr m c 3).trans <|
    ((Flash.dat (In1 m) c).arrAt_in 3 rfl _).trans <| (Flash.A_eq (In1 m) c 3).trans <| (Mid_of_ne m c main_arg1 (by decide)).trans <|
    prefix_keep m c main_arg1 ⟨by decide, by decide, by decide, by decide, by decide, by decide, by decide, by decide, by decide, by decide, by decide, by decide⟩
theorem End_main_arg2 (c : Dev nD) : End m c main_arg2 = m ((c : Thread nD τ).loc main_arg2) :=
  (StableHlo.after_of_writes_sub hostOps2 _ hostOps2_writes (by decide)).trans <| (Late_arr m c 4).trans <|
    ((Flash.dat (In1 m) c).arrAt_in 4 rfl _).trans <| (Flash.A_eq (In1 m) c 4).trans <| (Mid_of_ne m c main_arg2 (by decide)).trans <|
    prefix_keep m c main_arg2 ⟨by decide, by decide, by decide, by decide, by decide, by decide, by decide, by decide, by decide, by decide, by decide, by decide⟩
/-- The projection weights and biases are read by the host prefix only. -/
theorem End_main_arg3 (c : Dev nD) : End m c main_arg3 = m ((c : Thread nD τ).loc main_arg3) :=
  End_of_untouched m c main_arg3 (by decide) (by decide) (by decide) ⟨by decide, by decide, by decide, by decide, by decide, by decide, by decide, by decide, by decide, by decide, by decide, by decide⟩
theorem End_main_arg4 (c : Dev nD) : End m c main_arg4 = m ((c : Thread nD τ).loc main_arg4) :=
  End_of_untouched m c main_arg4 (by decide) (by decide) (by decide) ⟨by decide, by decide, by decide, by decide, by decide, by decide, by decide, by decide, by decide, by decide, by decide, by decide⟩
theorem End_main_arg5 (c : Dev nD) : End m c main_arg5 = m ((c : Thread nD τ).loc main_arg5) :=
  End_of_untouched m c main_arg5 (by decide) (by decide) (by decide) ⟨by decide, by decide, by decide, by decide, by decide, by decide, by decide, by decide, by decide, by decide, by decide, by decide⟩
theorem End_main_arg6 (c : Dev nD) : End m c main_arg6 = m ((c : Thread nD τ).loc main_arg6) :=
  End_of_untouched m c main_arg6 (by decide) (by decide) (by decide) ⟨by decide, by decide, by decide, by decide, by decide, by decide, by decide, by decide, by decide, by decide, by decide, by decide⟩
theorem End_main_arg7 (c : Dev nD) : End m c main_arg7 = m ((c : Thread nD τ).loc main_arg7) :=
  End_of_untouched m c main_arg7 (by decide) (by decide) (by decide) ⟨by decide, by decide, by decide, by decide, by decide, by decide, by decide, by decide, by decide, by decide, by decide, by decide⟩
theorem End_main_arg8 (c : Dev nD) : End m c main_arg8 = m ((c : Thread nD τ).loc main_arg8) :=
  End_of_untouched m c main_arg8 (by decide) (by decide) (by decide) ⟨by decide, by decide, by decide, by decide, by decide, by decide, by decide, by decide, by decide, by decide, by decide, by decide⟩

/-- The nine arguments, read off a final memory that holds every unscoped buffer at the final contents. -/
theorem args_kept (mem : (ℓ : Loc nD τ sig) → Buf (Elt F) ℓ) (c : Dev nD)
    (h : ∀ b ∈ Pipeline.ucRefs τ sig, mem (((c : Thread nD τ)).1, b) = End m c b) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8) :=
  ⟨(h _ (mem_uc main_arg0 (by decide))).trans (End_main_arg0 m c), (h _ (mem_uc main_arg1 (by decide))).trans (End_main_arg1 m c),
   (h _ (mem_uc main_arg2 (by decide))).trans (End_main_arg2 m c), (h _ (mem_uc main_arg3 (by decide))).trans (End_main_arg3 m c),
   (h _ (mem_uc main_arg4 (by decide))).trans (End_main_arg4 m c), (h _ (mem_uc main_arg5 (by decide))).trans (End_main_arg5 m c),
   (h _ (mem_uc main_arg6 (by decide))).trans (End_main_arg6 m c), (h _ (mem_uc main_arg7 (by decide))).trans (End_main_arg7 m c),
   (h _ (mem_uc main_arg8 (by decide))).trans (End_main_arg8 m c)⟩

/-- THE FRAME, at any float instance: every weakly fair execution terminates, nothing faults, the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => args_kept m r.2.mem c (h c)) (run_all m ρ)

end Cert.KernelIdeal.Whole

end
-- ==== Proof.Attention.lean ====
/-
  The attention layer both programs compute, as ONE function of the argument arrays, entry by entry, on the
  extended reals. Arrays are read as plain functions of their coordinates.

  * a projection: for a weight stored [out, in] and a bias, (x W^T + c)(b, n, k) = (sum over d of x(b,n,d) * W(k,d)) + c(k);
  * a score: the query/key inner product over the 64 features of a head, plus the two additive biases, the second
    added after the first, divided by the square root of the head dimension 64 (kept as the float word for 64);
  * a row of softmax weights: exp(s n - sup s) over the sum of those exponentials;
  * the output: the weights of row (b, q) against the value projection.
-/
import Idealize.ShloMosaic.PureOps.Ideal

noncomputable section

namespace Cert.Attention

open Idealize.ShloMosaic

/-- x W^T + c at (b, n, k), the weight stored [out, in]. -/
def proj (x : Fin 2 → Fin 4096 → Fin 512 → EReal) (w : Fin 64 → Fin 512 → EReal) (c : Fin 64 → EReal)
    (b : Fin 2) (n : Fin 4096) (k : Fin 64) : EReal :=
  (∑ d : Fin 512, x b n d * w k d) + c k

/-- The head dimension as the reference writes it: the float word of 64. -/
def headDim : EReal := Ideal.ofBits .f32 0x42800000#32

/-- (q . k + Sh + Sw) / sqrt 64 at query q of batch b against key n. -/
def score (Q K : Fin 2 → Fin 4096 → Fin 64 → EReal) (Sh Sw : Fin 2 → Fin 4096 → Fin 4096 → EReal)
    (b : Fin 2) (q n : Fin 4096) : EReal :=
  Ideal.div (((∑ k : Fin 64, Q b q k * K b n k) + Sh b q n) + Sw b q n) (Ideal.sqrt headDim)

/-- One softmax weight of a row of scores: exp(s n - sup s) / sum of exp(s n' - sup s). -/
def weight (s : Fin 4096 → EReal) (n : Fin 4096) : EReal :=
  Ideal.div (Ideal.exp (s n - Finset.univ.sup s)) (∑ n' : Fin 4096, Ideal.exp (s n' - Finset.univ.sup s))

/-- softmax(scores) V at (b, q, k). -/
def attend (Q K V : Fin 2 → Fin 4096 → Fin 64 → EReal) (Sh Sw : Fin 2 → Fin 4096 → Fin 4096 → EReal)
    (b : Fin 2) (q : Fin 4096) (k : Fin 64) : EReal :=
  ∑ n : Fin 4096, weight (score Q K Sh Sw b q) n * V b n k

/-- The whole layer: three projections of the features, then attention with the two additive biases. -/
def layer (x : Fin 2 → Fin 4096 → Fin 512 → EReal) (Sh Sw : Fin 2 → Fin 4096 → Fin 4096 → EReal)
    (wq : Fin 64 → Fin 512 → EReal) (bq : Fin 64 → EReal) (wk : Fin 64 → Fin 512 → EReal) (bk : Fin 64 → EReal)
    (wv : Fin 64 → Fin 512 → EReal) (bv : Fin 64 → EReal) (b : Fin 2) (q : Fin 4096) (k : Fin 64) : EReal :=
  attend (proj x wq bq) (proj x wk bk) (proj x wv bv) Sh Sw b q k

end Cert.Attention

end
-- ==== Proof.RefSide.lean ====
/-
  The reference program's result, read entry by entry, is the attention layer of its nine argument arrays.

  The reference computes, on the extended reals,
    Q = x Wq^T + bq,  K = x Wk^T + bk,  V = x Wv^T + bv                 (each [2, 4096, 64]),
    s(b, q, n) = ((sum over k of Q(b,q,k) K(b,n,k)) + Sh(b,q,n) + Sw(b,q,n)) / sqrt 64,
    m(b, q)    = max(-inf, max over n of s(b,q,n)) = sup over n of s(b,q,n),
    e(b, q, n) = exp(s(b,q,n) - m(b,q)),
    p(b, q, n) = e(b,q,n) / (0 + sum over n' of e(b,q,n')),
    out(b, q, k) = sum over n of p(b,q,n) V(b,n,k).
  Each stage is read at an index whose coordinates are named, innermost stage first: a bias broadcast along the
  rows reads the bias at the last coordinate; a row statistic broadcast back along the row reads it at the first two
  coordinates; a contraction is the sum over the contracted coordinate. Two identities of the extended reals remove
  the initial values of the two row reductions: bot ⊔ a = a for the maximum started at -inf (and taken once more
  against -inf), and 0 + a = a for the sum started at 0. No entry needs to be finite for any of this.
-/
import proofs.«121072_j35897336660236_2_alg».proof.Proof.Gen.ReferenceIdeal.Read
import proofs.«121072_j35897336660236_2_alg».proof.Proof.Attention
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.Read Idealize.ShloMosaic Idealize.ShloMosaic.ValueIdx
open Cert.Attention

/-! ## The projections: (x W^T + c)(b, n, k) = (sum over d of x(b,n,d) W(k,d)) + c(k) -/

/-- The contraction of a projection reads the features at (b, n, d) … -/
theorem lidx_proj (b : Fin 2) (n : Fin 4096) (k : Fin 64) (d : Fin 512) :
    lidx_main_v0 (ix3 b n k) d = ix3 b n d :=
  funext fun a => Fin.ext (by match a with | ⟨0, _⟩ => rfl | ⟨1, _⟩ => rfl | ⟨2, _⟩ => rfl)

/-- … and the weight, stored [out, in], at (k, d). -/
theorem ridx_proj (b : Fin 2) (n : Fin 4096) (k : Fin 64) (d : Fin 512) :
    ridx_main_v0 (ix3 b n k) d = ix2 k d :=
  funext fun a => Fin.ext (by match a with | ⟨0, _⟩ => rfl | ⟨1, _⟩ => rfl)

/-- The bias, broadcast over batch and row, is read at the output feature k. -/
theorem idx_bias (b : Fin 2) (n : Fin 4096) (k : Fin 64) :
    idx_main_v1 (idx_main_v2 (ix3 b n k)) = ix1 k :=
  funext fun a => Fin.ext (by match a with | ⟨0, _⟩ => rfl)

/-- A projection stage at (b, n, k) is the specification's projection of the arrays read by coordinates. -/
theorem proj_apply (x : FVec Ideal S2x4096x512 .f32) (w : FVec Ideal S64x512 .f32) (c : FVec Ideal S64 .f32)
    (b : Fin 2) (n : Fin 4096) (k : Fin 64) :
    val_main_v3 (F := Ideal) x w c (ix3 b n k)
      = proj (fun b n d => x (ix3 b n d)) (fun k d => w (ix2 k d)) (fun k => c (ix1 k)) b n k := by
  rw [val_main_v3_apply, val_main_v0_apply, val_main_v2_apply, val_main_v1_apply, idx_bias]
  unfold proj
  refine congrArg (· + c (ix1 k)) (Finset.sum_congr rfl fun d _ => ?_)
  rw [lidx_proj, ridx_proj]

/-- The key projection and the value projection are the same function of their weight and bias as the query projection. -/
theorem key_proj_eq : @val_main_v7 Ideal _ = @val_main_v3 Ideal _ := rfl
theorem value_proj_eq : @val_main_v11 Ideal _ = @val_main_v3 Ideal _ := rfl

/-! ## The scores: ((q . k) + Sh + Sw) / sqrt 64 -/

/-- The score's contraction over the 64 features reads the query at (b, q, k) … -/
theorem lidx_score (b : Fin 2) (q n : Fin 4096) (k : Fin 64) :
    lidx_main_v13 (ix3 b q n) k = ix3 b q k :=
  funext fun a => Fin.ext (by match a with | ⟨0, _⟩ => rfl | ⟨1, _⟩ => rfl | ⟨2, _⟩ => rfl)

/-- … and the key at (b, n, k). -/
theorem ridx_score (b : Fin 2) (q n : Fin 4096) (k : Fin 64) :
    ridx_main_v13 (ix3 b q n) k = ix3 b n k :=
  funext fun a => Fin.ext (by match a with | ⟨0, _⟩ => rfl | ⟨1, _⟩ => rfl | ⟨2, _⟩ => rfl)

section
variable (x : FVec Ideal S2x4096x512 .f32) (Sh Sw : FVec Ideal S2x4096x4096 .f32)
  (wq : FVec Ideal S64x512 .f32) (bq : FVec Ideal S64 .f32) (wk : FVec Ideal S64x512 .f32) (bk : FVec Ideal S64 .f32)
  (wv : FVec Ideal S64x512 .f32) (bv : FVec Ideal S64 .f32)

/-- The scores of the layer as a function of (batch, query, key), the arrays read by coordinates. -/
abbrev scoreOf : Fin 2 → Fin 4096 → Fin 4096 → EReal :=
  score (proj (fun b n d => x (ix3 b n d)) (fun k d => wq (ix2 k d)) (fun k => bq (ix1 k)))
    (proj (fun b n d => x (ix3 b n d)) (fun k d => wk (ix2 k d)) (fun k => bk (ix1 k)))
    (fun b q n => Sh (ix3 b q n)) (fun b q n => Sw (ix3 b q n))

/-- The scaled score stage at (b, q, n) is the specification's score: the divisor, a scalar broadcast everywhere, is
    the square root of the float word of 64 at every index. -/
theorem score_apply (b : Fin 2) (q n : Fin 4096) :
    val_main_v17 (F := Ideal) x Sh Sw wq bq wk bk (ix3 b q n) = scoreOf x Sh Sw wq bq wk bk b q n := by
  rw [val_main_v17_apply, val_main_v15_apply, val_main_v14_apply, val_main_v13_apply, val_main_v16_apply,
    val_main_v12_apply, val_main_cst_apply]
  unfold scoreOf score headDim
  refine congrArg (fun s => Ideal.div ((s + Sh (ix3 b q n)) + Sw (ix3 b q n)) _) (Finset.sum_congr rfl fun k _ => ?_)
  rw [lidx_score, ridx_score, key_proj_eq, proj_apply, proj_apply]

/-! ## The row maximum: a fold of max from -inf over the row is the row's supremum -/

/-- The float word 0xFF800000 is -inf, the least extended real. -/
theorem negInf : Ideal.ofBits .f32 0xFF800000#32 = ⊥ := by simp [Ideal.ofBits, Ideal.ieee]

/-- Dropping the last axis of [2, 4096, 4096] leaves [2, 4096]. -/
theorem reduces_last : S2x4096x4096.Reduces [2] S2x4096 := by decide

/-- Row (b, q) with the key coordinate n put back is the index (b, q, n). -/
theorem lift_row (b : Fin 2) (q n : Fin 4096) : reduces_last.lift (ix2 b q) n = ix3 b q n :=
  funext fun a => Fin.ext (by match a with | ⟨0, _⟩ => rfl | ⟨1, _⟩ => rfl | ⟨2, _⟩ => rfl)

/-- The row maximum at (b, q): the maximum over the row, started at -inf and then taken against -inf once more, is the
    supremum of the row's scores, because -inf is the bottom element (bot ⊔ a = a) and a supremum over a finite set IS the
    fold of ⊔ from bot. -/
theorem rowmax_apply (b : Fin 2) (q : Fin 4096) :
    val_main_v20 (F := Ideal) x Sh Sw wq bq wk bk (ix2 b q) = Finset.univ.sup (scoreOf x Sh Sw wq bq wk bk b q) := by
  rw [val_main_v20_apply, val_main_v19_apply, val_main_cst_1_apply]
  unfold val_main_v18
  rw [Host.reduce_eq_fold_single FloatOps.maximumf _ _ reducesTo_S2x4096x4096_S2x4096_d2 reduces_last h_S_,
    val_main_cst_0_apply]
  have hf : (val_main_v17 (F := Ideal) x Sh Sw wq bq wk bk ∘ reduces_last.lift (ix2 b q))
      = scoreOf x Sh Sw wq bq wk bk b q :=
    funext fun n => (congrArg _ (lift_row b q n)).trans (score_apply x Sh Sw wq bq wk bk b q n)
  rw [hf]
  show max (Ideal.ofBits .f32 0xFF800000#32) (Finset.univ.fold max (Ideal.ofBits .f32 0xFF800000#32) _) = _
  rw [negInf]
  exact max_bot_left _

/-! ## The softmax weights -/

/-- The row maximum, broadcast back along the row, is read at (b, q) … -/
theorem idx_rowmax (b : Fin 2) (q n : Fin 4096) : idx_main_v21 (idx_main_v22 (ix3 b q n)) = ix2 b q :=
  funext fun a => Fin.ext (by match a with | ⟨0, _⟩ => rfl | ⟨1, _⟩ => rfl)

/-- … and so is the row sum. -/
theorem idx_rowsum (b : Fin 2) (q n : Fin 4096) : idx_main_v26 (idx_main_v27 (ix3 b q n)) = ix2 b q :=
  funext fun a => Fin.ext (by match a with | ⟨0, _⟩ => rfl | ⟨1, _⟩ => rfl)

/-- The n-th summand of the row sum at (b, q) is the entry (b, q, n). -/
theorem idx_summand (b : Fin 2) (q n : Fin 4096) : idx_main_v25 (ix2 b q) n = ix3 b q n :=
  funext fun a => Fin.ext (by match a with | ⟨0, _⟩ => rfl | ⟨1, _⟩ => rfl | ⟨2, _⟩ => rfl)

/-- The exponential stage at (b, q, n): exp(s(b,q,n) - sup of row (b, q)). -/
theorem exp_apply (b : Fin 2) (q n : Fin 4096) :
    val_main_v24 (F := Ideal) x Sh Sw wq bq wk bk (ix3 b q n)
      = Ideal.exp (scoreOf x Sh Sw wq bq wk bk b q n - Finset.univ.sup (scoreOf x Sh Sw wq bq wk bk b q)) := by
  rw [val_main_v24_apply, val_main_v23_apply, val_main_v22_apply, val_main_v21_apply, idx_rowmax, rowmax_apply,
    score_apply]
  rfl

/-- The normalized stage at (b, q, n) is the specification's softmax weight of row (b, q): the row sum starts at the
    float word of zero, which is 0, and 0 + a = a. -/
theorem weight_apply (b : Fin 2) (q n : Fin 4096) :
    val_main_v28 (F := Ideal) x Sh Sw wq bq wk bk (ix3 b q n) = weight (scoreOf x Sh Sw wq bq wk bk b q) n := by
  rw [val_main_v28_apply, val_main_v27_apply, val_main_v26_apply, idx_rowsum, val_main_v25_apply,
    val_main_cst_2_apply, exp_apply]
  unfold weight
  show Ideal.div _ (Ideal.ofBits .f32 0x00000000#32 + _) = _
  rw [Ideal.ofBits_zero_f32, zero_add]
  refine congrArg (Ideal.div _) (Finset.sum_congr rfl fun n' _ => ?_)
  rw [idx_summand, exp_apply]

/-! ## The result: the weights of row (b, q) against the value projection -/

/-- The last contraction, over the 4096 keys, reads the weights at (b, q, n) … -/
theorem lidx_out (b : Fin 2) (q : Fin 4096) (k : Fin 64) (n : Fin 4096) : lidx_main_v29 (ix3 b q k) n = ix3 b q n :=
  funext fun a => Fin.ext (by match a with | ⟨0, _⟩ => rfl | ⟨1, _⟩ => rfl | ⟨2, _⟩ => rfl)

/-- … and the values at (b, n, k). -/
theorem ridx_out (b : Fin 2) (q : Fin 4096) (k : Fin 64) (n : Fin 4096) : ridx_main_v29 (ix3 b q k) n = ix3 b n k :=
  funext fun a => Fin.ext (by match a with | ⟨0, _⟩ => rfl | ⟨1, _⟩ => rfl | ⟨2, _⟩ => rfl)

/-- THE REFERENCE IS THE LAYER: its last stage, as a function of the nine argument arrays, read at (b, q, k) is the
    attention layer of the arrays read by coordinates. No entry is assumed finite. -/
theorem result_eq_layer (b : Fin 2) (q : Fin 4096) (k : Fin 64) :
    val_main_v29 (F := Ideal) x Sh Sw wq bq wk bk wv bv (ix3 b q k)
      = layer (fun b n d => x (ix3 b n d)) (fun b q n => Sh (ix3 b q n)) (fun b q n => Sw (ix3 b q n))
          (fun k d => wq (ix2 k d)) (fun k => bq (ix1 k)) (fun k d => wk (ix2 k d)) (fun k => bk (ix1 k))
          (fun k d => wv (ix2 k d)) (fun k => bv (ix1 k)) b q k := by
  rw [val_main_v29_apply]
  unfold layer attend
  refine Finset.sum_congr rfl fun n _ => ?_
  rw [lidx_out, ridx_out, weight_apply, value_proj_eq, proj_apply]

end

/-! ## The run, restated over the layer -/

/-- The attention layer as an array: the entry at an index is the layer at the index's three coordinates. -/
def layerArr (x : FVec Ideal S2x4096x512 .f32) (Sh Sw : FVec Ideal S2x4096x4096 .f32)
    (wq : FVec Ideal S64x512 .f32) (bq : FVec Ideal S64 .f32) (wk : FVec Ideal S64x512 .f32) (bk : FVec Ideal S64 .f32)
    (wv : FVec Ideal S64x512 .f32) (bv : FVec Ideal S64 .f32) : FVec Ideal S2x4096x64 .f32 :=
  fun i => layer (fun b n d => x (ix3 b n d)) (fun b q n => Sh (ix3 b q n)) (fun b q n => Sw (ix3 b q n))
    (fun k d => wq (ix2 k d)) (fun k => bq (ix1 k)) (fun k d => wk (ix2 k d)) (fun k => bk (ix1 k))
    (fun k d => wv (ix2 k d)) (fun k => bv (ix1 k)) (i 0) (i 1) (i 2)

/-- The reference's last stage is that array: every index is (b, q, k) for its coordinates. -/
theorem result_eq (x : FVec Ideal S2x4096x512 .f32) (Sh Sw : FVec Ideal S2x4096x4096 .f32)
    (wq : FVec Ideal S64x512 .f32) (bq : FVec Ideal S64 .f32) (wk : FVec Ideal S64x512 .f32) (bk : FVec Ideal S64 .f32)
    (wv : FVec Ideal S64x512 .f32) (bv : FVec Ideal S64 .f32) :
    val_main_v29 (F := Ideal) x Sh Sw wq bq wk bk wv bv = layerArr x Sh Sw wq bq wk bk wv bv := by
  funext i
  obtain ⟨b, q, k, rfl⟩ : ∃ (b : Fin 2) (q : Fin 4096) (k : Fin 64), i = ix3 b q k := ⟨i 0, i 1, i 2, eq_ix3 i⟩
  exact result_eq_layer x Sh Sw wq bq wk bk wv bv b q k

open Idealize.SL.Sem Idealize.ShloMosaic.TcCoe Idealize.ShloMosaic.StableHlo in
/-- Every weakly fair execution of the reference terminates, without a fault, with its nine argument arrays unchanged:
    the run with the statement about the result dropped. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => (h c).2) (Cert.ReferenceIdeal.Value.run (F := Ideal) m ρ)

open Idealize.SL.Sem Idealize.ShloMosaic.TcCoe Idealize.ShloMosaic.StableHlo in
/-- Every weakly fair execution of the reference terminates, without a fault, with its result array equal to the
    attention layer of the argument arrays, entry by entry, and the arguments unchanged. -/
theorem run_layer (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
        = layerArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c => ⟨(h c).1.trans ((val_main_v29_eq m c).trans (result_eq _ _ _ _ _ _ _ _ _)), (h c).2⟩)
    (Cert.ReferenceIdeal.Value.run (F := Ideal) m ρ)

end Cert.ReferenceIdeal.RefSide

end
-- ==== Proof.FlashPieces.lean ====
/-
  What the flash-attention body leaves, case by case, as the payloads of its inputs.

  The three runs of the body (first, middle, last key tile) each end with a list of stored pieces per buffer. Here each
  list is read back: every buffer is stored whole, so what it holds afterwards is the payload of its last store. At a
  middle or last key tile the row maxima, the normalisers and the accumulators are the update's payloads of the five
  input blocks and the carry handed in; at a last key tile the output block is the accumulators just written divided
  by the normalisers just written; at a first key tile the carry handed in is the reset's (minus infinity, zero, zero)
  splats. Stated first for the runs on arbitrary whole memrefs, then at a point of the grid.
-/
import proofs.«121072_j35897336660236_2_alg».proof.Proof.FlashRegion
import Idealize.ShloMosaic.Lib.Pipeline.Value

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A middle key tile -/

/-- The row maxima a middle key tile leaves: the new running maxima. -/
theorem middle_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : ¬isLast i) (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    View.canon (runMiddle (F := F) c i arg3 harg3 arg4 harg4 arg5 harg5 arg6 harg6 arg7 harg7 arg8 harg8 arg9 harg9 arg10 harg10 arg11 harg11 hc0 hc1 x0 x1 x2 x3 x4 xm xs xa).2.1 = k1_pay3 (k1_pay9 x0 x1 x3 x4 xm) := by
  unfold runMiddle
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2]

/-- The normalisers it leaves: the rescaled old ones plus the tile's row sums. -/
theorem middle_sum (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : ¬isLast i) (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    View.canon (runMiddle (F := F) c i arg3 harg3 arg4 harg4 arg5 harg5 arg6 harg6 arg7 harg7 arg8 harg8 arg9 harg9 arg10 harg10 arg11 harg11 hc0 hc1 x0 x1 x2 x3 x4 xm xs xa).2.2.1 = k1_pay1 (k1_pay12 x0 x1 x3 x4 xm xm xs) := by
  unfold runMiddle
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2]

/-- The accumulators it leaves: the rescaled old ones plus the tile's weights against its values. -/
theorem middle_acc (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : ¬isLast i) (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    View.canon (runMiddle (F := F) c i arg3 harg3 arg4 harg4 arg5 harg5 arg6 harg6 arg7 harg7 arg8 harg8 arg9 harg9 arg10 harg10 arg11 harg11 hc0 hc1 x0 x1 x2 x3 x4 xm xs xa).2.2.2.1
      = k1_pay2 (k1_pay10 x0 x1 x3 x4 xm xm) (k1_pay11 x0 x1 x3 x4 xm) x2 xa := by
  unfold runMiddle
  dsimp only
  sl_unfold_words
  rw [View.canon_unit_zero (S := S1024x128) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2]

/-! ## A last key tile -/

/-- The row maxima a last key tile leaves: as at a middle tile. -/
theorem last_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : isLast i) (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    View.canon (runLast (F := F) c i arg3 harg3 arg4 harg4 arg5 harg5 arg6 harg6 arg7 harg7 arg8 harg8 arg9 harg9 arg10 harg10 arg11 harg11 hc0 hc1 x0 x1 x2 x3 x4 xm xs xa).2.1 = k1_pay3 (k1_pay9 x0 x1 x3 x4 xm) := by
  unfold runLast
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2]

/-- The normalisers it leaves: as at a middle tile. -/
theorem last_sum (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : isLast i) (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    View.canon (runLast (F := F) c i arg3 harg3 arg4 harg4 arg5 harg5 arg6 harg6 arg7 harg7 arg8 harg8 arg9 harg9 arg10 harg10 arg11 harg11 hc0 hc1 x0 x1 x2 x3 x4 xm xs xa).2.2.1 = k1_pay1 (k1_pay12 x0 x1 x3 x4 xm xm xs) := by
  unfold runLast
  dsimp only
  sl_unfold_words
  rw [View.canon_unit_zero (S := S1024x1) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2]

/-- The accumulators it leaves: as at a middle tile. -/
theorem last_acc (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : isLast i) (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    View.canon (runLast (F := F) c i arg3 harg3 arg4 harg4 arg5 harg5 arg6 harg6 arg7 harg7 arg8 harg8 arg9 harg9 arg10 harg10 arg11 harg11 hc0 hc1 x0 x1 x2 x3 x4 xm xs xa).2.2.2.1
      = k1_pay2 (k1_pay10 x0 x1 x3 x4 xm xm) (k1_pay11 x0 x1 x3 x4 xm) x2 xa := by
  unfold runLast
  dsimp only
  sl_unfold_words
  rw [View.canon_unit_zero (S := S1024x128) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2]

/-- The output block it stores: the accumulators just written divided by the normalisers just written. -/
theorem last_out (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : ¬isFirst i) (hc1 : isLast i) (x0 : Vec F S1x1024x128 .bf16) (x1 : Vec F S1x1024x128 .bf16) (x2 : Vec F S1x1024x128 .bf16) (x3 : Vec F S1x1024x1024 .f32) (x4 : Vec F S1x1024x1024 .f32) (xm : Vec F S1024x1 .f32) (xs : Vec F S1024x1 .f32) (xa : Vec F S1024x128 .f32) :
    View.canon (runLast (F := F) c i arg3 harg3 arg4 harg4 arg5 harg5 arg6 harg6 arg7 harg7 arg8 harg8 arg9 harg9 arg10 harg10 arg11 harg11 hc0 hc1 x0 x1 x2 x3 x4 xm xs xa).1
      = k1_pay4 (k1_pay2 (k1_pay10 x0 x1 x3 x4 xm xm) (k1_pay11 x0 x1 x3 x4 xm) x2 xa)
          (k1_pay1 (k1_pay12 x0 x1 x3 x4 xm xm xs)) := by
  unfold runLast
  dsimp only
  sl_unfold_words
  rw [View.canon_unit_zero (S := S1x1024x128) hz3]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2, View.readCov_unit_zero (S := S1024x1) _ hz2, View.readCov_unit_zero (S := S1024x128) _ hz2]

/-! ## A first key tile -/

/-- The row maxima a first key tile leaves: the update from the reset's minus infinity. -/
theorem first_max (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : isFirst i) (hc1 : ¬isLast i) (x0 : Vec F S1x1024x128 .bf16) (x1 : Vec F S1x1024x128 .bf16) (x2 : Vec F S1x1024x128 .bf16) (x3 : Vec F S1x1024x1024 .f32) (x4 : Vec F S1x1024x1024 .f32) :
    View.canon (runFirst (F := F) c i arg3 harg3 arg4 harg4 arg5 harg5 arg6 harg6 arg7 harg7 arg8 harg8 arg9 harg9 arg10 harg10 arg11 harg11 hc0 hc1 x0 x1 x2 x3 x4).2.1 = k1_pay3 (k1_pay9 x0 x1 x3 x4 k1_pay5) := by
  unfold runFirst
  dsimp only
  sl_unfold_words
  rw [View.canon_cons_unit_zero (S := S1024x1) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2, View.readCov_unit_zero (S := S1024x1) _ hz2, View.readCov_unit_zero (S := S1024x128) _ hz2]

/-- The normalisers it leaves: the update from the reset's minus infinity and zero. -/
theorem first_sum (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : isFirst i) (hc1 : ¬isLast i) (x0 : Vec F S1x1024x128 .bf16) (x1 : Vec F S1x1024x128 .bf16) (x2 : Vec F S1x1024x128 .bf16) (x3 : Vec F S1x1024x1024 .f32) (x4 : Vec F S1x1024x1024 .f32) :
    View.canon (runFirst (F := F) c i arg3 harg3 arg4 harg4 arg5 harg5 arg6 harg6 arg7 harg7 arg8 harg8 arg9 harg9 arg10 harg10 arg11 harg11 hc0 hc1 x0 x1 x2 x3 x4).2.2.1 = k1_pay1 (k1_pay12 x0 x1 x3 x4 k1_pay5 k1_pay5 k1_pay6) := by
  unfold runFirst
  dsimp only
  sl_unfold_words
  rw [View.canon_cons_unit_zero (S := S1024x1) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2, View.readCov_unit_zero (S := S1024x1) _ hz2, View.readCov_unit_zero (S := S1024x128) _ hz2]

/-- The accumulators it leaves: the update from the reset's minus infinity and zero. -/
theorem first_acc (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S1x1024x128 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x128 .f32) (harg11 : arg11.IsWhole) (hc0 : isFirst i) (hc1 : ¬isLast i) (x0 : Vec F S1x1024x128 .bf16) (x1 : Vec F S1x1024x128 .bf16) (x2 : Vec F S1x1024x128 .bf16) (x3 : Vec F S1x1024x1024 .f32) (x4 : Vec F S1x1024x1024 .f32) :
    View.canon (runFirst (F := F) c i arg3 harg3 arg4 harg4 arg5 harg5 arg6 harg6 arg7 harg7 arg8 harg8 arg9 harg9 arg10 harg10 arg11 harg11 hc0 hc1 x0 x1 x2 x3 x4).2.2.2.1
      = k1_pay2 (k1_pay10 x0 x1 x3 x4 k1_pay5 k1_pay5) (k1_pay11 x0 x1 x3 x4 k1_pay5) x2 k1_pay7 := by
  unfold runFirst
  dsimp only
  sl_unfold_words
  rw [View.canon_cons_unit_zero (S := S1024x128) hz2]
  simp only [View.readAt_eq_ld, harg3.read_unread, harg4.read_unread, harg5.read_unread, harg6.read_unread, harg7.read_unread, harg9.read_unread, harg10.read_unread, harg11.read_unread, View.ld_unit_zero (S := S1x1024x128) hz3, View.ld_unit_zero (S := S1x1024x1024) hz3, View.ld_unit_zero (S := S1024x1) hz2, View.ld_unit_zero (S := S1024x128) hz2, View.readCov_unit_zero (S := S1024x1) _ hz2, View.readCov_unit_zero (S := S1024x128) _ hz2]

variable (V : (c : Dev nD) → (b : Ref sig .tc) → Buf (Elt F) ((c : Thread nD τ).loc b))

set_option maxHeartbeats 2000000 in
/-- At a point of the grid: the carry a middle key tile leaves is the update of the point's blocks and the carry X. -/
theorem carryMiddle_eq (c : Dev nD) (t : Fin cfg1.N) (h0 : ¬isFirst (grid1.coords t)) (h1 : ¬isLast (grid1.coords t))
    (X : Carry F) :
    carryMiddle V c t h0 h1 X
      = (k1_pay3 (k1_pay9 (iblk V c 0 t) (iblk V c 1 t) (iblk V c 3 t) (iblk V c 4 t) X.1),
         k1_pay1 (k1_pay12 (iblk V c 0 t) (iblk V c 1 t) (iblk V c 3 t) (iblk V c 4 t) X.1 X.1 X.2.1),
         k1_pay2 (k1_pay10 (iblk V c 0 t) (iblk V c 1 t) (iblk V c 3 t) (iblk V c 4 t) X.1 X.1)
           (k1_pay11 (iblk V c 0 t) (iblk V c 1 t) (iblk V c 3 t) (iblk V c 4 t) X.1) (iblk V c 2 t) X.2.2) := by
  unfold carryMiddle
  rw [View.read_writes_junk_eq_canon, View.read_writes_junk_eq_canon, View.read_writes_junk_eq_canon,
    middle_max, middle_sum, middle_acc]

set_option maxHeartbeats 2000000 in
/-- At a point of the grid: the carry a last key tile leaves, as at a middle tile. -/
theorem carryLast_eq (c : Dev nD) (t : Fin cfg1.N) (h0 : ¬isFirst (grid1.coords t)) (h1 : isLast (grid1.coords t))
    (X : Carry F) :
    carryLast V c t h0 h1 X
      = (k1_pay3 (k1_pay9 (iblk V c 0 t) (iblk V c 1 t) (iblk V c 3 t) (iblk V c 4 t) X.1),
         k1_pay1 (k1_pay12 (iblk V c 0 t) (iblk V c 1 t) (iblk V c 3 t) (iblk V c 4 t) X.1 X.1 X.2.1),
         k1_pay2 (k1_pay10 (iblk V c 0 t) (iblk V c 1 t) (iblk V c 3 t) (iblk V c 4 t) X.1 X.1)
           (k1_pay11 (iblk V c 0 t) (iblk V c 1 t) (iblk V c 3 t) (iblk V c 4 t) X.1) (iblk V c 2 t) X.2.2) := by
  unfold carryLast
  rw [View.read_writes_junk_eq_canon, View.read_writes_junk_eq_canon, View.read_writes_junk_eq_canon,
    last_max, last_sum, last_acc]

set_option maxHeartbeats 2000000 in
/-- The output block a last key tile stores: the accumulators it leaves divided by the normalisers it leaves. -/
theorem outLast_eq (c : Dev nD) (t : Fin cfg1.N) (h0 : ¬isFirst (grid1.coords t)) (h1 : isLast (grid1.coords t))
    (X : Carry F) :
    outLast V c t h0 h1 X = k1_pay4 (carryLast V c t h0 h1 X).2.2 (carryLast V c t h0 h1 X).2.1 := by
  rw [carryLast_eq]
  unfold outLast
  rw [View.read_writes_junk_eq_canon, last_out]

set_option maxHeartbeats 2000000 in
/-- The carry a first key tile leaves: the update of the point's blocks from the reset's (minus infinity, zero, zero). -/
theorem carryFirst_eq (c : Dev nD) (t : Fin cfg1.N) (h0 : isFirst (grid1.coords t)) (h1 : ¬isLast (grid1.coords t)) :
    carryFirst V c t h0 h1
      = (k1_pay3 (k1_pay9 (iblk V c 0 t) (iblk V c 1 t) (iblk V c 3 t) (iblk V c 4 t) k1_pay5),
         k1_pay1 (k1_pay12 (iblk V c 0 t) (iblk V c 1 t) (iblk V c 3 t) (iblk V c 4 t) k1_pay5 k1_pay5 k1_pay6),
         k1_pay2 (k1_pay10 (iblk V c 0 t) (iblk V c 1 t) (iblk V c 3 t) (iblk V c 4 t) k1_pay5 k1_pay5)
           (k1_pay11 (iblk V c 0 t) (iblk V c 1 t) (iblk V c 3 t) (iblk V c 4 t) k1_pay5) (iblk V c 2 t) k1_pay7) := by
  unfold carryFirst
  rw [View.read_writes_junk_eq_canon, View.read_writes_junk_eq_canon, View.read_writes_junk_eq_canon,
    first_max, first_sum, first_acc]

end Cert.KernelIdeal.Flash

end
-- ==== Proof.LibOnlineSoftmax.lean ====
/-
  The online (streaming) form of softmax-weighted averaging, on the extended reals.

  A row of J * B real scores S and real values V is walked in J consecutive blocks of B. A running state
  (m, l, a) -- the maximum seen so far, the normaliser and the accumulator, both taken relative to m -- is started
  at (-inf, 0, 0); folding in a block with block maximum m' replaces it by

      m_new = max m m',
      l_new = exp (m - m_new) * l + sum over the block of exp (s - m_new),
      a_new = exp (m - m_new) * a + sum over the block of exp (s - m_new) * v.

  Because exp (m - m_new) * exp (s - m) = exp (s - m_new) for real numbers, after j >= 1 blocks the state is
  (M_j, L_j, A_j) with M_j the maximum of the first j blocks, L_j the sum of exp (S - M_j) over them and
  A_j the sum of exp (S - M_j) * V over them. At the first block the old maximum is -inf and
  exp (-inf - m') = exp (-inf) = 0 kills the (zero) old normaliser and accumulator. Hence a / l after all J blocks
  is the plain softmax average: the sum over all entries of exp (S - max S) / (sum of exp (S - max S)) * V.

  The data are real (finite): the statement is false at infinite scores. Only the arithmetic is carried out on
  the extended reals, with exp (-inf) = 0 and division by a nonzero real being multiplication by its reciprocal.

  Also here: a sum, and a supremum, over Fin (J * B) regrouped into J consecutive blocks of B.
-/
import Idealize.ShloMosaic.PureOps.Ideal

noncomputable section

namespace Cert.Lib.OnlineSoftmax

open Idealize.ShloMosaic
open scoped BigOperators

/-- one key block folded into the running (max, normaliser, accumulator) -/
def step {B : ℕ} (s v : Fin B → EReal) (σ : EReal × EReal × EReal) : EReal × EReal × EReal :=
  (max σ.1 (Finset.univ.sup s),
   Ideal.exp (σ.1 - max σ.1 (Finset.univ.sup s)) * σ.2.1 + ∑ n, Ideal.exp (s n - max σ.1 (Finset.univ.sup s)),
   Ideal.exp (σ.1 - max σ.1 (Finset.univ.sup s)) * σ.2.2 + ∑ n, Ideal.exp (s n - max σ.1 (Finset.univ.sup s)) * v n)

/-- the state after the first j blocks -/
def run {B : ℕ} (s v : ℕ → Fin B → EReal) : ℕ → EReal × EReal × EReal
  | 0 => (⊥, 0, 0)
  | j + 1 => step (s j) (v j) (run s v j)

/-! ### Coercion of real sums, maxima and exponentials into the extended reals -/

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The coercion of a real maximum is the maximum of the coercions. -/
theorem coe_max (x y : ℝ) : ((max x y : ℝ) : EReal) = max (x : EReal) (y : EReal) :=
  EReal.coe_strictMono.monotone.map_max

/-- A supremum of real numbers over a nonempty finite set is attained, so it is a real number. -/
theorem exists_sup_coe {ι : Type*} {s : Finset ι} (hs : s.Nonempty) (f : ι → ℝ) :
    ∃ m : ℝ, s.sup (fun i => (f i : EReal)) = (m : EReal) := by
  obtain ⟨i, _, hi⟩ := Finset.exists_mem_eq_sup s hs (fun i => (f i : EReal))
  exact ⟨f i, hi⟩

/-- exp of a difference of reals is the real exponential of the difference. -/
theorem exp_coe_sub (a b : ℝ) :
    Ideal.exp ((a : EReal) - (b : EReal)) = ((Real.exp (a - b) : ℝ) : EReal) := by
  rw [← EReal.coe_sub, Ideal.exp_coe]

/-! ### One step on real data -/

/-- The first block: from (-inf, 0, 0) the state becomes the block's own maximum, normaliser and accumulator. -/
theorem step_bot {B : ℕ} (s v : Fin B → ℝ) (m : ℝ)
    (hm : Finset.univ.sup (fun n => (s n : EReal)) = (m : EReal)) :
    step (fun n => (s n : EReal)) (fun n => (v n : EReal)) (⊥, 0, 0)
      = ((m : EReal), ((∑ n, Real.exp (s n - m) : ℝ) : EReal),
          ((∑ n, Real.exp (s n - m) * v n : ℝ) : EReal)) := by
  simp only [step, hm, max_bot_left, EReal.bot_sub, Ideal.exp_bot, mul_zero, zero_add, exp_coe_sub,
    coe_sum, EReal.coe_mul]

/-- A later block: from a real state the new state is real, rescaled by exp (old max - new max). -/
theorem step_coe {B : ℕ} (s v : Fin B → ℝ) (m M L A : ℝ)
    (hm : Finset.univ.sup (fun n => (s n : EReal)) = (m : EReal)) :
    step (fun n => (s n : EReal)) (fun n => (v n : EReal)) ((M : EReal), (L : EReal), (A : EReal))
      = (((max M m : ℝ) : EReal),
          ((Real.exp (M - max M m) * L + ∑ n, Real.exp (s n - max M m) : ℝ) : EReal),
          ((Real.exp (M - max M m) * A + ∑ n, Real.exp (s n - max M m) * v n : ℝ) : EReal)) := by
  simp only [step, hm, ← coe_max, exp_coe_sub, EReal.coe_add, EReal.coe_mul, coe_sum]

/-! ### Changing the reference point of the exponentials -/

/-- exp (M - M') * sum of exp (S - M) * W = sum of exp (S - M') * W. -/
theorem rescale {B : ℕ} (S W : ℕ → Fin B → ℝ) (k : ℕ) (M M' : ℝ) :
    Real.exp (M - M') * ∑ j ∈ Finset.range k, ∑ n, Real.exp (S j n - M) * W j n
      = ∑ j ∈ Finset.range k, ∑ n, Real.exp (S j n - M') * W j n := by
  rw [Finset.mul_sum]
  refine Finset.sum_congr rfl fun j _ => ?_
  rw [Finset.mul_sum]
  refine Finset.sum_congr rfl fun n _ => ?_
  rw [← mul_assoc, ← Real.exp_add]
  congr 2
  ring

/-- exp (M - M') * sum of exp (S - M) = sum of exp (S - M'). -/
theorem rescale_one {B : ℕ} (S : ℕ → Fin B → ℝ) (k : ℕ) (M M' : ℝ) :
    Real.exp (M - M') * ∑ j ∈ Finset.range k, ∑ n, Real.exp (S j n - M)
      = ∑ j ∈ Finset.range k, ∑ n, Real.exp (S j n - M') := by
  simpa using rescale S (fun _ _ => 1) k M M'

/-! ### The invariant -/

/-- After k + 1 blocks the state is (max, sum of exp (S - max), sum of exp (S - max) * V) over those blocks,
    all three real. -/
theorem run_succ {B : ℕ} (hB : 0 < B) (S V : ℕ → Fin B → ℝ) (k : ℕ) :
    ∃ M : ℝ,
      ((Finset.range (k + 1)).sup fun j' => Finset.univ.sup fun n' => (S j' n' : EReal)) = (M : EReal) ∧
      run (fun j n => (S j n : EReal)) (fun j n => (V j n : EReal)) (k + 1)
        = ((M : EReal),
            ((∑ j ∈ Finset.range (k + 1), ∑ n, Real.exp (S j n - M) : ℝ) : EReal),
            ((∑ j ∈ Finset.range (k + 1), ∑ n, Real.exp (S j n - M) * V j n : ℝ) : EReal)) := by
  haveI : Nonempty (Fin B) := ⟨⟨0, hB⟩⟩
  induction k with
  | zero =>
    obtain ⟨m, hm⟩ := exists_sup_coe (Finset.univ_nonempty (α := Fin B)) (S 0)
    refine ⟨m, ?_, ?_⟩
    · simpa using hm
    · show step _ _ (⊥, 0, 0) = _
      rw [step_bot (S 0) (V 0) m hm]
      simp
  | succ k ih =>
    obtain ⟨M, hM, hrun⟩ := ih
    obtain ⟨m, hm⟩ := exists_sup_coe (Finset.univ_nonempty (α := Fin B)) (S (k + 1))
    refine ⟨max M m, ?_, ?_⟩
    · rw [Finset.range_add_one, Finset.sup_insert, hM, hm, coe_max, sup_comm]
    · show step _ _ (run _ _ (k + 1)) = _
      rw [hrun, step_coe (S (k + 1)) (V (k + 1)) m M _ _ hm,
        rescale_one S (k + 1) M (max M m), rescale S V (k + 1) M (max M m),
        Finset.sum_range_succ (fun j => ∑ n, Real.exp (S j n - max M m)) (k + 1),
        Finset.sum_range_succ (fun j => ∑ n, Real.exp (S j n - max M m) * V j n) (k + 1)]

/-! ### The theorem -/

/-- The online recurrence over J >= 1 blocks of B >= 1 real scores and values ends with accumulator / normaliser
    equal to the softmax-weighted sum of the values over all J * B entries. -/
theorem run_eq_softmax {B : ℕ} (hB : 0 < B) (S V : ℕ → Fin B → ℝ) (J : ℕ) (hJ : 0 < J) :
    Ideal.div (run (fun j n => (S j n : EReal)) (fun j n => (V j n : EReal)) J).2.2
              (run (fun j n => (S j n : EReal)) (fun j n => (V j n : EReal)) J).2.1
      = ∑ j ∈ Finset.range J, ∑ n : Fin B,
          Ideal.div (Ideal.exp ((S j n : EReal) - (Finset.range J).sup fun j' => Finset.univ.sup fun n' => (S j' n' : EReal)))
                    (∑ j' ∈ Finset.range J, ∑ n' : Fin B, Ideal.exp ((S j' n' : EReal) - (Finset.range J).sup fun j'' => Finset.univ.sup fun n'' => (S j'' n'' : EReal)))
            * (V j n : EReal) := by
  obtain ⟨k, rfl⟩ : ∃ k, J = k + 1 := ⟨J - 1, by omega⟩
  obtain ⟨M, hM, hrun⟩ := run_succ hB S V k
  haveI : Nonempty (Fin B) := ⟨⟨0, hB⟩⟩
  have hL : (∑ j ∈ Finset.range (k + 1), ∑ n : Fin B, Real.exp (S j n - M)) ≠ 0 :=
    ne_of_gt (Finset.sum_pos (fun j _ => Finset.sum_pos (fun n _ => Real.exp_pos _) Finset.univ_nonempty)
      Finset.nonempty_range_add_one)
  rw [hrun, hM]
  simp only [exp_coe_sub, ← coe_sum, Ideal.div_coe hL, ← EReal.coe_mul]
  congr 1
  rw [Finset.sum_mul]
  refine Finset.sum_congr rfl fun j _ => ?_
  rw [Finset.sum_mul]
  refine Finset.sum_congr rfl fun n _ => ?_
  ring

/-! ### A row of J * B entries as J consecutive blocks of B -/

/-- Entry n of block j sits below J * B. -/
theorem block_index_lt {J B j : ℕ} (hj : j < J) (n : Fin B) : j * B + n < J * B :=
  calc j * B + n < j * B + B := Nat.add_lt_add_left n.2 _
    _ = (j + 1) * B := (Nat.succ_mul j B).symm
    _ ≤ J * B := Nat.mul_le_mul_right _ hj

/-- A sum over Fin (J * B) is the sum over J consecutive blocks of B. -/
theorem regroup_sum {α : Type*} [AddCommMonoid α] {J B : ℕ} (f : Fin (J * B) → α) (f' : ℕ → Fin B → α)
    (h : ∀ (j : ℕ) (n : Fin B) (hjn : j * B + n < J * B), f ⟨j * B + n, hjn⟩ = f' j n) :
    ∑ i, f i = ∑ j ∈ Finset.range J, ∑ n, f' j n := by
  rw [← finProdFinEquiv.sum_comp, Fintype.sum_prod_type, Finset.sum_range]
  refine Finset.sum_congr rfl fun j _ => Finset.sum_congr rfl fun n _ => ?_
  rw [← h j n (block_index_lt j.2 n)]
  congr 1
  ext
  simp [Nat.mul_comm, Nat.add_comm]

/-- A supremum over Fin (J * B) is the supremum over J consecutive blocks of B. -/
theorem regroup_sup {α : Type*} [SemilatticeSup α] [OrderBot α] {J B : ℕ} (f : Fin (J * B) → α)
    (f' : ℕ → Fin B → α)
    (h : ∀ (j : ℕ) (n : Fin B) (hjn : j * B + n < J * B), f ⟨j * B + n, hjn⟩ = f' j n) :
    Finset.univ.sup f = (Finset.range J).sup fun j => Finset.univ.sup fun n => f' j n := by
  apply le_antisymm
  · refine Finset.sup_le fun i _ => ?_
    have hB : 0 < B := by
      rcases Nat.eq_zero_or_pos B with h0 | h0
      · subst h0
        exact absurd i.2 (by simp)
      · exact h0
    have hi : (i : ℕ) / B * B + (i : ℕ) % B = i := Nat.div_add_mod' _ _
    have hlt : (i : ℕ) / B * B + ((⟨(i : ℕ) % B, Nat.mod_lt _ hB⟩ : Fin B) : ℕ) < J * B := by
      show (i : ℕ) / B * B + (i : ℕ) % B < J * B
      rw [hi]
      exact i.2
    have hfi : f i = f' ((i : ℕ) / B) ⟨(i : ℕ) % B, Nat.mod_lt _ hB⟩ := by
      rw [← h ((i : ℕ) / B) ⟨(i : ℕ) % B, Nat.mod_lt _ hB⟩ hlt]
      congr 1
      ext
      exact hi.symm
    have hq : (i : ℕ) / B ∈ Finset.range J :=
      Finset.mem_range.2 (Nat.div_lt_of_lt_mul (lt_of_lt_of_eq i.2 (Nat.mul_comm J B)))
    rw [hfi]
    exact le_trans (Finset.le_sup (f := fun n => f' ((i : ℕ) / B) n) (Finset.mem_univ _))
      (Finset.le_sup (f := fun j => Finset.univ.sup fun n => f' j n) hq)
  · refine Finset.sup_le fun j hj => Finset.sup_le fun n _ => ?_
    rw [← h j n (block_index_lt (Finset.mem_range.1 hj) n)]
    exact Finset.le_sup (Finset.mem_univ _)

end Cert.Lib.OnlineSoftmax

end
-- ==== Proof.TilePayloads.lean ====
/-
  The arithmetic of the two kernel bodies, read one element at a time.

  The flash-attention body works on one tile: a block of 1024 query rows against a block of 1024 keys. For query
  row r it forms the 1024 scores s(n) = (q_r . k_n + bias1(r, n) + bias2(r, n)) * (1/8), takes the new running
  maximum max(m, sup s), the rescaling factor exp(m - m_new), the weights exp(s(n) - m_new), and updates the
  normaliser and the accumulator; that is exactly one step of the online softmax recurrence. The reset writes
  (-inf, 0, 0) and the finish divides the accumulator by the normaliser. The projection body computes x W^T + c.

  Every statement is over variables of the literal vector types and reads one element at explicit coordinates;
  the sums over 128, 512 or 1024 terms are never evaluated.
-/
import proofs.«121072_j35897336660236_2_alg».proof.Proof.Gen.KernelIdeal.Skeleton
import proofs.«121072_j35897336660236_2_alg».proof.Proof.LibOnlineSoftmax
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx
open scoped BigOperators

/-! ### Column layouts: a vector as a column, and a column spread over the columns of a matrix -/

section Layout
variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The exponential of a vector reads the exponential of the element. -/
theorem exp_apply {s : Shape} {φ : FTy} (a : FVec Ideal s φ) (i : s.Idx) : exp a i = Ideal.exp (a i) := rfl

/-- The word 0xFF800000 is minus infinity. -/
theorem ofBits_neg_inf_f32 : Ideal.ofBits .f32 0xFF800000#32 = ⊥ := by simp [Ideal.ofBits, Ideal.ieee]

/-! ### The three contractions at an index -/

abbrev Dqk := dot_S1024x128_S1024x128_S1024x1024_1_1_0_0_n_n
abbrev Dpv := dot_S1024x1024_S1024x128_S1024x128_1_0_0_1_n_n
abbrev Dxw := dot_S1024x512_S128x512_S1024x128_1_1_0_0_n_n

theorem qk_lhs0 (i : S1024x1024.Idx) (q : Dqk.contr.Idx) : (Dqk.lhsIdx i q 0).val = (i 0).val := by
  unfold DotDims.lhsIdx
  rw [dif_neg (show ¬(0 : Fin S1024x128.rank) ∈ Dqk.lhsBatch by decide),
    dif_pos (show (0 : Fin S1024x128.rank) ∈ Dqk.lhsNonContracting by decide)]
  rfl
theorem qk_rhs0 (i : S1024x1024.Idx) (q : Dqk.contr.Idx) : (Dqk.rhsIdx i q 0).val = (i 1).val := by
  unfold DotDims.rhsIdx
  rw [dif_neg (show ¬(0 : Fin S1024x128.rank) ∈ Dqk.rhsBatch by decide),
    dif_pos (show (0 : Fin S1024x128.rank) ∈ Dqk.rhsNonContracting by decide)]
  rfl

/-- Query rows against key rows: entry (r, n) is the inner product over the 128 features. -/
theorem matmul_qk_apply (a b : FVec Ideal S1024x128 .bf16) (r n : Fin 1024) :
    matmul Dqk none a b (constant (F := Ideal) S1024x1024 .f32 0x00000000#32) (ix2 r n)
      = ∑ k' : Fin 128, a (ix2 r k') * b (ix2 n k') := by
  simp only [matmul]
  rw [Ideal.matmul_constant_zero_apply, ← Equiv.sum_comp (contrEquiv1 Dqk 128 rfl rfl).symm]
  refine Finset.sum_congr rfl fun k _ => ?_
  have hk := contrEquiv1_symm_val Dqk 128 rfl rfl k
  have el : Dqk.lhsIdx (ix2 r n) ((contrEquiv1 Dqk 128 rfl rfl).symm k) = ix2 r k := funext fun c => Fin.ext (by
    match c with
    | ⟨0, _⟩ => exact qk_lhs0 _ _
    | ⟨1, _⟩ => exact (Dqk.lhsIdx_val_of_single rfl _ _).trans hk)
  have er : Dqk.rhsIdx (ix2 r n) ((contrEquiv1 Dqk 128 rfl rfl).symm k) = ix2 n k := funext fun c => Fin.ext (by
    match c with
    | ⟨0, _⟩ => exact qk_rhs0 _ _
    | ⟨1, _⟩ => exact (Dqk.rhsIdx_val_of_single rfl _ _).trans hk)
  rw [el, er]

theorem pv_lhs0 (i : S1024x128.Idx) (q : Dpv.contr.Idx) : (Dpv.lhsIdx i q 0).val = (i 0).val := by
  unfold DotDims.lhsIdx
  rw [dif_neg (show ¬(0 : Fin S1024x1024.rank) ∈ Dpv.lhsBatch by decide),
    dif_pos (show (0 : Fin S1024x1024.rank) ∈ Dpv.lhsNonContracting by decide)]
  rfl
theorem pv_rhs1 (i : S1024x128.Idx) (q : Dpv.contr.Idx) : (Dpv.rhsIdx i q 1).val = (i 1).val := by
  unfold DotDims.rhsIdx
  rw [dif_neg (show ¬(1 : Fin S1024x128.rank) ∈ Dpv.rhsBatch by decide),
    dif_pos (show (1 : Fin S1024x128.rank) ∈ Dpv.rhsNonContracting by decide)]
  rfl

/-- Weights against values: entry (r, k) is the sum over the 1024 keys of the tile. -/
theorem matmul_pv_apply (p : FVec Ideal S1024x1024 .bf16) (v : FVec Ideal S1024x128 .bf16) (r : Fin 1024) (k : Fin 128) :
    matmul Dpv none p v (constant (F := Ideal) S1024x128 .f32 0x00000000#32) (ix2 r k)
      = ∑ n : Fin 1024, p (ix2 r n) * v (ix2 n k) := by
  simp only [matmul]
  rw [Ideal.matmul_constant_zero_apply, ← Equiv.sum_comp (contrEquiv1 Dpv 1024 rfl rfl).symm]
  refine Finset.sum_congr rfl fun n _ => ?_
  have hk := contrEquiv1_symm_val Dpv 1024 rfl rfl n
  have el : Dpv.lhsIdx (ix2 r k) ((contrEquiv1 Dpv 1024 rfl rfl).symm n) = ix2 r n := funext fun c => Fin.ext (by
    match c with
    | ⟨0, _⟩ => exact pv_lhs0 _ _
    | ⟨1, _⟩ => exact (Dpv.lhsIdx_val_of_single rfl _ _).trans hk)
  have er : Dpv.rhsIdx (ix2 r k) ((contrEquiv1 Dpv 1024 rfl rfl).symm n) = ix2 n k := funext fun c => Fin.ext (by
    match c with
    | ⟨0, _⟩ => exact (Dpv.rhsIdx_val_of_single rfl _ _).trans hk
    | ⟨1, _⟩ => exact pv_rhs1 _ _)
  rw [el, er]

theorem xw_lhs0 (i : S1024x128.Idx) (q : Dxw.contr.Idx) : (Dxw.lhsIdx i q 0).val = (i 0).val := by
  unfold DotDims.lhsIdx
  rw [dif_neg (show ¬(0 : Fin S1024x512.rank) ∈ Dxw.lhsBatch by decide),
    dif_pos (show (0 : Fin S1024x512.rank) ∈ Dxw.lhsNonContracting by decide)]
  rfl
theorem xw_rhs0 (i : S1024x128.Idx) (q : Dxw.contr.Idx) : (Dxw.rhsIdx i q 0).val = (i 1).val := by
  unfold DotDims.rhsIdx
  rw [dif_neg (show ¬(0 : Fin S128x512.rank) ∈ Dxw.rhsBatch by decide),
    dif_pos (show (0 : Fin S128x512.rank) ∈ Dxw.rhsNonContracting by decide)]
  rfl

/-- Features against a weight stored [out, in]: entry (r, k) is the sum over the 512 input features. -/
theorem matmul_xw_apply (x : FVec Ideal S1024x512 .bf16) (w : FVec Ideal S128x512 .bf16) (r : Fin 1024) (k : Fin 128) :
    matmul Dxw none x w (constant (F := Ideal) S1024x128 .f32 0x00000000#32) (ix2 r k)
      = ∑ d : Fin 512, x (ix2 r d) * w (ix2 k d) := by
  simp only [matmul]
  rw [Ideal.matmul_constant_zero_apply, ← Equiv.sum_comp (contrEquiv1 Dxw 512 rfl rfl).symm]
  refine Finset.sum_congr rfl fun d _ => ?_
  have hk := contrEquiv1_symm_val Dxw 512 rfl rfl d
  have el : Dxw.lhsIdx (ix2 r k) ((contrEquiv1 Dxw 512 rfl rfl).symm d) = ix2 r d := funext fun c => Fin.ext (by
    match c with
    | ⟨0, _⟩ => exact xw_lhs0 _ _
    | ⟨1, _⟩ => exact (Dxw.lhsIdx_val_of_single rfl _ _).trans hk)
  have er : Dxw.rhsIdx (ix2 r k) ((contrEquiv1 Dxw 512 rfl rfl).symm d) = ix2 k d := funext fun c => Fin.ext (by
    match c with
    | ⟨0, _⟩ => exact xw_rhs0 _ _
    | ⟨1, _⟩ => exact (Dxw.rhsIdx_val_of_single rfl _ _).trans hk)
  rw [el, er]

/-! ### The two row reductions at an index -/

/-- The row maximum from minus infinity is the supremum of the row. -/
theorem rowMax_apply (src : FVec Ideal S1024x1024 .f32) (r : Fin 1024) :
    multiReduction (F := Ideal) .maximumf [1] S1024 src 0xFF800000#32 reduces_S1024x1024_S1024 (.inl rfl) rfl (ix1 r)
      = Finset.univ.sup fun n : Fin 1024 => src (ix2 r n) := by
  refine (Ideal.multiReduction_maximumf_single src 0xFF800000#32 reduces_S1024x1024_S1024 (.inl rfl) rfl (ix1 r)).trans ?_
  have hl : (src ∘ reduces_S1024x1024_S1024.lift (ix1 r)) = fun n : Fin 1024 => src (ix2 r n) :=
    funext fun n => congrArg src (funext fun c => Fin.ext (by
      match c with
      | ⟨0, _⟩ => rfl
      | ⟨1, _⟩ => rfl))
  rw [hl]
  show Finset.univ.fold max (Ideal.ofBits .f32 0xFF800000#32) _ = _
  rw [ofBits_neg_inf_f32]
  rfl

/-- The row sum from zero is the sum of the row. -/
theorem rowSum_apply (src : FVec Ideal S1024x1024 .f32) (r : Fin 1024) :
    multiReduction (F := Ideal) .add [1] S1024 src 0x00000000#32 reduces_S1024x1024_S1024 (.inl rfl) rfl (ix1 r)
      = ∑ n : Fin 1024, src (ix2 r n) := by
  refine (Ideal.multiReduction_add_single src 0x00000000#32 reduces_S1024x1024_S1024 (.inl rfl) rfl (ix1 r)).trans ?_
  exact Finset.sum_congr rfl fun n _ => congrArg src (funext fun c => Fin.ext (by
    match c with
    | ⟨0, _⟩ => rfl
    | ⟨1, _⟩ => rfl))

/-! ### One key tile of the flash body -/

/-- The score of query row r against key n of the tile: (q_r . k_n + (bias1 + bias2)) * (1/8). -/
def tileScore (x0 x1 : Vec Ideal S1x1024x128 .bf16) (x3 x4 : Vec Ideal S1x1024x1024 .f32) (r n : Fin 1024) : EReal :=
  ((∑ k' : Fin 128, x0 (ix3 0 r k') * x1 (ix3 0 n k')) + (x3 (ix3 0 r n) + x4 (ix3 0 r n)))
    * Ideal.ofBits .f32 0x3E000000#32

section Flash
variable (x0 x1 x2 : Vec Ideal S1x1024x128 .bf16) (x3 x4 : Vec Ideal S1x1024x1024 .f32)
  (xm xm' xs : Vec Ideal S1024x1 .f32) (xa : Vec Ideal S1024x128 .f32)

/-- The scaled, biased score block at (r, n). -/
theorem pay8_apply (r n : Fin 1024) :
    k1_pay8 (F := Ideal) x0 x1 x3 x4 (ix2 r n) = tileScore x0 x1 x3 x4 r n := by
  unfold k1_pay8 tileScore
  try dsimp only
  rw [mulf_apply, addf_apply, addf_apply, broadcast_apply, matmul_qk_apply, shapeCast_1ab_ab_apply,
    shapeCast_1ab_ab_apply]
  simp only [shapeCast_1ab_ab_apply]
  rfl

/-- The new running maximum of row r. -/
theorem pay9_apply (r : Fin 1024) :
    k1_pay9 (F := Ideal) x0 x1 x3 x4 xm (ix2 r 0)
      = max (xm (ix2 r 0)) (Finset.univ.sup fun n => tileScore x0 x1 x3 x4 r n) := by
  unfold k1_pay9
  try dsimp only
  rw [maximumf_apply, shapeCast_a_a1_apply, rowMax_apply]
  simp only [pay8_apply]

/-- The rescaling factor exp (old maximum - new maximum). -/
theorem pay10_apply (i : S1024x1.Idx) :
    k1_pay10 (F := Ideal) x0 x1 x3 x4 xm xm' i
      = Ideal.exp (xm' i - k1_pay9 (F := Ideal) x0 x1 x3 x4 xm i) := rfl

/-- The weight exp (score - new maximum) at (r, n). -/
theorem pay11_apply (r n : Fin 1024) :
    k1_pay11 (F := Ideal) x0 x1 x3 x4 xm (ix2 r n)
      = Ideal.exp (tileScore x0 x1 x3 x4 r n - k1_pay9 (F := Ideal) x0 x1 x3 x4 xm (ix2 r 0)) := by
  unfold k1_pay11
  try dsimp only
  rw [exp_apply, subf_apply, broadcastTo_a1_ab_apply, pay8_apply]

/-- The new normaliser of row r. -/
theorem pay12_apply (r : Fin 1024) :
    k1_pay12 (F := Ideal) x0 x1 x3 x4 xm xm' xs (ix2 r 0)
      = k1_pay10 (F := Ideal) x0 x1 x3 x4 xm xm' (ix2 r 0) * xs (ix2 r 0)
        + ∑ n : Fin 1024, k1_pay11 (F := Ideal) x0 x1 x3 x4 xm (ix2 r n) := by
  unfold k1_pay12
  try dsimp only
  rw [addf_apply, mulf_apply, shapeCast_a_a1_apply, rowSum_apply]

/-- The new accumulator at (r, k), for any rescaling column and weight block. -/
theorem pay2_apply (p10 : FVec Ideal S1024x1 .f32) (p11 : FVec Ideal S1024x1024 .f32) (r : Fin 1024) (k : Fin 128) :
    k1_pay2 (F := Ideal) p10 p11 x2 xa (ix2 r k)
      = p10 (ix2 r 0) * xa (ix2 r k) + ∑ n : Fin 1024, p11 (ix2 r n) * x2 (ix3 0 n k) := by
  unfold k1_pay2
  try dsimp only
  rw [shapeCast_self, addf_apply, mulf_apply, broadcastTo_a1_ab_apply, matmul_pv_apply]
  simp only [truncf_apply, shapeCast_1ab_ab_apply]

/-- The two same-shape casts on the stored maxima and normalisers are the identity. -/
theorem pay1_eq (v : FVec Ideal S1024x1 .f32) : k1_pay1 (F := Ideal) v = v := shapeCast_self _ _
theorem pay3_eq (v : FVec Ideal S1024x1 .f32) : k1_pay3 (F := Ideal) v = v := shapeCast_self _ _

end Flash

/-! ### One key tile is one step of the online softmax recurrence -/

/-- For query row r and output feature k: the new (maximum, normaliser, accumulator) the body stores after a key
    tile is the online softmax step on the tile's scores and values from the loaded (maximum, normaliser,
    accumulator). -/
theorem tile_step (x0 x1 x2 : Vec Ideal S1x1024x128 .bf16) (x3 x4 : Vec Ideal S1x1024x1024 .f32)
    (xm xs : Vec Ideal S1024x1 .f32) (xa : Vec Ideal S1024x128 .f32) (r : Fin 1024) (k : Fin 128) :
    (k1_pay9 (F := Ideal) x0 x1 x3 x4 xm (ix2 r 0),
      k1_pay12 (F := Ideal) x0 x1 x3 x4 xm xm xs (ix2 r 0),
      k1_pay2 (F := Ideal) (k1_pay10 (F := Ideal) x0 x1 x3 x4 xm xm) (k1_pay11 (F := Ideal) x0 x1 x3 x4 xm) x2 xa
        (ix2 r k))
      = Cert.Lib.OnlineSoftmax.step (fun n => tileScore x0 x1 x3 x4 r n) (fun n => x2 (ix3 0 n k))
          (xm (ix2 r 0), xs (ix2 r 0), xa (ix2 r k)) := by
  rw [pay2_apply, pay12_apply]
  simp only [pay11_apply, pay10_apply, pay9_apply]
  rfl

/-! ### The flash body's reset and finish -/

/-- The reset writes minus infinity into every running maximum ... -/
theorem pay5_apply (r : Fin 1024) : k1_pay5 (F := Ideal) (ix2 r 0) = (⊥ : EReal) := by
  unfold k1_pay5
  try dsimp only
  rw [shapeCast_self, broadcast_apply]
  exact ofBits_neg_inf_f32

/-- ... zero into every normaliser ... -/
theorem pay6_apply (r : Fin 1024) : k1_pay6 (F := Ideal) (ix2 r 0) = (0 : EReal) := by
  unfold k1_pay6
  try dsimp only
  rw [shapeCast_self, broadcast_apply]
  exact Ideal.ofBits_zero_f32

/-- ... and zero into every accumulator. -/
theorem pay7_apply (r : Fin 1024) (k : Fin 128) : k1_pay7 (F := Ideal) (ix2 r k) = (0 : EReal) := by
  unfold k1_pay7
  try dsimp only
  rw [shapeCast_self, broadcast_apply]
  exact Ideal.ofBits_zero_f32

/-- The finish divides the accumulator at (r, k) by the normaliser of row r. -/
theorem pay4_apply (v51 : Vec Ideal S1024x128 .f32) (v52 : Vec Ideal S1024x1 .f32) (r : Fin 1024) (k : Fin 128) :
    k1_pay4 (F := Ideal) v51 v52 (ix3 0 r k) = Ideal.div (v51 (ix2 r k)) (v52 (ix2 r 0)) := by
  unfold k1_pay4
  try dsimp only
  rw [shapeCast_ab_1ab_apply, divf_apply, broadcastTo_a1_ab_apply]

/-! ### The projection body: x W^T + c for the three weights -/

section Proj
variable (x : Vec Ideal S1x1024x512 .f32) (w : Vec Ideal S128x512 .f32) (b : Vec Ideal S128 .f32)

/-- The feature block as a matrix. -/
theorem qkv_pay3_apply (r : Fin 1024) (d : Fin 512) : k0_pay3 (F := Ideal) x (ix2 r d) = x (ix3 0 r d) := by
  unfold k0_pay3
  try dsimp only
  rw [truncf_apply, shapeCast_1ab_ab_apply]

/-- The projection kept in f32 (the third weight), at (r, k). -/
theorem qkv_pay4_apply (r : Fin 1024) (k : Fin 128) :
    k0_pay4 (F := Ideal) x w b (ix2 r k) = (∑ d : Fin 512, x (ix3 0 r d) * w (ix2 k d)) + b (ix1 k) := by
  unfold k0_pay4
  try dsimp only
  rw [addf_apply, matmul_xw_apply, broadcastTo_1b_ab_apply, shapeCast_a_1a_apply, shapeCast_self]
  simp only [qkv_pay3_apply, truncf_apply, shapeCast_self]

/-- The projection by the second weight, at (r, k). -/
theorem qkv_pay6_apply (r : Fin 1024) (k : Fin 128) :
    k0_pay6 (F := Ideal) x w b (ix2 r k) = (∑ d : Fin 512, x (ix3 0 r d) * w (ix2 k d)) + b (ix1 k) := by
  unfold k0_pay6
  try dsimp only
  rw [truncf_apply, addf_apply, matmul_xw_apply, broadcastTo_1b_ab_apply, shapeCast_a_1a_apply, shapeCast_self]
  simp only [qkv_pay3_apply, truncf_apply, shapeCast_self]

/-- The first store: the projection by the first weight, at (0, r, k). -/
theorem qkv_store9_apply (r : Fin 1024) (k : Fin 128) :
    k0_pay5 (F := Ideal) x w b (ix3 0 r k) = (∑ d : Fin 512, x (ix3 0 r d) * w (ix2 k d)) + b (ix1 k) := by
  unfold k0_pay5
  try dsimp only
  rw [shapeCast_ab_1ab_apply, truncf_apply, addf_apply, matmul_xw_apply, broadcastTo_1b_ab_apply,
    shapeCast_a_1a_apply, shapeCast_self]
  simp only [qkv_pay3_apply, truncf_apply, shapeCast_self]

/-- The second store: the projection by the second weight, at (0, r, k). -/
theorem qkv_store10_apply (r : Fin 1024) (k : Fin 128) :
    k0_pay1 (F := Ideal) (k0_pay6 (F := Ideal) x w b) (ix3 0 r k)
      = (∑ d : Fin 512, x (ix3 0 r d) * w (ix2 k d)) + b (ix1 k) := by
  unfold k0_pay1
  try dsimp only
  rw [shapeCast_ab_1ab_apply, qkv_pay6_apply]

/-- The third store: the projection by the third weight, at (0, r, k). -/
theorem qkv_store11_apply (r : Fin 1024) (k : Fin 128) :
    k0_pay2 (F := Ideal) (k0_pay4 (F := Ideal) x w b) (ix3 0 r k)
      = (∑ d : Fin 512, x (ix3 0 r d) * w (ix2 k d)) + b (ix1 k) := by
  unfold k0_pay2
  try dsimp only
  rw [shapeCast_ab_1ab_apply, truncf_apply, qkv_pay4_apply]

end Proj

end Cert.KernelIdeal.Tile

end
-- ==== Proof.FlashOnline.lean ====
/-
  The attention region's carry, read row by row, is the online-softmax recursion.

  Fix a core, the buffers' contents at the region's entry, and a group of four consecutive grid points 4g, 4g+1, 4g+2,
  4g+3 (one batch entry and one query tile; the key tile runs over the four). For a row r of the query tile and an output
  feature k, the triple (running maximum of row r, running normaliser of row r, running accumulator at (r, k)) after the
  body at point 4g + j is the state of the recursion after j + 1 blocks, the blocks being the four key tiles' scores of
  row r and their value columns k. The first tile resets the carry to (-inf, 0, 0), which is the recursion's start. At
  the last tile the output block's entry (r, k) is the accumulator entry over the normaliser.
-/
import proofs.«121072_j35897336660236_2_alg».proof.Proof.FlashPieces
import proofs.«121072_j35897336660236_2_alg».proof.Proof.TilePayloads

set_option maxRecDepth 16384

noncomputable section

namespace Cert.KernelIdeal.Flash

open Cert.KernelIdeal Cert.KernelIdeal.Gen
open Idealize.ShloMosaic Idealize.ShloMosaic.TcCoe Idealize.ShloMosaic.ValueIdx
open Cert.Lib.OnlineSoftmax Cert.KernelIdeal.Tile

variable (V : (c : Dev nD) → (b : Ref sig .tc) → Buf (Elt Ideal) ((c : Thread nD τ).loc b))

/-- Row r of a carry, at output feature k: (maximum, normaliser, accumulator entry). -/
def rowOf (X : Carry Ideal) (r : Fin 1024) (k : Fin 128) : EReal × EReal × EReal :=
  (X.1 (ix2 r 0), X.2.1 (ix2 r 0), X.2.2 (ix2 r k))

theorem rowOf_mk (xm xs : Vec Ideal S1024x1 .f32) (xa : Vec Ideal S1024x128 .f32) (r : Fin 1024) (k : Fin 128) :
    rowOf (xm, xs, xa) r k = (xm (ix2 r 0), xs (ix2 r 0), xa (ix2 r k)) := rfl

/-- The scores of row r against the key tile of point t, -/
def tileS (c : Dev nD) (t : Fin cfg1.N) (r : Fin 1024) (n : Fin 1024) : EReal :=
  tileScore (iblk V c 0 t) (iblk V c 1 t) (iblk V c 3 t) (iblk V c 4 t) r n
/-- and the value column k of that key tile. -/
def tileV (c : Dev nD) (t : Fin cfg1.N) (k : Fin 128) (n : Fin 1024) : EReal :=
  (iblk V c 2 t : Vec Ideal S1x1024x128 .bf16) (ix3 0 n k)

/-- The key tiles of the group that starts at position g4, as blocks indexed by a natural number (zero blocks past the grid). -/
def grpS (c : Dev nD) (g4 : ℕ) (r : Fin 1024) (j : ℕ) (n : Fin 1024) : EReal :=
  if h : g4 + j < cfg1.N then tileS V c ⟨g4 + j, h⟩ r n else 0
def grpV (c : Dev nD) (g4 : ℕ) (k : Fin 128) (j : ℕ) (n : Fin 1024) : EReal :=
  if h : g4 + j < cfg1.N then tileV V c ⟨g4 + j, h⟩ k n else 0

theorem grpS_eq (c : Dev nD) (g4 : ℕ) (r : Fin 1024) (j : ℕ) (h : g4 + j < cfg1.N) : grpS V c g4 r j = tileS V c ⟨g4 + j, h⟩ r := by
  funext n; simp only [grpS, dif_pos h]
theorem grpV_eq (c : Dev nD) (g4 : ℕ) (k : Fin 128) (j : ℕ) (h : g4 + j < cfg1.N) : grpV V c g4 k j = tileV V c ⟨g4 + j, h⟩ k := by
  funext n; simp only [grpV, dif_pos h]

/-- One update of the carry, row by row, is one step of the recursion over the tile's scores and value column. -/
theorem update_row (c : Dev nD) (t : Fin cfg1.N) (xm xs : Vec Ideal S1024x1 .f32) (xa : Vec Ideal S1024x128 .f32) (r : Fin 1024) (k : Fin 128) :
    rowOf (k1_pay3 (F := Ideal) (k1_pay9 (F := Ideal) (iblk V c 0 t) (iblk V c 1 t) (iblk V c 3 t) (iblk V c 4 t) xm),
           k1_pay1 (F := Ideal) (k1_pay12 (F := Ideal) (iblk V c 0 t) (iblk V c 1 t) (iblk V c 3 t) (iblk V c 4 t) xm xm xs),
           k1_pay2 (F := Ideal) (k1_pay10 (F := Ideal) (iblk V c 0 t) (iblk V c 1 t) (iblk V c 3 t) (iblk V c 4 t) xm xm)
             (k1_pay11 (F := Ideal) (iblk V c 0 t) (iblk V c 1 t) (iblk V c 3 t) (iblk V c 4 t) xm) (iblk V c 2 t) xa) r k
      = step (tileS V c t r) (tileV V c t k) (xm (ix2 r 0), xs (ix2 r 0), xa (ix2 r k)) := by
  rw [rowOf_mk, pay1_eq, pay3_eq]
  exact tile_step _ _ _ _ _ _ _ _ r k

/-- The recursion's next state is one step over the next block. -/
theorem run_next {B : ℕ} (s v : ℕ → Fin B → EReal) (j : ℕ) : run s v (j + 1) = step (s j) (v j) (run s v j) := rfl

/-- THE INVARIANT. In the group of four points that starts at a position g4 divisible by 4, the carry after the point
    g4 + j, read at row r and feature k, is the recursion after j + 1 of the group's blocks. -/
theorem carry_eq_run (c : Dev nD) (g4 : ℕ) (hg : g4 % 4 = 0) (r : Fin 1024) (k : Fin 128) :
    ∀ (j : ℕ) (hj : j < 4) (hn : g4 + j < cfg1.N),
      rowOf (stateAt V c (g4 + j) hn).2 r k = run (grpS V c g4 r) (grpV V c g4 k) (j + 1) := by
  intro j
  induction j with
  | zero =>
    intro _ hn
    have h0 : (⟨g4 + 0, hn⟩ : Fin cfg1.N).val % 4 = 0 := by simpa using hg
    have h1 : ¬(⟨g4 + 0, hn⟩ : Fin cfg1.N).val % 4 = 3 := by simp only [Nat.add_zero]; omega
    have e := stateAt_first V c ⟨g4 + 0, hn⟩ h0 h1
    simp only at e
    rw [e]
    simp only
    rw [carryFirst_eq, update_row, pay5_apply, pay6_apply, pay7_apply, run_next, grpS_eq V c g4 r 0 hn, grpV_eq V c g4 k 0 hn]
    rfl
  | succ j ih =>
    intro hj hn
    have hn' : g4 + j < cfg1.N := by omega
    have h0 : ¬(⟨g4 + (j + 1), hn⟩ : Fin cfg1.N).val % 4 = 0 := by simp only; omega
    have hprev : (⟨g4 + (j + 1), hn⟩ : Fin cfg1.N).val - 1 = g4 + j := by simp only; omega
    have ihj := ih (by omega) hn'
    unfold rowOf at ihj
    by_cases h1 : (⟨g4 + (j + 1), hn⟩ : Fin cfg1.N).val % 4 = 3
    · have e := stateAt_last V c ⟨g4 + (j + 1), hn⟩ h0 h1
      simp only at e
      rw [e]
      simp only
      rw [carryLast_eq, update_row]
      simp only [hprev]
      rw [ihj, run_next (grpS V c g4 r) (grpV V c g4 k) (j + 1), grpS_eq V c g4 r (j + 1) hn, grpV_eq V c g4 k (j + 1) hn]
    · have e := stateAt_middle V c ⟨g4 + (j + 1), hn⟩ h0 h1
      simp only at e
      rw [e]
      simp only
      rw [carryMiddle_eq, update_row]
      simp only [hprev]
      rw [ihj, run_next (grpS V c g4 r) (grpV V c g4 k) (j + 1), grpS_eq V c g4 r (j + 1) hn, grpV_eq V c g4 k (j + 1) hn]

set_option maxHeartbeats 2000000 in
/-- At a last key tile the output block's entry (r, k) is row r's accumulator entry over its normaliser, both as just
    updated. -/
theorem out_row (c : Dev nD) (t : Fin cfg1.N) (ht : t.val % 4 = 3) (r : Fin 1024) (k : Fin 128) :
    (stateAt V c t.val t.isLt).1 (ix3 0 r k)
      = Ideal.div ((stateAt V c t.val t.isLt).2.2.2 (ix2 r k)) ((stateAt V c t.val t.isLt).2.2.1 (ix2 r 0)) := by
  have h0 : ¬t.val % 4 = 0 := by omega
  have e := stateAt_last V c t h0 ht
  have e1 := congrArg Prod.fst e
  have e2 := congrArg Prod.snd e
  simp only at e1 e2
  rw [e1, e2, outLast_eq, pay4_apply]

/-- So at the last point of a group the output block's entry is the quotient the recursion ends with. -/
theorem out_eq_run (c : Dev nD) (g4 : ℕ) (hg : g4 % 4 = 0) (hn : g4 + 3 < cfg1.N) (r : Fin 1024) (k : Fin 128) :
    (stateAt V c (g4 + 3) hn).1 (ix3 0 r k)
      = Ideal.div (run (grpS V c g4 r) (grpV V c g4 k) 4).2.2 (run (grpS V c g4 r) (grpV V c g4 k) 4).2.1 := by
  have e := out_row V c ⟨g4 + 3, hn⟩ (by simp only; omega) r k
  simp only at e
  have hrun := carry_eq_run V c g4 hg r k 3 (by decide) hn
  unfold rowOf at hrun
  rw [e, ← hrun]

end Cert.KernelIdeal.Flash

end
-- ==== Proof.FlashValue.lean ====
/-
  The flash-attention region, from blocks to arrays.

  The grid is (batch, query tile, key tile) = (2, 4, 4), the key tile innermost, the points numbered in that order:
  point t has batch t / 16, query tile (t / 4) % 4 and key tile t % 4. The output window's block at a point is rows
  1024 i ... 1024 i + 1023 (i the query tile) of the point's batch, all 128 columns, whatever the key tile; it is written
  back at the last key tile only (t % 4 = 3). So the output index (b, n, k) is written exactly once, by the point
  16 b + 4 (n / 1024) + 3, from entry (0, n % 1024, k) of what the body left in the window's buffer there: the array
  after the region is ONE function of the contents the region finds. The five input windows are read the same way: a
  block's coordinate on an axis is block index x block size + the coordinate inside the block, the block indices being
  (batch, query tile, 0) for the queries, (batch, key tile, 0) for the keys and the values, (batch, query tile, key tile)
  for the two biases.
-/
import proofs.«121072_j35897336660236_2_alg».proof.Proof.FlashRegion
import Idealize.ShloMosaic.Lib.Pipeline.Value
import Idealize.ShloMosaic.Lib.ValueIdx

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## From an index of the output array to the grid point that writes it -/

/-- The grid point that writes the output index i = (b, n, k): the last key tile of batch b and query tile n / 1024,
    the point 16 b + 4 (n / 1024) + 3. -/
def ptO (i : S2x4096x128.Idx) : Fin cfg1.N :=
  ⟨(i 0).val * 16 + (i 1).val / 1024 * 4 + 3, by
    have h0 : (i 0).val < 2 := (i 0).isLt
    have h1 : (i 1).val < 4096 := (i 1).isLt
    show _ < grid1.N
    rw [N_1]; omega⟩

/-- The place of that index inside the block: (0, n % 1024, k). -/
def rowO (i : S2x4096x128.Idx) : S1x1024x128.Idx :=
  ix3 (0 : Fin 1) (⟨(i 1).val % 1024, Nat.mod_lt _ (by decide)⟩ : Fin 1024) (i 2)

theorem ptO_val (i : S2x4096x128.Idx) : (ptO i).val = (i 0).val * 16 + (i 1).val / 1024 * 4 + 3 := rfl

/-! ## The output array -/

/-- What the body leaves in the output window's buffer at point t. -/
def oBlk (c : Dev nD) (t : Fin cfg1.N) : Vec F S1x1024x128 .f32 := (stateAt V c t.val t.isLt).1

theorem oBlk_eq (c : Dev nD) (t : Fin cfg1.N) : oBlk V c t = (stateAt V c t.val t.isLt).1 := rfl

/-- THE OUTPUT ARRAY as one function of the contents the region finds: at (b, n, k), entry (0, n % 1024, k) of what the
    point 16 b + 4 (n / 1024) + 3 leaves in the output window's buffer. -/
def Oarr (c : Dev nD) : S2x4096x128.Idx → Elt F .f32 :=
  fun i => oBlk V c (ptO i) (rowO i)

theorem Oarr_apply (c : Dev nD) (i : S2x4096x128.Idx) : Oarr V c i = oBlk V c (ptO i) (rowO i) := rfl

/-- The printed index map of the output window, decided over the grid: the block index is (batch, query tile, 0), and
    the point's number is 16 batch + 4 query tile + key tile, the key tile being the number modulo 4. -/
theorem idx_facts5 : ∀ t : Fin cfg1.N,
    win1_5.index t (0 : Fin 3) * 16 + win1_5.index t (1 : Fin 3) * 4 + t.val % 4 = t.val
    ∧ win1_5.index t (0 : Fin 3) ≤ 1 ∧ win1_5.index t (1 : Fin 3) ≤ 3 ∧ win1_5.index t (2 : Fin 3) = 0 :=
  (by decide +kernel : ∀ t : Fin grid1.N, _)

/-- An uncut window writes back all of its buffer; -/
theorem cut5_apply (t : Fin cfg1.N) (X : Vec F S1x1024x128 .f32) (j : S1x1024x128.Idx) :
    (cfg1.win 5).cut (grid1.coords t) X j = X j := rfl

/-- a read through the block at t reads the array at the block's embedding; -/
theorem read5_apply (t : Fin cfg1.N) (G : S2x4096x128.Idx → Elt F .f32) (j : S1x1024x128.Idx) :
    ((cfg1.win 5).blk t).view.read (Elt F) G j = G (((cfg1.win 5).blk t).view.emb j) := rfl

/-- and the embedding is, on each axis, block index x block size + the coordinate inside the block. -/
theorem emb5_val (t : Fin cfg1.N) (j : S1x1024x128.Idx) :
    ((((cfg1.win 5).blk t).view.emb j : S2x4096x128.Idx) 0).val = win1_5.index t (0 : Fin 3) * 1 + 1 * (j 0).val
    ∧ ((((cfg1.win 5).blk t).view.emb j : S2x4096x128.Idx) 1).val = win1_5.index t (1 : Fin 3) * 1024 + 1 * (j 1).val
    ∧ ((((cfg1.win 5).blk t).view.emb j : S2x4096x128.Idx) 2).val = win1_5.index t (2 : Fin 3) * 128 + 1 * (j 2).val :=
  ⟨rfl, rfl, rfl⟩

/-- WHAT A LAST KEY TILE t WRITES BACK is block t of Oarr: an index of block t is sent back to the point t (the last
    key tile of its batch and query tile IS t) and to its own place in the block. -/
theorem flushed5_eq (c : Dev nD) (t : Fin cfg1.N) (hf : (cfg1.win 5).flush t = true) :
    (dat V c).flushed 5 t = ((cfg1.win 5).blk t).view.read (Elt F) (Oarr V c) := by
  show (cfg1.win 5).cut (grid1.coords t) ((dat V c).after 5 t) = _
  rw [after5]
  funext j
  refine (cut5_apply t _ j).trans ?_
  refine Eq.trans ?_ (read5_apply t (Oarr V c) j).symm
  show oBlk V c t j = _
  unfold Oarr
  have h3 : t.val % 4 = 3 := (flush1_5 t).mp hf
  obtain ⟨e0, e1, e2, e3⟩ := idx_facts5 t
  obtain ⟨m0, m1, m2⟩ := emb5_val t j
  have hj0 : (j 0).val < 1 := (j 0).isLt
  have hj1 : (j 1).val < 1024 := (j 1).isLt
  have hp : ptO (((cfg1.win 5).blk t).view.emb j) = t := by
    apply Fin.ext
    rw [ptO_val, m0, m1]
    omega
  have hr : rowO (((cfg1.win 5).blk t).view.emb j) = j := by
    funext a; apply Fin.ext
    match a with
    | ⟨0, _⟩ => show 0 = (j 0).val; omega
    | ⟨1, _⟩ => show ((((cfg1.win 5).blk t).view.emb j : S2x4096x128.Idx) 1).val % 1024 = (j 1).val; rw [m1]; omega
    | ⟨2, _⟩ => show ((((cfg1.win 5).blk t).view.emb j : S2x4096x128.Idx) 2).val = (j 2).val; rw [m2]; omega
  rw [hp, hr]

/-- An index of the array is in point t's block iff each coordinate is in the block's range on its axis. -/
theorem mem_blk5 (t : Fin cfg1.N) (i : S2x4096x128.Idx) :
    i ∈ ((cfg1.win 5).blk t).view.set ↔ ∀ a : Fin 3, win1_5.index t a * S1x1024x128.size a ≤ (i a).val ∧ (i a).val < win1_5.index t a * S1x1024x128.size a + S1x1024x128.size a := by
  show i ∈ ((View.whole main_v7).slice (win1_5.rect t)).set ↔ _
  rw [View.set_slice_whole, Rect.mem_set_unit]
  exact Iff.rfl

/-- Every index (b, n, k) of the array is in the block of the point 16 b + 4 (n / 1024) + 3, a last key tile, which
    writes back. -/
theorem cover5 (i : S2x4096x128.Idx) :
    ∃ t : Fin cfg1.N, (cfg1.win 5).flush t = true ∧ i ∈ ((cfg1.win 5).blk t).view.set := by
  obtain ⟨t, ht⟩ : ∃ t : Fin cfg1.N, t.val = (i 0).val * 16 + (i 1).val / 1024 * 4 + 3 := ⟨ptO i, rfl⟩
  have h3 : t.val % 4 = 3 := by omega
  refine ⟨t, (flush1_5 t).mpr h3, ?_⟩
  rw [mem_blk5]
  obtain ⟨e0, e1, e2, e3⟩ := idx_facts5 t
  have h0 : (i 0).val < 2 := (i 0).isLt
  have h1 : (i 1).val < 4096 := (i 1).isLt
  have h2 : (i 2).val < 128 := (i 2).isLt
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 128 ≤ (i 2).val ∧ (i 2).val < win1_5.index t (2 : Fin 3) * 128 + 128; omega

/-- THE OUTPUT ARRAY after the region: Oarr of the contents the region finds. -/
theorem final5 (c : Dev nD) : (dat V c).arrAt 5 cfg1.N = Oarr V c :=
  (dat V c).arrAt_eq_of_cover 5 (Oarr V c) (fun t hf => flushed5_eq V c t hf) cover5

/-! ## The grid coordinates of a point -/

/-- A point's number is below 32. -/
theorem pt_lt (t : Fin cfg1.N) : t.val < 32 := lt_of_lt_of_eq t.isLt (show cfg1.N = 32 from N_1)

/-- The batch entry of point t: t / 16. -/
def batchOf (t : Fin cfg1.N) : Fin 2 := ⟨t.val / 16, by have := pt_lt t; omega⟩
/-- The query tile of point t: (t / 4) % 4. -/
def qTile (t : Fin cfg1.N) : Fin 4 := ⟨t.val / 4 % 4, Nat.mod_lt _ (by decide)⟩
/-- The key tile of point t: t % 4. -/
def kTile (t : Fin cfg1.N) : Fin 4 := ⟨t.val % 4, Nat.mod_lt _ (by decide)⟩
/-- Row r of tile i of 4096 rows cut into 4 tiles of 1024: 1024 i + r. -/
def rowIn (i : Fin 4) (r : Fin 1024) : Fin 4096 := ⟨i.val * 1024 + r.val, by have := i.isLt; have := r.isLt; omega⟩

theorem batchOf_val (t : Fin cfg1.N) : (batchOf t).val = t.val / 16 := rfl
theorem qTile_val (t : Fin cfg1.N) : (qTile t).val = t.val / 4 % 4 := rfl
theorem kTile_val (t : Fin cfg1.N) : (kTile t).val = t.val % 4 := rfl
theorem rowIn_val (i : Fin 4) (r : Fin 1024) : (rowIn i r).val = i.val * 1024 + r.val := rfl

/-- The point that writes an output index is a last key tile of the index's batch entry and query tile. -/
theorem ptO_coords (i : S2x4096x128.Idx) :
    (batchOf (ptO i)).val = (i 0).val ∧ (qTile (ptO i)).val = (i 1).val / 1024 ∧ (kTile (ptO i)).val = 3 := by
  have h0 : (i 0).val < 2 := (i 0).isLt
  have h1 : (i 1).val < 4096 := (i 1).isLt
  rw [batchOf_val, qTile_val, kTile_val, ptO_val]
  omega

/-! ## The input blocks, read at an index -/

/-- The printed index map of window 0 (the query window), decided over the grid: the block index is (batch, query tile, 0). -/
theorem idx_facts0 : ∀ t : Fin cfg1.N, win1_0.index t (0 : Fin 3) = t.val / 16
    ∧ win1_0.index t (1 : Fin 3) = t.val / 4 % 4 ∧ win1_0.index t (2 : Fin 3) = 0 :=
  (by decide +kernel : ∀ t : Fin grid1.N, _)

theorem read0_apply (t : Fin cfg1.N) (A : S2x4096x128.Idx → Elt F .bf16) (x : S1x1024x128.Idx) :
    ((cfg1.win 0).blk t).view.read (Elt F) A x = A (((cfg1.win 0).blk t).view.emb x) := rfl

theorem emb0_val (t : Fin cfg1.N) (x : S1x1024x128.Idx) :
    ((((cfg1.win 0).blk t).view.emb x : S2x4096x128.Idx) 0).val = win1_0.index t (0 : Fin 3) * 1 + 1 * (x 0).val
    ∧ ((((cfg1.win 0).blk t).view.emb x : S2x4096x128.Idx) 1).val = win1_0.index t (1 : Fin 3) * 1024 + 1 * (x 1).val
    ∧ ((((cfg1.win 0).blk t).view.emb x : S2x4096x128.Idx) 2).val = win1_0.index t (2 : Fin 3) * 128 + 1 * (x 2).val :=
  ⟨rfl, rfl, rfl⟩

/-- THE QUERY BLOCK at point t, at the block index x, is the array at k whenever k's batch is the point's,
    k's row is 1024 x (the block's row tile) + x's row, and the columns agree. -/
theorem iblk_0_apply (c : Dev nD) (t : Fin cfg1.N) (x : S1x1024x128.Idx) (k : S2x4096x128.Idx)
    (hk0 : (k 0).val = t.val / 16) (hk1 : (k 1).val = t.val / 4 % 4 * 1024 + (x 1).val)
    (hk2 : (k 2).val = (x 2).val) :
    (iblk V c 0 t : Vec F S1x1024x128 .bf16) x = (V c main_v6_0 : S2x4096x128.Idx → Elt F .bf16) k := by
  unfold iblk
  refine (read0_apply t _ x).trans ?_
  obtain ⟨e0, e1, e2⟩ := idx_facts0 t
  obtain ⟨m0, m1, m2⟩ := emb0_val t x
  have hx0 : (x 0).val < 1 := (x 0).isLt
  have h : (((cfg1.win 0).blk t).view.emb x : S2x4096x128.Idx) = k := by
    funext a; apply Fin.ext
    match a with
    | ⟨0, _⟩ => show ((((cfg1.win 0).blk t).view.emb x : S2x4096x128.Idx) 0).val = (k 0).val; rw [m0]; omega
    | ⟨1, _⟩ => show ((((cfg1.win 0).blk t).view.emb x : S2x4096x128.Idx) 1).val = (k 1).val; rw [m1]; omega
    | ⟨2, _⟩ => show ((((cfg1.win 0).blk t).view.emb x : S2x4096x128.Idx) 2).val = (k 2).val; rw [m2]; omega
  exact congrArg (V c main_v6_0 : S2x4096x128.Idx → Elt F .bf16) h

/-- The same by coordinates: entry (0, r, k) of the query block at point t is the array at
    (batch, 1024 x query tile + r, k). -/
theorem iblk_0_ix (c : Dev nD) (t : Fin cfg1.N) (r : Fin 1024) (k : Fin 128) :
    (iblk V c 0 t : Vec F S1x1024x128 .bf16) (ix3 (0 : Fin 1) r k)
      = (V c main_v6_0 : S2x4096x128.Idx → Elt F .bf16) (ix3 (batchOf t) (rowIn (qTile t) r) k) :=
  iblk_0_apply V c t _ _ rfl rfl rfl

/-- The printed index map of window 1 (the key window), decided over the grid: the block index is (batch, key tile, 0). -/
theorem idx_facts1 : ∀ t : Fin cfg1.N, win1_1.index t (0 : Fin 3) = t.val / 16
    ∧ win1_1.index t (1 : Fin 3) = t.val % 4 ∧ win1_1.index t (2 : Fin 3) = 0 :=
  (by decide +kernel : ∀ t : Fin grid1.N, _)

theorem read1_apply (t : Fin cfg1.N) (A : S2x4096x128.Idx → Elt F .bf16) (x : S1x1024x128.Idx) :
    ((cfg1.win 1).blk t).view.read (Elt F) A x = A (((cfg1.win 1).blk t).view.emb x) := rfl

theorem emb1_val (t : Fin cfg1.N) (x : S1x1024x128.Idx) :
    ((((cfg1.win 1).blk t).view.emb x : S2x4096x128.Idx) 0).val = win1_1.index t (0 : Fin 3) * 1 + 1 * (x 0).val
    ∧ ((((cfg1.win 1).blk t).view.emb x : S2x4096x128.Idx) 1).val = win1_1.index t (1 : Fin 3) * 1024 + 1 * (x 1).val
    ∧ ((((cfg1.win 1).blk t).view.emb x : S2x4096x128.Idx) 2).val = win1_1.index t (2 : Fin 3) * 128 + 1 * (x 2).val :=
  ⟨rfl, rfl, rfl⟩

/-- THE KEY BLOCK at point t, at the block index x, is the array at k whenever k's batch is the point's,
    k's row is 1024 x (the block's row tile) + x's row, and the columns agree. -/
theorem iblk_1_apply (c : Dev nD) (t : Fin cfg1.N) (x : S1x1024x128.Idx) (k : S2x4096x128.Idx)
    (hk0 : (k 0).val = t.val / 16) (hk1 : (k 1).val = t.val % 4 * 1024 + (x 1).val)
    (hk2 : (k 2).val = (x 2).val) :
    (iblk V c 1 t : Vec F S1x1024x128 .bf16) x = (V c main_v6_1 : S2x4096x128.Idx → Elt F .bf16) k := by
  unfold iblk
  refine (read1_apply t _ x).trans ?_
  obtain ⟨e0, e1, e2⟩ := idx_facts1 t
  obtain ⟨m0, m1, m2⟩ := emb1_val t x
  have hx0 : (x 0).val < 1 := (x 0).isLt
  have h : (((cfg1.win 1).blk t).view.emb x : S2x4096x128.Idx) = k := by
    funext a; apply Fin.ext
    match a with
    | ⟨0, _⟩ => show ((((cfg1.win 1).blk t).view.emb x : S2x4096x128.Idx) 0).val = (k 0).val; rw [m0]; omega
    | ⟨1, _⟩ => show ((((cfg1.win 1).blk t).view.emb x : S2x4096x128.Idx) 1).val = (k 1).val; rw [m1]; omega
    | ⟨2, _⟩ => show ((((cfg1.win 1).blk t).view.emb x : S2x4096x128.Idx) 2).val = (k 2).val; rw [m2]; omega
  exact congrArg (V c main_v6_1 : S2x4096x128.Idx → Elt F .bf16) h

/-- The same by coordinates: entry (0, r, k) of the key block at point t is the array at
    (batch, 1024 x key tile + r, k). -/
theorem iblk_1_ix (c : Dev nD) (t : Fin cfg1.N) (r : Fin 1024) (k : Fin 128) :
    (iblk V c 1 t : Vec F S1x1024x128 .bf16) (ix3 (0 : Fin 1) r k)
      = (V c main_v6_1 : S2x4096x128.Idx → Elt F .bf16) (ix3 (batchOf t) (rowIn (kTile t) r) k) :=
  iblk_1_apply V c t _ _ rfl rfl rfl

/-- The printed index map of window 2 (the value window), decided over the grid: the block index is (batch, key tile, 0). -/
theorem idx_facts2 : ∀ t : Fin cfg1.N, win1_2.index t (0 : Fin 3) = t.val / 16
    ∧ win1_2.index t (1 : Fin 3) = t.val % 4 ∧ win1_2.index t (2 : Fin 3) = 0 :=
  (by decide +kernel : ∀ t : Fin grid1.N, _)

theorem read2_apply (t : Fin cfg1.N) (A : S2x4096x128.Idx → Elt F .bf16) (x : S1x1024x128.Idx) :
    ((cfg1.win 2).blk t).view.read (Elt F) A x = A (((cfg1.win 2).blk t).view.emb x) := rfl

theorem emb2_val (t : Fin cfg1.N) (x : S1x1024x128.Idx) :
    ((((cfg1.win 2).blk t).view.emb x : S2x4096x128.Idx) 0).val = win1_2.index t (0 : Fin 3) * 1 + 1 * (x 0).val
    ∧ ((((cfg1.win 2).blk t).view.emb x : S2x4096x128.Idx) 1).val = win1_2.index t (1 : Fin 3) * 1024 + 1 * (x 1).val
    ∧ ((((cfg1.win 2).blk t).view.emb x : S2x4096x128.Idx) 2).val = win1_2.index t (2 : Fin 3) * 128 + 1 * (x 2).val :=
  ⟨rfl, rfl, rfl⟩

/-- THE VALUE BLOCK at point t, at the block index x, is the array at k whenever k's batch is the point's,
    k's row is 1024 x (the block's row tile) + x's row, and the columns agree. -/
theorem iblk_2_apply (c : Dev nD) (t : Fin cfg1.N) (x : S1x1024x128.Idx) (k : S2x4096x128.Idx)
    (hk0 : (k 0).val = t.val / 16) (hk1 : (k 1).val = t.val % 4 * 1024 + (x 1).val)
    (hk2 : (k 2).val = (x 2).val) :
    (iblk V c 2 t : Vec F S1x1024x128 .bf16) x = (V c main_v6_2 : S2x4096x128.Idx → Elt F .bf16) k := by
  unfold iblk
  refine (read2_apply t _ x).trans ?_
  obtain ⟨e0, e1, e2⟩ := idx_facts2 t
  obtain ⟨m0, m1, m2⟩ := emb2_val t x
  have hx0 : (x 0).val < 1 := (x 0).isLt
  have h : (((cfg1.win 2).blk t).view.emb x : S2x4096x128.Idx) = k := by
    funext a; apply Fin.ext
    match a with
    | ⟨0, _⟩ => show ((((cfg1.win 2).blk t).view.emb x : S2x4096x128.Idx) 0).val = (k 0).val; rw [m0]; omega
    | ⟨1, _⟩ => show ((((cfg1.win 2).blk t).view.emb x : S2x4096x128.Idx) 1).val = (k 1).val; rw [m1]; omega
    | ⟨2, _⟩ => show ((((cfg1.win 2).blk t).view.emb x : S2x4096x128.Idx) 2).val = (k 2).val; rw [m2]; omega
  exact congrArg (V c main_v6_2 : S2x4096x128.Idx → Elt F .bf16) h

/-- The same by coordinates: entry (0, r, k) of the value block at point t is the array at
    (batch, 1024 x key tile + r, k). -/
theorem iblk_2_ix (c : Dev nD) (t : Fin cfg1.N) (r : Fin 1024) (k : Fin 128) :
    (iblk V c 2 t : Vec F S1x1024x128 .bf16) (ix3 (0 : Fin 1) r k)
      = (V c main_v6_2 : S2x4096x128.Idx → Elt F .bf16) (ix3 (batchOf t) (rowIn (kTile t) r) k) :=
  iblk_2_apply V c t _ _ rfl rfl rfl

/-- The printed index map of window 3 (the first bias window), decided over the grid: the block index is (batch, query tile, key tile). -/
theorem idx_facts3 : ∀ t : Fin cfg1.N, win1_3.index t (0 : Fin 3) = t.val / 16
    ∧ win1_3.index t (1 : Fin 3) = t.val / 4 % 4 ∧ win1_3.index t (2 : Fin 3) = t.val % 4 :=
  (by decide +kernel : ∀ t : Fin grid1.N, _)

theorem read3_apply (t : Fin cfg1.N) (A : S2x4096x4096.Idx → Elt F .f32) (x : S1x1024x1024.Idx) :
    ((cfg1.win 3).blk t).view.read (Elt F) A x = A (((cfg1.win 3).blk t).view.emb x) := rfl

theorem emb3_val (t : Fin cfg1.N) (x : S1x1024x1024.Idx) :
    ((((cfg1.win 3).blk t).view.emb x : S2x4096x4096.Idx) 0).val = win1_3.index t (0 : Fin 3) * 1 + 1 * (x 0).val
    ∧ ((((cfg1.win 3).blk t).view.emb x : S2x4096x4096.Idx) 1).val = win1_3.index t (1 : Fin 3) * 1024 + 1 * (x 1).val
    ∧ ((((cfg1.win 3).blk t).view.emb x : S2x4096x4096.Idx) 2).val = win1_3.index t (2 : Fin 3) * 1024 + 1 * (x 2).val :=
  ⟨rfl, rfl, rfl⟩

/-- THE FIRST BIAS BLOCK at point t, at the block index x, is the array at k whenever k's batch is the point's,
    k's row is 1024 x (the block's row tile) + x's row, and k's column is 1024 x (the key tile) + x's column. -/
theorem iblk_3_apply (c : Dev nD) (t : Fin cfg1.N) (x : S1x1024x1024.Idx) (k : S2x4096x4096.Idx)
    (hk0 : (k 0).val = t.val / 16) (hk1 : (k 1).val = t.val / 4 % 4 * 1024 + (x 1).val)
    (hk2 : (k 2).val = t.val % 4 * 1024 + (x 2).val) :
    (iblk V c 3 t : Vec F S1x1024x1024 .f32) x = (V c main_arg1 : S2x4096x4096.Idx → Elt F .f32) k := by
  unfold iblk
  refine (read3_apply t _ x).trans ?_
  obtain ⟨e0, e1, e2⟩ := idx_facts3 t
  obtain ⟨m0, m1, m2⟩ := emb3_val t x
  have hx0 : (x 0).val < 1 := (x 0).isLt
  have h : (((cfg1.win 3).blk t).view.emb x : S2x4096x4096.Idx) = k := by
    funext a; apply Fin.ext
    match a with
    | ⟨0, _⟩ => show ((((cfg1.win 3).blk t).view.emb x : S2x4096x4096.Idx) 0).val = (k 0).val; rw [m0]; omega
    | ⟨1, _⟩ => show ((((cfg1.win 3).blk t).view.emb x : S2x4096x4096.Idx) 1).val = (k 1).val; rw [m1]; omega
    | ⟨2, _⟩ => show ((((cfg1.win 3).blk t).view.emb x : S2x4096x4096.Idx) 2).val = (k 2).val; rw [m2]; omega
  exact congrArg (V c main_arg1 : S2x4096x4096.Idx → Elt F .f32) h

/-- The same by coordinates: entry (0, r, n) of the first bias block at point t is the array at
    (batch, 1024 x query tile + r, 1024 x key tile + n). -/
theorem iblk_3_ix (c : Dev nD) (t : Fin cfg1.N) (r n : Fin 1024) :
    (iblk V c 3 t : Vec F S1x1024x1024 .f32) (ix3 (0 : Fin 1) r n)
      = (V c main_arg1 : S2x4096x4096.Idx → Elt F .f32) (ix3 (batchOf t) (rowIn (qTile t) r) (rowIn (kTile t) n)) :=
  iblk_3_apply V c t _ _ rfl rfl rfl

/-- The printed index map of window 4 (the second bias window), decided over the grid: the block index is (batch, query tile, key tile). -/
theorem idx_facts4 : ∀ t : Fin cfg1.N, win1_4.index t (0 : Fin 3) = t.val / 16
    ∧ win1_4.index t (1 : Fin 3) = t.val / 4 % 4 ∧ win1_4.index t (2 : Fin 3) = t.val % 4 :=
  (by decide +kernel : ∀ t : Fin grid1.N, _)

theorem read4_apply (t : Fin cfg1.N) (A : S2x4096x4096.Idx → Elt F .f32) (x : S1x1024x1024.Idx) :
    ((cfg1.win 4).blk t).view.read (Elt F) A x = A (((cfg1.win 4).blk t).view.emb x) := rfl

theorem emb4_val (t : Fin cfg1.N) (x : S1x1024x1024.Idx) :
    ((((cfg1.win 4).blk t).view.emb x : S2x4096x4096.Idx) 0).val = win1_4.index t (0 : Fin 3) * 1 + 1 * (x 0).val
    ∧ ((((cfg1.win 4).blk t).view.emb x : S2x4096x4096.Idx) 1).val = win1_4.index t (1 : Fin 3) * 1024 + 1 * (x 1).val
    ∧ ((((cfg1.win 4).blk t).view.emb x : S2x4096x4096.Idx) 2).val = win1_4.index t (2 : Fin 3) * 1024 + 1 * (x 2).val :=
  ⟨rfl, rfl, rfl⟩

/-- THE SECOND BIAS BLOCK at point t, at the block index x, is the array at k whenever k's batch is the point's,
    k's row is 1024 x (the block's row tile) + x's row, and k's column is 1024 x (the key tile) + x's column. -/
theorem iblk_4_apply (c : Dev nD) (t : Fin cfg1.N) (x : S1x1024x1024.Idx) (k : S2x4096x4096.Idx)
    (hk0 : (k 0).val = t.val / 16) (hk1 : (k 1).val = t.val / 4 % 4 * 1024 + (x 1).val)
    (hk2 : (k 2).val = t.val % 4 * 1024 + (x 2).val) :
    (iblk V c 4 t : Vec F S1x1024x1024 .f32) x = (V c main_arg2 : S2x4096x4096.Idx → Elt F .f32) k := by
  unfold iblk
  refine (read4_apply t _ x).trans ?_
  obtain ⟨e0, e1, e2⟩ := idx_facts4 t
  obtain ⟨m0, m1, m2⟩ := emb4_val t x
  have hx0 : (x 0).val < 1 := (x 0).isLt
  have h : (((cfg1.win 4).blk t).view.emb x : S2x4096x4096.Idx) = k := by
    funext a; apply Fin.ext
    match a with
    | ⟨0, _⟩ => show ((((cfg1.win 4).blk t).view.emb x : S2x4096x4096.Idx) 0).val = (k 0).val; rw [m0]; omega
    | ⟨1, _⟩ => show ((((cfg1.win 4).blk t).view.emb x : S2x4096x4096.Idx) 1).val = (k 1).val; rw [m1]; omega
    | ⟨2, _⟩ => show ((((cfg1.win 4).blk t).view.emb x : S2x4096x4096.Idx) 2).val = (k 2).val; rw [m2]; omega
  exact congrArg (V c main_arg2 : S2x4096x4096.Idx → Elt F .f32) h

/-- The same by coordinates: entry (0, r, n) of the second bias block at point t is the array at
    (batch, 1024 x query tile + r, 1024 x key tile + n). -/
theorem iblk_4_ix (c : Dev nD) (t : Fin cfg1.N) (r n : Fin 1024) :
    (iblk V c 4 t : Vec F S1x1024x1024 .f32) (ix3 (0 : Fin 1) r n)
      = (V c main_arg2 : S2x4096x4096.Idx → Elt F .f32) (ix3 (batchOf t) (rowIn (qTile t) r) (rowIn (kTile t) n)) :=
  iblk_4_apply V c t _ _ rfl rfl rfl

/-- info: 'Cert.KernelIdeal.Flash.final5' depends on axioms: [propext, Classical.choice, Quot.sound] -/
#guard_msgs in #print axioms final5
/-- info: 'Cert.KernelIdeal.Flash.iblk_0_ix' depends on axioms: [propext, Classical.choice, Quot.sound] -/
#guard_msgs in #print axioms iblk_0_ix
/-- info: 'Cert.KernelIdeal.Flash.iblk_3_ix' depends on axioms: [propext, Classical.choice, Quot.sound] -/
#guard_msgs in #print axioms iblk_3_ix

end Cert.KernelIdeal.Flash

end
-- ==== Proof.HostGlue.lean ====
/-
  The host operations around the two kernels, read at an index.

  Before the kernels the program pads each of the three projection weights [64, 512] to [128, 512] and each of the
  three biases [64] to [128] with zeros after the last row (low padding 0, high padding 64 on the first axis, no
  interior padding, the padding value the integer 0 converted to a float): row k of a padded array is row k of the
  original when k < 64 and zero otherwise. After the kernels it keeps the first 64 of the 128 output features
  (a slice at offset 0 with unit strides): entry (b, q, k) of the result is entry (b, q, k) of the wide array.
-/
import proofs.«121072_j35897336660236_2_alg».proof.Proof.Gen.KernelIdeal.Regions
import Idealize.ShloMosaic.Lib.StableHlo.Run
import Idealize.ShloMosaic.Lib.ValueIdx
import Idealize.ShloMosaic.Lib.Pipeline.Value
import Idealize.ShloMosaic.Lib.KernelVsHost
import Idealize.ShloMosaic.PureOps.Ideal

noncomputable section

namespace Cert.KernelIdeal.HostGlue

open Cert.KernelIdeal Cert.KernelIdeal.Gen Idealize.ShloMosaic Idealize.ShloMosaic.TcCoe Idealize.ShloMosaic.ValueIdx
open Idealize.SL.Sem

variable {F : FTy → Type} [FloatOps F]

/-- The last host operation keeps the first 64 of the 128 output features: entry (b, q, k) of the result is entry
    (b, q, k) of the wide array. -/
theorem slice_apply (W : Valuation τ sig (Elt F)) (b : Fin 2) (q : Fin 4096) (k : Fin 64) :
    StableHlo.after (hostOps2 (F := F)) W main_v8 (ix3 b q k) = W main_v7 (ix3 b q (⟨k.val, by omega⟩ : Fin 128)) := by
  have e : StableHlo.after (hostOps2 (F := F)) W (Proc.devRef .tc main_v8)
      = extractStridedSlice S2x4096x64 ![0, 0, 0] (W (Proc.devRef .tc main_v7)) slices_S2x4096x128_S2x4096x64_0_0_0 := by
    after_results
  show StableHlo.after (hostOps2 (F := F)) W (Proc.devRef .tc main_v8) (ix3 b q k) = _
  rw [e]
  exact extractStridedSlice_apply _ _ _ _ _ (fun a => by
    match a with
    | ⟨0, _⟩ => exact (Nat.zero_add _).symm
    | ⟨1, _⟩ => exact (Nat.zero_add _).symm
    | ⟨2, _⟩ => exact (Nat.zero_add _).symm)

/-! ## Padding read at an index -/

/-- A [64, 512] array padded with 64 rows after its last: row k of the result is row k of the array when k < 64,
    and the padding value otherwise. -/
theorem pad_rows_apply (x : FVec F S64x512 .f32) (v : FVec F S_ .f32) (k : Fin 128) (d : Fin 512) :
    pad S128x512 ![0, 0] ![64, 0] ![0, 0] x v pads_S64x512_S128x512_0640_000 h_S_ (ix2 k d)
      = if h : k.val < 64 then x (ix2 (⟨k.val, h⟩ : Fin 64) d) else v (Shape.Idx.first h_S_) := by
  by_cases h : k.val < 64
  · rw [dif_pos h]
    exact pad_apply_of_inside _ _ _ _ _ _ _ _ (ix2 (⟨k.val, h⟩ : Fin 64) d) (fun a => by
      match a with
      | ⟨0, _⟩ => show k.val = 0 + k.val * (0 + 1); omega
      | ⟨1, _⟩ => show d.val = 0 + d.val * (0 + 1); omega)
  · rw [dif_neg h]
    exact pad_apply_of_not_inside _ _ _ _ _ _ _ _ (0 : Fin 2) (fun hh => h (by
      have h3 : (k.val - 0) / (0 + 1) < 64 := hh.2.2
      omega))

/-- A [64] array padded with 64 entries after its last: entry k of the result is entry k of the array when k < 64,
    and the padding value otherwise. -/
theorem pad_entries_apply (x : FVec F S64 .f32) (v : FVec F S_ .f32) (k : Fin 128) :
    pad S128 ![0] ![64] ![0] x v pads_S64_S128_0640 h_S_ (ix1 k)
      = if h : k.val < 64 then x (ix1 (⟨k.val, h⟩ : Fin 64)) else v (Shape.Idx.first h_S_) := by
  by_cases h : k.val < 64
  · rw [dif_pos h]
    exact pad_apply_of_inside _ _ _ _ _ _ _ _ (ix1 (⟨k.val, h⟩ : Fin 64)) (fun a => by
      match a with
      | ⟨0, _⟩ => show k.val = 0 + k.val * (0 + 1); omega)
  · rw [dif_neg h]
    exact pad_apply_of_not_inside _ _ _ _ _ _ _ _ (0 : Fin 1) (fun hh => h (by
      have h3 : (k.val - 0) / (0 + 1) < 64 := hh.2.2
      omega))

/-- The padding value: the integer word 0 converted to a float is the extended real 0. -/
theorem padValue_eq_zero (i : S_.Idx) : (sitofp .f32 (constantI S_ 32 0#32) : FVec Ideal S_ .f32) i = 0 := by
  show (((0#32 : BitVec 32).toInt : ℝ) : EReal) = 0
  simp

/-! ## The padded arrays as the kernels find them -/

variable (m : (ℓ : Loc nD τ sig) → Buf (Elt F) ℓ)

/-- The padded query weight, as an operation of the launch contents. -/
theorem V12_main_v0 (c : Dev nD) :
    V12 m c main_v0 = pad S128x512 ![0, 0] ![64, 0] ![0, 0] (m ((c : Thread nD τ).loc main_arg3))
      (sitofp .f32 (constantI S_ 32 0#32)) pads_S64x512_S128x512_0640_000 h_S_ := by
  refine
    (V12_of m c main_v0 (by decide)).trans <| (V11_of m c main_v0 (by decide)).trans <|
    (V10_of m c main_v0 (by decide)).trans <| (V9_of m c main_v0 (by decide)).trans <|
    (V8_of m c main_v0 (by decide)).trans <| (V7_of m c main_v0 (by decide)).trans <|
    (V6_of m c main_v0 (by decide)).trans <| (V5_of m c main_v0 (by decide)).trans <|
    (V4_of m c main_v0 (by decide)).trans <| (V3_of m c main_v0 (by decide)).trans ?_
  show StableHlo.after (hostOps0_1 (F := F)) (StableHlo.after (hostOps0 (F := F)) (V0 m c)) (Proc.devRef .tc main_v0) = _
  after_results
  rfl

/-- The padded key weight. -/
theorem V12_main_v1 (c : Dev nD) :
    V12 m c main_v1 = pad S128x512 ![0, 0] ![64, 0] ![0, 0] (m ((c : Thread nD τ).loc main_arg5))
      (sitofp .f32 (constantI S_ 32 0#32)) pads_S64x512_S128x512_0640_000 h_S_ := by
  refine
    (V12_of m c main_v1 (by decide)).trans <| (V11_of m c main_v1 (by decide)).trans <|
    (V10_of m c main_v1 (by decide)).trans <| (V9_of m c main_v1 (by decide)).trans <|
    (V8_of m c main_v1 (by decide)).trans <| (V7_of m c main_v1 (by decide)).trans <|
    (V6_of m c main_v1 (by decide)).trans <| (V5_of m c main_v1 (by decide)).trans ?_
  show StableHlo.after (hostOps0_3 (F := F)) (StableHlo.after (hostOps0_2 (F := F)) (V2 m c)) (Proc.devRef .tc main_v1) = _
  after_results
  rfl

/-- The padded value weight. -/
theorem V12_main_v2 (c : Dev nD) :
    V12 m c main_v2 = pad S128x512 ![0, 0] ![64, 0] ![0, 0] (m ((c : Thread nD τ).loc main_arg7))
      (sitofp .f32 (constantI S_ 32 0#32)) pads_S64x512_S128x512_0640_000 h_S_ := by
  refine
    (V12_of m c main_v2 (by decide)).trans <| (V11_of m c main_v2 (by decide)).trans <|
    (V10_of m c main_v2 (by decide)).trans <| (V9_of m c main_v2 (by decide)).trans <|
    (V8_of m c main_v2 (by decide)).trans <| (V7_of m c main_v2 (by decide)).trans ?_
  show StableHlo.after (hostOps0_5 (F := F)) (StableHlo.after (hostOps0_4 (F := F)) (V4 m c)) (Proc.devRef .tc main_v2) = _
  after_results
  rfl

/-- The padded query bias. -/
theorem V12_main_v3 (c : Dev nD) :
    V12 m c main_v3 = pad S128 ![0] ![64] ![0] (m ((c : Thread nD τ).loc main_arg4))
      (sitofp .f32 (constantI S_ 32 0#32)) pads_S64_S128_0640 h_S_ := by
  refine
    (V12_of m c main_v3 (by decide)).trans <| (V11_of m c main_v3 (by decide)).trans <|
    (V10_of m c main_v3 (by decide)).trans <| (V9_of m c main_v3 (by decide)).trans ?_
  show StableHlo.after (hostOps0_7 (F := F)) (StableHlo.after (hostOps0_6 (F := F)) (V6 m c)) (Proc.devRef .tc main_v3) = _
  after_results
  rfl

/-- The padded key bias. -/
theorem V12_main_v4 (c : Dev nD) :
    V12 m c main_v4 = pad S128 ![0] ![64] ![0] (m ((c : Thread nD τ).loc main_arg6))
      (sitofp .f32 (constantI S_ 32 0#32)) pads_S64_S128_0640 h_S_ := by
  refine
    (V12_of m c main_v4 (by decide)).trans <| (V11_of m c main_v4 (by decide)).trans ?_
  show StableHlo.after (hostOps0_9 (F := F)) (StableHlo.after (hostOps0_8 (F := F)) (V8 m c)) (Proc.devRef .tc main_v4) = _
  after_results
  rfl

/-- The padded value bias. -/
theorem V12_main_v5 (c : Dev nD) :
    V12 m c main_v5 = pad S128 ![0] ![64] ![0] (m ((c : Thread nD τ).loc main_arg8))
      (sitofp .f32 (constantI S_ 32 0#32)) pads_S64_S128_0640 h_S_ := by
  show StableHlo.after (hostOps0_11 (F := F)) (StableHlo.after (hostOps0_10 (F := F)) (V10 m c)) (Proc.devRef .tc main_v5) = _
  after_results
  rfl

/-! ## The arguments are untouched by the host prefix -/

theorem V12_main_arg0 (c : Dev nD) : V12 m c main_arg0 = m ((c : Thread nD τ).loc main_arg0) :=
  (V12_of m c main_arg0 (by decide)).trans <| (V11_of m c main_arg0 (by decide)).trans <| (V10_of m c main_arg0 (by decide)).trans <|
  (V9_of m c main_arg0 (by decide)).trans <| (V8_of m c main_arg0 (by decide)).trans <| (V7_of m c main_arg0 (by decide)).trans <|
  (V6_of m c main_arg0 (by decide)).trans <| (V5_of m c main_arg0 (by decide)).trans <| (V4_of m c main_arg0 (by decide)).trans <|
  (V3_of m c main_arg0 (by decide)).trans <| (V2_of m c main_arg0 (by decide)).trans <| (V1_of m c main_arg0 (by decide)).trans <| rfl
theorem V12_main_arg1 (c : Dev nD) : V12 m c main_arg1 = m ((c : Thread nD τ).loc main_arg1) :=
  (V12_of m c main_arg1 (by decide)).trans <| (V11_of m c main_arg1 (by decide)).trans <| (V10_of m c main_arg1 (by decide)).trans <|
  (V9_of m c main_arg1 (by decide)).trans <| (V8_of m c main_arg1 (by decide)).trans <| (V7_of m c main_arg1 (by decide)).trans <|
  (V6_of m c main_arg1 (by decide)).trans <| (V5_of m c main_arg1 (by decide)).trans <| (V4_of m c main_arg1 (by decide)).trans <|
  (V3_of m c main_arg1 (by decide)).trans <| (V2_of m c main_arg1 (by decide)).trans <| (V1_of m c main_arg1 (by decide)).trans <| rfl
theorem V12_main_arg2 (c : Dev nD) : V12 m c main_arg2 = m ((c : Thread nD τ).loc main_arg2) :=
  (V12_of m c main_arg2 (by decide)).trans <| (V11_of m c main_arg2 (by decide)).trans <| (V10_of m c main_arg2 (by decide)).trans <|
  (V9_of m c main_arg2 (by decide)).trans <| (V8_of m c main_arg2 (by decide)).trans <| (V7_of m c main_arg2 (by decide)).trans <|
  (V6_of m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans <| rfl
theorem V12_main_arg3 (c : Dev nD) : V12 m c main_arg3 = m ((c : Thread nD τ).loc main_arg3) :=
  (V12_of m c main_arg3 (by decide)).trans <| (V11_of m c main_arg3 (by decide)).trans <| (V10_of m c main_arg3 (by decide)).trans <|
  (V9_of m c main_arg3 (by decide)).trans <| (V8_of m c main_arg3 (by decide)).trans <| (V7_of m c main_arg3 (by decide)).trans <|
  (V6_of m c main_arg3 (by decide)).trans <| (V5_of m c main_arg3 (by decide)).trans <| (V4_of m c main_arg3 (by decide)).trans <|
  (V3_of m c main_arg3 (by decide)).trans <| (V2_of m c main_arg3 (by decide)).trans <| (V1_of m c main_arg3 (by decide)).trans <| rfl
theorem V12_main_arg4 (c : Dev nD) : V12 m c main_arg4 = m ((c : Thread nD τ).loc main_arg4) :=
  (V12_of m c main_arg4 (by decide)).trans <| (V11_of m c main_arg4 (by decide)).trans <| (V10_of m c main_arg4 (by decide)).trans <|
  (V9_of m c main_arg4 (by decide)).trans <| (V8_of m c main_arg4 (by decide)).trans <| (V7_of m c main_arg4 (by decide)).trans <|
  (V6_of m c main_arg4 (by decide)).trans <| (V5_of m c main_arg4 (by decide)).trans <| (V4_of m c main_arg4 (by decide)).trans <|
  (V3_of m c main_arg4 (by decide)).trans <| (V2_of m c main_arg4 (by decide)).trans <| (V1_of m c main_arg4 (by decide)).trans <| rfl
theorem V12_main_arg5 (c : Dev nD) : V12 m c main_arg5 = m ((c : Thread nD τ).loc main_arg5) :=
  (V12_of m c main_arg5 (by decide)).trans <| (V11_of m c main_arg5 (by decide)).trans <| (V10_of m c main_arg5 (by decide)).trans <|
  (V9_of m c main_arg5 (by decide)).trans <| (V8_of m c main_arg5 (by decide)).trans <| (V7_of m c main_arg5 (by decide)).trans <|
  (V6_of m c main_arg5 (by decide)).trans <| (V5_of m c main_arg5 (by decide)).trans <| (V4_of m c main_arg5 (by decide)).trans <|
  (V3_of m c main_arg5 (by decide)).trans <| (V2_of m c main_arg5 (by decide)).trans <| (V1_of m c main_arg5 (by decide)).trans <| rfl
theorem V12_main_arg6 (c : Dev nD) : V12 m c main_arg6 = m ((c : Thread nD τ).loc main_arg6) :=
  (V12_of m c main_arg6 (by decide)).trans <| (V11_of m c main_arg6 (by decide)).trans <| (V10_of m c main_arg6 (by decide)).trans <|
  (V9_of m c main_arg6 (by decide)).trans <| (V8_of m c main_arg6 (by decide)).trans <| (V7_of m c main_arg6 (by decide)).trans <|
  (V6_of m c main_arg6 (by decide)).trans <| (V5_of m c main_arg6 (by decide)).trans <| (V4_of m c main_arg6 (by decide)).trans <|
  (V3_of m c main_arg6 (by decide)).trans <| (V2_of m c main_arg6 (by decide)).trans <| (V1_of m c main_arg6 (by decide)).trans <| rfl
theorem V12_main_arg7 (c : Dev nD) : V12 m c main_arg7 = m ((c : Thread nD τ).loc main_arg7) :=
  (V12_of m c main_arg7 (by decide)).trans <| (V11_of m c main_arg7 (by decide)).trans <| (V10_of m c main_arg7 (by decide)).trans <|
  (V9_of m c main_arg7 (by decide)).trans <| (V8_of m c main_arg7 (by decide)).trans <| (V7_of m c main_arg7 (by decide)).trans <|
  (V6_of m c main_arg7 (by decide)).trans <| (V5_of m c main_arg7 (by decide)).trans <| (V4_of m c main_arg7 (by decide)).trans <|
  (V3_of m c main_arg7 (by decide)).trans <| (V2_of m c main_arg7 (by decide)).trans <| (V1_of m c main_arg7 (by decide)).trans <| rfl
theorem V12_main_arg8 (c : Dev nD) : V12 m c main_arg8 = m ((c : Thread nD τ).loc main_arg8) :=
  (V12_of m c main_arg8 (by decide)).trans <| (V11_of m c main_arg8 (by decide)).trans <| (V10_of m c main_arg8 (by decide)).trans <|
  (V9_of m c main_arg8 (by decide)).trans <| (V8_of m c main_arg8 (by decide)).trans <| (V7_of m c main_arg8 (by decide)).trans <|
  (V6_of m c main_arg8 (by decide)).trans <| (V5_of m c main_arg8 (by decide)).trans <| (V4_of m c main_arg8 (by decide)).trans <|
  (V3_of m c main_arg8 (by decide)).trans <| (V2_of m c main_arg8 (by decide)).trans <| (V1_of m c main_arg8 (by decide)).trans <| rfl

/-! ## The padded arrays read at an index, on the extended reals -/

section AtIdeal
variable (m : (ℓ : Loc nD τ sig) → Buf (Elt Ideal) ℓ)

/-- Row k of the padded query weight is row k of the query weight when k < 64, and zero otherwise. -/
theorem wq_padded (c : Dev nD) (k : Fin 128) (d : Fin 512) :
    (V12 m c main_v0 (ix2 k d) : EReal)
      = if h : k.val < 64 then (m ((c : Thread nD τ).loc main_arg3) (ix2 (⟨k.val, h⟩ : Fin 64) d) : EReal) else (0 : EReal) := by
  refine (congrFun (V12_main_v0 m c) (ix2 k d)).trans ?_
  refine (pad_rows_apply (F := Ideal) (m ((c : Thread nD τ).loc main_arg3)) _ k d).trans ?_
  rw [padValue_eq_zero]

/-- Row k of the padded key weight is row k of the key weight when k < 64, and zero otherwise. -/
theorem wk_padded (c : Dev nD) (k : Fin 128) (d : Fin 512) :
    (V12 m c main_v1 (ix2 k d) : EReal)
      = if h : k.val < 64 then (m ((c : Thread nD τ).loc main_arg5) (ix2 (⟨k.val, h⟩ : Fin 64) d) : EReal) else (0 : EReal) := by
  refine (congrFun (V12_main_v1 m c) (ix2 k d)).trans ?_
  refine (pad_rows_apply (F := Ideal) (m ((c : Thread nD τ).loc main_arg5)) _ k d).trans ?_
  rw [padValue_eq_zero]

/-- Row k of the padded value weight is row k of the value weight when k < 64, and zero otherwise. -/
theorem wv_padded (c : Dev nD) (k : Fin 128) (d : Fin 512) :
    (V12 m c main_v2 (ix2 k d) : EReal)
      = if h : k.val < 64 then (m ((c : Thread nD τ).loc main_arg7) (ix2 (⟨k.val, h⟩ : Fin 64) d) : EReal) else (0 : EReal) := by
  refine (congrFun (V12_main_v2 m c) (ix2 k d)).trans ?_
  refine (pad_rows_apply (F := Ideal) (m ((c : Thread nD τ).loc main_arg7)) _ k d).trans ?_
  rw [padValue_eq_zero]

/-- Entry k of the padded query bias is entry k of the query bias when k < 64, and zero otherwise. -/
theorem bq_padded (c : Dev nD) (k : Fin 128) :
    (V12 m c main_v3 (ix1 k) : EReal)
      = if h : k.val < 64 then (m ((c : Thread nD τ).loc main_arg4) (ix1 (⟨k.val, h⟩ : Fin 64)) : EReal) else (0 : EReal) := by
  refine (congrFun (V12_main_v3 m c) (ix1 k)).trans ?_
  refine (pad_entries_apply (F := Ideal) (m ((c : Thread nD τ).loc main_arg4)) _ k).trans ?_
  rw [padValue_eq_zero]

/-- Entry k of the padded key bias is entry k of the key bias when k < 64, and zero otherwise. -/
theorem bk_padded (c : Dev nD) (k : Fin 128) :
    (V12 m c main_v4 (ix1 k) : EReal)
      = if h : k.val < 64 then (m ((c : Thread nD τ).loc main_arg6) (ix1 (⟨k.val, h⟩ : Fin 64)) : EReal) else (0 : EReal) := by
  refine (congrFun (V12_main_v4 m c) (ix1 k)).trans ?_
  refine (pad_entries_apply (F := Ideal) (m ((c : Thread nD τ).loc main_arg6)) _ k).trans ?_
  rw [padValue_eq_zero]

/-- Entry k of the padded value bias is entry k of the value bias when k < 64, and zero otherwise. -/
theorem bv_padded (c : Dev nD) (k : Fin 128) :
    (V12 m c main_v5 (ix1 k) : EReal)
      = if h : k.val < 64 then (m ((c : Thread nD τ).loc main_arg8) (ix1 (⟨k.val, h⟩ : Fin 64)) : EReal) else (0 : EReal) := by
  refine (congrFun (V12_main_v5 m c) (ix1 k)).trans ?_
  refine (pad_entries_apply (F := Ideal) (m ((c : Thread nD τ).loc main_arg8)) _ k).trans ?_
  rw [padValue_eq_zero]

end AtIdeal

end Cert.KernelIdeal.HostGlue

end
-- ==== Proof.AttentionAlgebra.lean ====
/-
  Pure algebra on the extended reals joining two arrangements of one attention layer.

  The specification (Cert.Attention.layer) projects to 64 features, scores a query against a key by
  (q . k + Sh + Sw) / sqrt 64, and averages the value rows with the softmax weights of the 4096 scores of a row.
  The other arrangement

    * pads the 64 features of the projections with zeros to 128: the extra products are x * 0 = 0, which holds
      for every extended real, and a sum does not see zero terms;
    * scores by (q . k + (Sh + Sw)) * 0.125: addition on the extended reals is associative with no finiteness
      needed, sqrt 64 = 8, and dividing by the nonzero real 8 is multiplying by 1/8 = 0.125, at the infinities too;
    * walks the 4096 keys of a row in 4 blocks of 1024 with the online (streaming) recurrence and divides the
      accumulator by the normaliser once at the end: for REAL scores and values this is the softmax average,
      the sum and the supremum over Fin (J * B) being regrouped into J consecutive blocks of B.

  Realness: sums, products and the division by 8 of real numbers are real, so projections and scores of real
  inputs are real; this is what the online recurrence needs.
-/
import Idealize.ShloMosaic.PureOps.Ideal
import proofs.«121072_j35897336660236_2_alg».proof.Proof.Attention
import proofs.«121072_j35897336660236_2_alg».proof.Proof.LibOnlineSoftmax

noncomputable section

namespace Cert.Attention

open Idealize.ShloMosaic
open Cert.Lib.OnlineSoftmax
open scoped BigOperators

/-! ### The scale: times 0.125 is division by sqrt 64 -/

/-- The float word 0x3E000000 denotes the real 0.125 = 2^(-3). -/
theorem ofBits_eighth : Ideal.ofBits .f32 0x3E000000#32 = ((0.125 : ℝ) : EReal) := by
  simp [Ideal.ofBits, Ideal.ieee, -EReal.coe_mul]; norm_num

/-- The head dimension, the float word 0x42800000, denotes the real 64 = 2^6. -/
theorem headDim_eq : headDim = ((64 : ℝ) : EReal) := by
  simp [headDim, Ideal.ofBits, Ideal.ieee, -EReal.coe_mul]; norm_num

/-- sqrt 64 = 8, since 8 * 8 = 64 and 8 >= 0. -/
theorem sqrt_headDim : Ideal.sqrt headDim = ((8 : ℝ) : EReal) := by
  rw [headDim_eq, Ideal.sqrt_coe, if_neg (by norm_num)]
  congr 1
  rw [Real.sqrt_eq_iff_mul_self_eq (by norm_num) (by norm_num)]
  norm_num

/-- (x + (y + z)) * 0.125 = ((x + y) + z) / sqrt 64 for ALL extended reals: associativity of + and
    division by the nonzero real 8 as the product with 1/8. -/
theorem scale_eq (x y z : EReal) :
    (x + (y + z)) * Ideal.ofBits .f32 0x3E000000#32 = Ideal.div ((x + y) + z) (Ideal.sqrt headDim) := by
  rw [sqrt_headDim, Ideal.div_coe (by norm_num), ofBits_eighth, add_assoc]
  norm_num

/-! ### Zero padding -/

/-- A family on Fin (m + n) that is f on the first m indices and 0 on the rest has the sum of f. -/
theorem sum_pad_add {α : Type*} [AddCommMonoid α] {m n : ℕ} (f : Fin m → α) (F : Fin (m + n) → α)
    (h : ∀ k : Fin (m + n), F k = if h : k.val < m then f ⟨k.val, h⟩ else 0) : ∑ k, F k = ∑ k, f k := by
  rw [Fin.sum_univ_add]
  have h1 : ∀ i : Fin m, F (Fin.castAdd n i) = f i := fun i => by
    rw [h, dif_pos (show ((Fin.castAdd n i : Fin (m + n)) : ℕ) < m from i.2)]
    rfl
  have h2 : ∀ i : Fin n, F (Fin.natAdd m i) = 0 := fun i => by
    rw [h, dif_neg (show ¬ ((Fin.natAdd m i : Fin (m + n)) : ℕ) < m from Nat.not_lt.2 (Nat.le_add_right m i))]
  simp only [h1, h2, Finset.sum_const_zero, add_zero]

/-- 64 numbers padded with zeros to 128 have the same sum. -/
theorem sum_pad (f : Fin 64 → EReal) (F : Fin 128 → EReal)
    (h : ∀ k : Fin 128, F k = if h : k.val < 64 then f ⟨k.val, h⟩ else 0) : ∑ k, F k = ∑ k, f k :=
  sum_pad_add (m := 64) (n := 64) f F h

/-- The inner product of two zero-padded vectors is the inner product of the vectors: past 64 each product is
    0 * 0 = 0. -/
theorem sum_mul_pad (p q : Fin 64 → EReal) (P Q : Fin 128 → EReal)
    (hP : ∀ k : Fin 128, P k = if h : k.val < 64 then p ⟨k.val, h⟩ else 0)
    (hQ : ∀ k : Fin 128, Q k = if h : k.val < 64 then q ⟨k.val, h⟩ else 0) :
    ∑ k, P k * Q k = ∑ k, p k * q k := by
  refine sum_pad (fun k => p k * q k) (fun k => P k * Q k) (fun k => ?_)
  show P k * Q k = if h : k.val < 64 then p ⟨k.val, h⟩ * q ⟨k.val, h⟩ else 0
  rw [hP k, hQ k]
  by_cases h : k.val < 64
  · simp only [dif_pos h]
  · simp only [dif_neg h, mul_zero]

/-- A projection against a zero weight row and a zero bias is 0: x * 0 = 0 for every extended real. -/
theorem padded_feature_zero (x : Fin 512 → EReal) : (∑ d, x d * (0 : EReal)) + 0 = 0 := by
  simp only [mul_zero, Finset.sum_const_zero, add_zero]

/-- The padded score: the 128-term inner product of zero-padded query and key rows, plus the sum of the two
    biases, times 0.125, is the specification's score. -/
theorem score_padded (Q K : Fin 2 → Fin 4096 → Fin 64 → EReal) (Sh Sw : Fin 2 → Fin 4096 → Fin 4096 → EReal)
    (b : Fin 2) (q n : Fin 4096) (P R : Fin 128 → EReal)
    (hP : ∀ k : Fin 128, P k = if h : k.val < 64 then Q b q ⟨k.val, h⟩ else 0)
    (hR : ∀ k : Fin 128, R k = if h : k.val < 64 then K b n ⟨k.val, h⟩ else 0) :
    ((∑ k, P k * R k) + (Sh b q n + Sw b q n)) * Ideal.ofBits .f32 0x3E000000#32 = score Q K Sh Sw b q n := by
  rw [sum_mul_pad (Q b q) (K b n) P R hP hR, scale_eq]
  rfl

/-! ### Realness of projections and scores -/

/-- A projection of real features against real weights and a real bias is real. -/
theorem proj_real (x : Fin 2 → Fin 4096 → Fin 512 → EReal) (w : Fin 64 → Fin 512 → EReal) (c : Fin 64 → EReal)
    (hx : ∀ b n d, ∃ r : ℝ, x b n d = (r : EReal)) (hw : ∀ k d, ∃ r : ℝ, w k d = (r : EReal))
    (hc : ∀ k, ∃ r : ℝ, c k = (r : EReal)) (b : Fin 2) (n : Fin 4096) (k : Fin 64) :
    ∃ r : ℝ, proj x w c b n k = (r : EReal) := by
  choose X hX using hx
  choose W hW using hw
  choose C hC using hc
  refine ⟨(∑ d, X b n d * W k d) + C k, ?_⟩
  simp only [proj, hX, hW, hC, EReal.coe_add, coe_sum, EReal.coe_mul]

/-- A score of real queries, keys and biases is real. -/
theorem score_real (Q K : Fin 2 → Fin 4096 → Fin 64 → EReal) (Sh Sw : Fin 2 → Fin 4096 → Fin 4096 → EReal)
    (hQ : ∀ b n k, ∃ r : ℝ, Q b n k = (r : EReal)) (hK : ∀ b n k, ∃ r : ℝ, K b n k = (r : EReal))
    (hSh : ∀ b q n, ∃ r : ℝ, Sh b q n = (r : EReal)) (hSw : ∀ b q n, ∃ r : ℝ, Sw b q n = (r : EReal))
    (b : Fin 2) (q n : Fin 4096) : ∃ r : ℝ, score Q K Sh Sw b q n = (r : EReal) := by
  choose Q' hQ' using hQ
  choose K' hK' using hK
  choose Sh' hSh' using hSh
  choose Sw' hSw' using hSw
  refine ⟨(((∑ k, Q' b q k * K' b n k) + Sh' b q n) + Sw' b q n) * (1 / 8 : ℝ), ?_⟩
  simp only [score, sqrt_headDim, Ideal.div_coe (by norm_num : (8 : ℝ) ≠ 0), hQ', hK', hSh', hSw',
    EReal.coe_mul, EReal.coe_add, coe_sum]

/-! ### The online recurrence over J blocks of B is the softmax average over J * B -/

/-- Block j of a row of J * B real numbers: entries j * B, ..., j * B + B - 1 (and 0 past the last block). -/
def blocks {J B : ℕ} (f : Fin (J * B) → ℝ) (j : ℕ) (n : Fin B) : ℝ :=
  if h : j < J then f ⟨j * B + n, block_index_lt h n⟩ else 0

/-- An index j * B + n below J * B lies in a block j below J. -/
theorem block_lt_of_index_lt {J B j : ℕ} (n : Fin B) (h : j * B + n < J * B) : j < J :=
  Nat.lt_of_mul_lt_mul_right (lt_of_le_of_lt (Nat.le_add_right _ _) h)

/-- Entry n of block j is entry j * B + n of the row. -/
theorem blocks_apply {J B : ℕ} (f : Fin (J * B) → ℝ) (j : ℕ) (n : Fin B) (hjn : j * B + n < J * B) :
    blocks f j n = f ⟨j * B + n, hjn⟩ := by
  simp [blocks, block_lt_of_index_lt n hjn]

/-- The recurrence over J blocks only reads the first J blocks. -/
theorem run_congr {B : ℕ} (s s' v v' : ℕ → Fin B → EReal) (J : ℕ)
    (hs : ∀ j, j < J → s j = s' j) (hv : ∀ j, j < J → v j = v' j) : run s v J = run s' v' J := by
  induction J with
  | zero => rfl
  | succ J ih =>
    show step (s J) (v J) (run s v J) = step (s' J) (v' J) (run s' v' J)
    rw [hs J (Nat.lt_succ_self J), hv J (Nat.lt_succ_self J),
      ih (fun j hj => hs j (Nat.lt_succ_of_lt hj)) (fun j hj => hv j (Nat.lt_succ_of_lt hj))]

/-- Real scores Sc and values Vv on Fin (J * B), and any real block functions S V that agree with them on the
    J blocks: accumulator / normaliser after J blocks is the softmax average over all J * B entries. -/
theorem online_eq_softmax_real {J B : ℕ} (hJ : 0 < J) (hB : 0 < B) (Sc Vv : Fin (J * B) → ℝ)
    (S V : ℕ → Fin B → ℝ)
    (hS : ∀ (j : ℕ) (n : Fin B) (h : j * B + n < J * B), S j n = Sc ⟨j * B + n, h⟩)
    (hV : ∀ (j : ℕ) (n : Fin B) (h : j * B + n < J * B), V j n = Vv ⟨j * B + n, h⟩) :
    Ideal.div (run (fun j n => (S j n : EReal)) (fun j n => (V j n : EReal)) J).2.2
        (run (fun j n => (S j n : EReal)) (fun j n => (V j n : EReal)) J).2.1
      = ∑ i : Fin (J * B),
          Ideal.div (Ideal.exp ((Sc i : EReal) - Finset.univ.sup fun i' => (Sc i' : EReal)))
            (∑ i' : Fin (J * B), Ideal.exp ((Sc i' : EReal) - Finset.univ.sup fun i'' => (Sc i'' : EReal)))
          * (Vv i : EReal) := by
  have hsup : (Finset.univ.sup fun i : Fin (J * B) => (Sc i : EReal))
      = (Finset.range J).sup fun j => Finset.univ.sup fun n : Fin B => (S j n : EReal) :=
    regroup_sup (fun i => (Sc i : EReal)) (fun j n => (S j n : EReal))
      (fun j n hjn => by rw [hS j n hjn])
  rw [run_eq_softmax hB S V J hJ, ← hsup]
  have hden : (∑ i' : Fin (J * B), Ideal.exp ((Sc i' : EReal) - Finset.univ.sup fun i'' => (Sc i'' : EReal)))
      = ∑ j' ∈ Finset.range J, ∑ n' : Fin B,
          Ideal.exp ((S j' n' : EReal) - Finset.univ.sup fun i'' => (Sc i'' : EReal)) :=
    regroup_sum _ _ (fun j n hjn => by rw [hS j n hjn])
  rw [← hden]
  exact (regroup_sum _ _ (fun j n hjn => by rw [hS j n hjn, hV j n hjn])).symm

/-- The same with the blocks cut out of the row itself. -/
theorem online_eq_softmax_blocks {J B : ℕ} (hJ : 0 < J) (hB : 0 < B) (Sc Vv : Fin (J * B) → ℝ) :
    Ideal.div (run (fun j n => (blocks Sc j n : EReal)) (fun j n => (blocks Vv j n : EReal)) J).2.2
        (run (fun j n => (blocks Sc j n : EReal)) (fun j n => (blocks Vv j n : EReal)) J).2.1
      = ∑ i : Fin (J * B),
          Ideal.div (Ideal.exp ((Sc i : EReal) - Finset.univ.sup fun i' => (Sc i' : EReal)))
            (∑ i' : Fin (J * B), Ideal.exp ((Sc i' : EReal) - Finset.univ.sup fun i'' => (Sc i'' : EReal)))
          * (Vv i : EReal) :=
  online_eq_softmax_real hJ hB Sc Vv (blocks Sc) (blocks Vv) (blocks_apply Sc) (blocks_apply Vv)

/-- The same stated on the extended reals: a row s of scores and a row v of values, every entry real, and any
    block functions S V on the extended reals that agree with them on the J blocks. -/
theorem online_eq_softmax {J B : ℕ} (hJ : 0 < J) (hB : 0 < B) (s v : Fin (J * B) → EReal)
    (hs : ∀ i, ∃ r : ℝ, s i = (r : EReal)) (hv : ∀ i, ∃ r : ℝ, v i = (r : EReal))
    (S V : ℕ → Fin B → EReal)
    (hS : ∀ (j : ℕ) (n : Fin B) (h : j * B + n < J * B), S j n = s ⟨j * B + n, h⟩)
    (hV : ∀ (j : ℕ) (n : Fin B) (h : j * B + n < J * B), V j n = v ⟨j * B + n, h⟩) :
    Ideal.div (run S V J).2.2 (run S V J).2.1
      = ∑ i : Fin (J * B),
          Ideal.div (Ideal.exp (s i - Finset.univ.sup s)) (∑ i' : Fin (J * B), Ideal.exp (s i' - Finset.univ.sup s))
          * v i := by
  choose Sc hSc using hs
  choose Vv hVv using hv
  obtain rfl : s = fun i => (Sc i : EReal) := funext hSc
  obtain rfl : v = fun i => (Vv i : EReal) := funext hVv
  have hrun : run S V J
      = run (fun j n => (blocks Sc j n : EReal)) (fun j n => (blocks Vv j n : EReal)) J :=
    run_congr _ _ _ _ J
      (fun j hj => funext fun n => by
        rw [hS j n (block_index_lt hj n), blocks_apply Sc j n (block_index_lt hj n)])
      (fun j hj => funext fun n => by
        rw [hV j n (block_index_lt hj n), blocks_apply Vv j n (block_index_lt hj n)])
  rw [hrun]
  exact online_eq_softmax_blocks hJ hB Sc Vv

/-! ### Four blocks of 1024 keys: the specification's weights -/

/-- J = 4, B = 1024 on real rows (Fin 4096 is Fin (4 * 1024) by computation). -/
theorem attend_online_real (Sc Vv : Fin 4096 → ℝ) (S V : ℕ → Fin 1024 → ℝ)
    (hS : ∀ (j : ℕ) (n : Fin 1024) (h : j * 1024 + n < 4096), S j n = Sc ⟨j * 1024 + n, h⟩)
    (hV : ∀ (j : ℕ) (n : Fin 1024) (h : j * 1024 + n < 4096), V j n = Vv ⟨j * 1024 + n, h⟩) :
    Ideal.div (run (fun j n => (S j n : EReal)) (fun j n => (V j n : EReal)) 4).2.2
        (run (fun j n => (S j n : EReal)) (fun j n => (V j n : EReal)) 4).2.1
      = ∑ n : Fin 4096, weight (fun n => (Sc n : EReal)) n * (Vv n : EReal) :=
  online_eq_softmax_real (J := 4) (B := 1024) (by norm_num) (by norm_num) Sc Vv S V hS hV

/-- J = 4, B = 1024 on the extended reals, every entry of the two rows real. -/
theorem attend_online (s v : Fin 4096 → EReal)
    (hs : ∀ i, ∃ r : ℝ, s i = (r : EReal)) (hv : ∀ i, ∃ r : ℝ, v i = (r : EReal))
    (S V : ℕ → Fin 1024 → EReal)
    (hS : ∀ (j : ℕ) (n : Fin 1024) (h : j * 1024 + n < 4096), S j n = s ⟨j * 1024 + n, h⟩)
    (hV : ∀ (j : ℕ) (n : Fin 1024) (h : j * 1024 + n < 4096), V j n = v ⟨j * 1024 + n, h⟩) :
    Ideal.div (run S V 4).2.2 (run S V 4).2.1 = ∑ n : Fin 4096, weight s n * v n :=
  online_eq_softmax (J := 4) (B := 1024) (by norm_num) (by norm_num) s v hs hv S V hS hV

/-! ### The layer -/

/-- The layer, one level unfolded. -/
theorem layer_eq (x : Fin 2 → Fin 4096 → Fin 512 → EReal) (Sh Sw : Fin 2 → Fin 4096 → Fin 4096 → EReal)
    (wq : Fin 64 → Fin 512 → EReal) (bq : Fin 64 → EReal) (wk : Fin 64 → Fin 512 → EReal) (bk : Fin 64 → EReal)
    (wv : Fin 64 → Fin 512 → EReal) (bv : Fin 64 → EReal) (b : Fin 2) (q : Fin 4096) (k : Fin 64) :
    layer x Sh Sw wq bq wk bk wv bv b q k
      = ∑ n : Fin 4096, weight (score (proj x wq bq) (proj x wk bk) Sh Sw b q) n * proj x wv bv b n k :=
  rfl

/-- The layer on real inputs is accumulator / normaliser of the online recurrence over 4 blocks of 1024 keys, for
    any block functions that agree with the row of scores of (b, q) and with feature k of the value projection. -/
theorem layer_eq_online (x : Fin 2 → Fin 4096 → Fin 512 → EReal) (Sh Sw : Fin 2 → Fin 4096 → Fin 4096 → EReal)
    (wq : Fin 64 → Fin 512 → EReal) (bq : Fin 64 → EReal) (wk : Fin 64 → Fin 512 → EReal) (bk : Fin 64 → EReal)
    (wv : Fin 64 → Fin 512 → EReal) (bv : Fin 64 → EReal)
    (hx : ∀ b n d, ∃ r : ℝ, x b n d = (r : EReal))
    (hSh : ∀ b q n, ∃ r : ℝ, Sh b q n = (r : EReal)) (hSw : ∀ b q n, ∃ r : ℝ, Sw b q n = (r : EReal))
    (hwq : ∀ k d, ∃ r : ℝ, wq k d = (r : EReal)) (hbq : ∀ k, ∃ r : ℝ, bq k = (r : EReal))
    (hwk : ∀ k d, ∃ r : ℝ, wk k d = (r : EReal)) (hbk : ∀ k, ∃ r : ℝ, bk k = (r : EReal))
    (hwv : ∀ k d, ∃ r : ℝ, wv k d = (r : EReal)) (hbv : ∀ k, ∃ r : ℝ, bv k = (r : EReal))
    (b : Fin 2) (q : Fin 4096) (k : Fin 64) (S V : ℕ → Fin 1024 → EReal)
    (hS : ∀ (j : ℕ) (n : Fin 1024) (h : j * 1024 + n < 4096),
      S j n = score (proj x wq bq) (proj x wk bk) Sh Sw b q ⟨j * 1024 + n, h⟩)
    (hV : ∀ (j : ℕ) (n : Fin 1024) (h : j * 1024 + n < 4096), V j n = proj x wv bv b ⟨j * 1024 + n, h⟩ k) :
    layer x Sh Sw wq bq wk bk wv bv b q k = Ideal.div (run S V 4).2.2 (run S V 4).2.1 :=
  (attend_online (score (proj x wq bq) (proj x wk bk) Sh Sw b q) (fun n => proj x wv bv b n k)
    (fun n => score_real _ _ Sh Sw (proj_real x wq bq hx hwq hbq) (proj_real x wk bk hx hwk hbk) hSh hSw b q n)
    (fun n => proj_real x wv bv hx hwv hbv b n k) S V hS hV).symm

end Cert.Attention

end
-- ==== Proof.ScoreBlock.lean ====
/-
  The attention region's tiles, in terms of the launch arguments.

  The attention region is entered with the three arrays the projection region wrote — queries, keys, values, each
  [2, 4096, 128], the 64 projected features padded with zeros to 128 — and with the two bias arrays as launched. At a
  grid point (batch b, query tile i, key tile j) the tile's score of query row r against key n,
  (q . k over the 128 padded features + (Sh + Sw)) * 0.125, is therefore the specification's score of query
  1024 i + r against key 1024 j + n of batch b: the 64 extra products are 0, + is associative on the extended reals, and
  * 0.125 is / sqrt 64. The tile's value column k is feature k of the value projection of the keys 1024 j + n when
  k < 64, and 0 past 64.

  What the projection region leaves in its three output arrays is taken as a hypothesis (hQ, hK, hV), for any features
  X, weights and biases: entry (b, n, k) is the projection's feature k when k < 64 and 0 otherwise.
-/
import proofs.«121072_j35897336660236_2_alg».proof.Proof.WholeRun
import proofs.«121072_j35897336660236_2_alg».proof.Proof.FlashOnline
import proofs.«121072_j35897336660236_2_alg».proof.Proof.FlashValue
import proofs.«121072_j35897336660236_2_alg».proof.Proof.HostGlue
import proofs.«121072_j35897336660236_2_alg».proof.Proof.AttentionAlgebra

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL.Sem
open Cert.Attention

variable (m : (ℓ : Loc nD τ sig) → Buf (Elt Ideal) ℓ) (c : Dev nD)

/-! ## The two biases as launched -/

/-- The first additive bias, as launched: entry (b, q, n) of the second argument array. -/
def argSh : Fin 2 → Fin 4096 → Fin 4096 → EReal :=
  fun b q n => (m ((c : Thread nD τ).loc main_arg1) (ix3 b q n) : EReal)

/-- The second additive bias, as launched: entry (b, q, n) of the third argument array. -/
def argSw : Fin 2 → Fin 4096 → Fin 4096 → EReal :=
  fun b q n => (m ((c : Thread nD τ).loc main_arg2) (ix3 b q n) : EReal)

/-- (s2) The attention region finds the first bias as launched: neither the host prefix nor the projection region
    writes it. -/
theorem In1_sh (b : Fin 2) (q n : Fin 4096) :
    (In1 m c main_arg1 : S2x4096x4096.Idx → EReal) (ix3 b q n) = argSh m c b q n :=
  congrFun ((Mid_of_ne m c main_arg1 (by decide)).trans (HostGlue.V12_main_arg1 m c)) (ix3 b q n)

/-- It finds the second bias as launched. -/
theorem In1_sw (b : Fin 2) (q n : Fin 4096) :
    (In1 m c main_arg2 : S2x4096x4096.Idx → EReal) (ix3 b q n) = argSw m c b q n :=
  congrFun ((Mid_of_ne m c main_arg2 (by decide)).trans (HostGlue.V12_main_arg2 m c)) (ix3 b q n)

/-! ## The three projected arrays -/

section Projected
variable (X : Fin 2 → Fin 4096 → Fin 512 → EReal) (W : Fin 64 → Fin 512 → EReal) (B : Fin 64 → EReal)

/-- (s1) The attention region finds, as its query array, what the projection region wrote into its first output. -/
theorem In1_q
    (hQ : ∀ (b : Fin 2) (n : Fin 4096) (k : Fin 128),
      ((Qkv.dat0 (In0 m) c).arrAt 7 cfg0.N : S2x4096x128.Idx → EReal) (ix3 b n k)
        = if h : k.val < 64 then proj X W B b n ⟨k.val, h⟩ else 0)
    (b : Fin 2) (n : Fin 4096) (k : Fin 128) :
    (In1 m c main_v6_0 : S2x4096x128.Idx → EReal) (ix3 b n k)
      = if h : k.val < 64 then proj X W B b n ⟨k.val, h⟩ else 0 :=
  (congrFun (Mid_arr m c 7) (ix3 b n k)).trans (hQ b n k)

/-- As its key array, the second output. -/
theorem In1_k
    (hK : ∀ (b : Fin 2) (n : Fin 4096) (k : Fin 128),
      ((Qkv.dat0 (In0 m) c).arrAt 8 cfg0.N : S2x4096x128.Idx → EReal) (ix3 b n k)
        = if h : k.val < 64 then proj X W B b n ⟨k.val, h⟩ else 0)
    (b : Fin 2) (n : Fin 4096) (k : Fin 128) :
    (In1 m c main_v6_1 : S2x4096x128.Idx → EReal) (ix3 b n k)
      = if h : k.val < 64 then proj X W B b n ⟨k.val, h⟩ else 0 :=
  (congrFun (Mid_arr m c 8) (ix3 b n k)).trans (hK b n k)

/-- As its value array, the third output. -/
theorem In1_v
    (hV : ∀ (b : Fin 2) (n : Fin 4096) (k : Fin 128),
      ((Qkv.dat0 (In0 m) c).arrAt 9 cfg0.N : S2x4096x128.Idx → EReal) (ix3 b n k)
        = if h : k.val < 64 then proj X W B b n ⟨k.val, h⟩ else 0)
    (b : Fin 2) (n : Fin 4096) (k : Fin 128) :
    (In1 m c main_v6_2 : S2x4096x128.Idx → EReal) (ix3 b n k)
      = if h : k.val < 64 then proj X W B b n ⟨k.val, h⟩ else 0 :=
  (congrFun (Mid_arr m c 9) (ix3 b n k)).trans (hV b n k)

end Projected

/-! ## A tile's scores and value columns -/

section Tiles
variable (X : Fin 2 → Fin 4096 → Fin 512 → EReal)
  (Wq : Fin 64 → Fin 512 → EReal) (Bq : Fin 64 → EReal) (Wk : Fin 64 → Fin 512 → EReal) (Bk : Fin 64 → EReal)
  (Wv : Fin 64 → Fin 512 → EReal) (Bv : Fin 64 → EReal)

/-- (s3) THE TILE'S SCORE at point t, query row r, key n, is the specification's score of query 1024 i + r against key
    1024 j + n of the point's batch (i the query tile, j the key tile). -/
theorem tileS_eq
    (hQ : ∀ (b : Fin 2) (n : Fin 4096) (k : Fin 128),
      ((Qkv.dat0 (In0 m) c).arrAt 7 cfg0.N : S2x4096x128.Idx → EReal) (ix3 b n k)
        = if h : k.val < 64 then proj X Wq Bq b n ⟨k.val, h⟩ else 0)
    (hK : ∀ (b : Fin 2) (n : Fin 4096) (k : Fin 128),
      ((Qkv.dat0 (In0 m) c).arrAt 8 cfg0.N : S2x4096x128.Idx → EReal) (ix3 b n k)
        = if h : k.val < 64 then proj X Wk Bk b n ⟨k.val, h⟩ else 0)
    (t : Fin cfg1.N) (r n : Fin 1024) :
    Flash.tileS (In1 m) c t r n
      = score (proj X Wq Bq) (proj X Wk Bk) (argSh m c) (argSw m c)
          (Flash.batchOf t) (Flash.rowIn (Flash.qTile t) r) (Flash.rowIn (Flash.kTile t) n) := by
  unfold Flash.tileS Tile.tileScore
  rw [Flash.iblk_3_ix (In1 m) c t r n, Flash.iblk_4_ix (In1 m) c t r n, In1_sh m c, In1_sw m c]
  exact score_padded (proj X Wq Bq) (proj X Wk Bk) (argSh m c) (argSw m c)
    (Flash.batchOf t) (Flash.rowIn (Flash.qTile t) r) (Flash.rowIn (Flash.kTile t) n)
    (fun k' => (Flash.iblk (In1 m) c 0 t : Vec Ideal S1x1024x128 .bf16) (ix3 (0 : Fin 1) r k'))
    (fun k' => (Flash.iblk (In1 m) c 1 t : Vec Ideal S1x1024x128 .bf16) (ix3 (0 : Fin 1) n k'))
    (fun k' => by rw [Flash.iblk_0_ix (In1 m) c t r k', In1_q m c X Wq Bq hQ])
    (fun k' => by rw [Flash.iblk_1_ix (In1 m) c t n k', In1_k m c X Wk Bk hK])

/-- (s4) THE TILE'S VALUE COLUMN k at point t, key n, is feature k of the value projection of key 1024 j + n of the
    point's batch when k < 64, and 0 past 64. -/
theorem tileV_eq
    (hV : ∀ (b : Fin 2) (n : Fin 4096) (k : Fin 128),
      ((Qkv.dat0 (In0 m) c).arrAt 9 cfg0.N : S2x4096x128.Idx → EReal) (ix3 b n k)
        = if h : k.val < 64 then proj X Wv Bv b n ⟨k.val, h⟩ else 0)
    (t : Fin cfg1.N) (k : Fin 128) (n : Fin 1024) :
    Flash.tileV (In1 m) c t k n
      = if h : k.val < 64 then proj X Wv Bv (Flash.batchOf t) (Flash.rowIn (Flash.kTile t) n) ⟨k.val, h⟩ else 0 := by
  unfold Flash.tileV
  rw [Flash.iblk_2_ix (In1 m) c t n k, In1_v m c X Wv Bv hV]

end Tiles

/-- info: 'Cert.KernelIdeal.Whole.tileS_eq' depends on axioms: [propext, Classical.choice, Quot.sound] -/
#guard_msgs in #print axioms tileS_eq
/-- info: 'Cert.KernelIdeal.Whole.tileV_eq' depends on axioms: [propext, Classical.choice, Quot.sound] -/
#guard_msgs in #print axioms tileV_eq

end Cert.KernelIdeal.Whole

end
-- ==== Proof.QkvValue.lean ====
/- REGION 0's value leg, from blocks to arrays: what the projection kernel's three output arrays hold after the region, each as
   ONE function of the buffer contents the region finds (`V`), and the seven input arrays, unchanged.

   The grid is 2 batches by 4 row tiles, the points numbered batch-major. At the point (b, i) an output's block is rows
   `1024 i … 1024 i + 1023` of batch `b` (all 128 columns), so the blocks tile the [2, 4096, 128] array exactly and every point
   writes its block back: the array index `(b, n, k)` is written once, by the point `4 b + n / 1024`, from entry `(0, n % 1024, k)`
   of what the body left in the buffer there — `Qarr`, `Karr`, `Varr`, and `final7`, `final8`, `final9`. The feature window
   moves the same way over the [2, 4096, 512] feature array (`iblk0_0_apply`), and a weight's or a bias's block is its whole
   array at every point (`iblk0_W_eq`). An input's array is never written back (`arrAt_inW`). -/
import proofs.«121072_j35897336660236_2_alg».proof.Proof.QkvRegion
import Idealize.ShloMosaic.Lib.Pipeline.Value
import Idealize.ShloMosaic.Lib.ValueIdx

set_option maxRecDepth 16384

noncomputable section

namespace Cert.KernelIdeal.Qkv

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## From an index of an output array to the grid point that writes it

The grid is 2 batches by 4 row tiles, numbered batch-major; an output's block at the point (b, i) is rows
`1024 i … 1024 i + 1023` of batch `b`, all 128 columns. So row `n` of batch `b` is written by the point `4 b + n / 1024`, at row
`n % 1024` of its block. -/

theorem hz3 : (![0, 0, 0] : Fin 3 → Nat) = fun _ => 0 := funext fun a => by fin_cases a <;> rfl

/-- The grid point whose output block holds the array index `i = (b, n, k)`: the point `4 b + n / 1024`. -/
def ptOf (i : S2x4096x128.Idx) : Fin cfg0.N :=
  ⟨(i 0).val * 4 + (i 1).val / 1024, by
    have h0 : (i 0).val < 2 := (i 0).isLt
    have h1 : (i 1).val < 4096 := (i 1).isLt
    show _ < grid0.N
    rw [N_0]; omega⟩

/-- and the place of that index inside the block: `(0, n % 1024, k)`. -/
def rowOf (i : S2x4096x128.Idx) : S1x1024x128.Idx :=
  ix3 (0 : Fin 1) (⟨(i 1).val % 1024, Nat.mod_lt _ (by decide)⟩ : Fin 1024) (i 2)

theorem ptOf_val (i : S2x4096x128.Idx) : (ptOf i).val = (i 0).val * 4 + (i 1).val / 1024 := rfl

/-! ## Output window 7: the query array -/

/-- What the body leaves in window 7's buffer at point `t`: the query block of the point's input blocks. -/
def qBlk (c : Dev nD) (t : Fin cfg0.N) : Vec F S1x1024x128 .bf16 :=
  out0_7 (iblk0 V c 0 t) (iblk0 V c 1 t) (iblk0 V c 2 t)

/-- THE QUERY ARRAY as one function of the region-entry contents: at `(b, n, k)`, entry `(0, n % 1024, k)` of the query
    block of the point `4 b + n / 1024`. -/
def Qarr (c : Dev nD) : S2x4096x128.Idx → Elt F .bf16 :=
  fun i => qBlk V c (ptOf i) (rowOf i)

/-- The printed index map of window 7, decided over the grid: the block index is (batch, row tile, 0), and the point's
    number is `4 · batch + row tile`. -/
theorem idx_facts7 : ∀ t : Fin cfg0.N, win0_7.index t (0 : Fin 3) * 4 + win0_7.index t (1 : Fin 3) = t.val
    ∧ win0_7.index t (0 : Fin 3) ≤ 1 ∧ win0_7.index t (1 : Fin 3) ≤ 3 ∧ win0_7.index t (2 : Fin 3) = 0 :=
  (by decide +kernel : ∀ t : Fin grid0.N, _)

/-- An uncut window writes back all of its buffer; -/
theorem cut7_apply (t : Fin cfg0.N) (X : Vec F S1x1024x128 .bf16) (j : S1x1024x128.Idx) :
    (cfg0.win 7).cut (grid0.coords t) X j = X j := rfl

/-- a read through the block at `t` reads the array at the block's embedding; -/
theorem read7_apply (t : Fin cfg0.N) (G : S2x4096x128.Idx → Elt F .bf16) (j : S1x1024x128.Idx) :
    ((cfg0.win 7).blk t).view.read (Elt F) G j = G (((cfg0.win 7).blk t).view.emb j) := rfl

/-- and the embedding is, on each axis, block index × block size + the coordinate inside the block. -/
theorem emb7_val (t : Fin cfg0.N) (j : S1x1024x128.Idx) :
    ((((cfg0.win 7).blk t).view.emb j : S2x4096x128.Idx) 0).val = win0_7.index t (0 : Fin 3) * 1 + 1 * (j 0).val
    ∧ ((((cfg0.win 7).blk t).view.emb j : S2x4096x128.Idx) 1).val = win0_7.index t (1 : Fin 3) * 1024 + 1 * (j 1).val
    ∧ ((((cfg0.win 7).blk t).view.emb j : S2x4096x128.Idx) 2).val = win0_7.index t (2 : Fin 3) * 128 + 1 * (j 2).val :=
  ⟨rfl, rfl, rfl⟩

/-- WHAT POINT `t` WRITES BACK is block `t` of `Qarr`: an index of block `t` is sent back to the point `t` and to its
    own place in the block. -/
theorem flushed7_eq (c : Dev nD) (t : Fin cfg0.N) :
    (dat0 V c).flushed 7 t = ((cfg0.win 7).blk t).view.read (Elt F) (Qarr V c) := by
  show (cfg0.win 7).cut (grid0.coords t) ((dat0 V c).after 7 t) = _
  rw [after0_7]
  funext j
  refine (cut7_apply t _ j).trans ?_
  refine Eq.trans ?_ (read7_apply t (Qarr V c) j).symm
  show qBlk V c t j = _
  unfold Qarr
  obtain ⟨e0, e1, e2, e3⟩ := idx_facts7 t
  obtain ⟨m0, m1, m2⟩ := emb7_val t j
  have hj0 : (j 0).val < 1 := (j 0).isLt
  have hj1 : (j 1).val < 1024 := (j 1).isLt
  have hp : ptOf (((cfg0.win 7).blk t).view.emb j) = t := by
    apply Fin.ext
    rw [ptOf_val, m0, m1]
    omega
  have hr : rowOf (((cfg0.win 7).blk t).view.emb j) = j := by
    funext a; apply Fin.ext
    match a with
    | ⟨0, _⟩ => show 0 = (j 0).val; omega
    | ⟨1, _⟩ => show ((((cfg0.win 7).blk t).view.emb j : S2x4096x128.Idx) 1).val % 1024 = (j 1).val; rw [m1]; omega
    | ⟨2, _⟩ => show ((((cfg0.win 7).blk t).view.emb j : S2x4096x128.Idx) 2).val = (j 2).val; rw [m2]; omega
  rw [hp, hr]

/-- An index of the array is in point `t`'s block iff each coordinate is in the block's range on its axis. -/
theorem mem_blk7 (t : Fin cfg0.N) (i : S2x4096x128.Idx) :
    i ∈ ((cfg0.win 7).blk t).view.set ↔ ∀ a : Fin 3, win0_7.index t a * S1x1024x128.size a ≤ (i a).val ∧ (i a).val < win0_7.index t a * S1x1024x128.size a + S1x1024x128.size a := by
  show i ∈ ((View.whole main_v6_0).slice (win0_7.rect t)).set ↔ _
  rw [View.set_slice_whole, Rect.mem_set_unit]
  exact Iff.rfl

/-- Every index of the array is in the block of the point `4 b + n / 1024`, which writes back. -/
theorem cover7 (i : S2x4096x128.Idx) :
    ∃ t : Fin cfg0.N, (cfg0.win 7).flush t = true ∧ i ∈ ((cfg0.win 7).blk t).view.set := by
  obtain ⟨t, ht⟩ : ∃ t : Fin cfg0.N, t.val = (i 0).val * 4 + (i 1).val / 1024 := ⟨ptOf i, rfl⟩
  refine ⟨t, flush0_7 t, ?_⟩
  rw [mem_blk7]
  obtain ⟨e0, e1, e2, e3⟩ := idx_facts7 t
  have h0 : (i 0).val < 2 := (i 0).isLt
  have h1 : (i 1).val < 4096 := (i 1).isLt
  have h2 : (i 2).val < 128 := (i 2).isLt
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 128 ≤ (i 2).val ∧ (i 2).val < win0_7.index t (2 : Fin 3) * 128 + 128; omega

/-- THE QUERY ARRAY after the region: `Qarr` of the region-entry contents. -/
theorem final7 (c : Dev nD) : (dat0 V c).arrAt 7 cfg0.N = Qarr V c :=
  (dat0 V c).arrAt_eq_of_cover 7 (Qarr V c) (fun t _ => flushed7_eq V c t) cover7

/-! ## Output window 8: the key array -/

/-- What the body leaves in window 8's buffer at point `t`: the key block of the point's input blocks. -/
def kBlk (c : Dev nD) (t : Fin cfg0.N) : Vec F S1x1024x128 .bf16 :=
  out0_8 (iblk0 V c 0 t) (iblk0 V c 3 t) (iblk0 V c 4 t)

/-- THE KEY ARRAY as one function of the region-entry contents: at `(b, n, k)`, entry `(0, n % 1024, k)` of the key
    block of the point `4 b + n / 1024`. -/
def Karr (c : Dev nD) : S2x4096x128.Idx → Elt F .bf16 :=
  fun i => kBlk V c (ptOf i) (rowOf i)

/-- The printed index map of window 8, decided over the grid: the block index is (batch, row tile, 0), and the point's
    number is `4 · batch + row tile`. -/
theorem idx_facts8 : ∀ t : Fin cfg0.N, win0_8.index t (0 : Fin 3) * 4 + win0_8.index t (1 : Fin 3) = t.val
    ∧ win0_8.index t (0 : Fin 3) ≤ 1 ∧ win0_8.index t (1 : Fin 3) ≤ 3 ∧ win0_8.index t (2 : Fin 3) = 0 :=
  (by decide +kernel : ∀ t : Fin grid0.N, _)

/-- An uncut window writes back all of its buffer; -/
theorem cut8_apply (t : Fin cfg0.N) (X : Vec F S1x1024x128 .bf16) (j : S1x1024x128.Idx) :
    (cfg0.win 8).cut (grid0.coords t) X j = X j := rfl

/-- a read through the block at `t` reads the array at the block's embedding; -/
theorem read8_apply (t : Fin cfg0.N) (G : S2x4096x128.Idx → Elt F .bf16) (j : S1x1024x128.Idx) :
    ((cfg0.win 8).blk t).view.read (Elt F) G j = G (((cfg0.win 8).blk t).view.emb j) := rfl

/-- and the embedding is, on each axis, block index × block size + the coordinate inside the block. -/
theorem emb8_val (t : Fin cfg0.N) (j : S1x1024x128.Idx) :
    ((((cfg0.win 8).blk t).view.emb j : S2x4096x128.Idx) 0).val = win0_8.index t (0 : Fin 3) * 1 + 1 * (j 0).val
    ∧ ((((cfg0.win 8).blk t).view.emb j : S2x4096x128.Idx) 1).val = win0_8.index t (1 : Fin 3) * 1024 + 1 * (j 1).val
    ∧ ((((cfg0.win 8).blk t).view.emb j : S2x4096x128.Idx) 2).val = win0_8.index t (2 : Fin 3) * 128 + 1 * (j 2).val :=
  ⟨rfl, rfl, rfl⟩

/-- WHAT POINT `t` WRITES BACK is block `t` of `Karr`: an index of block `t` is sent back to the point `t` and to its
    own place in the block. -/
theorem flushed8_eq (c : Dev nD) (t : Fin cfg0.N) :
    (dat0 V c).flushed 8 t = ((cfg0.win 8).blk t).view.read (Elt F) (Karr V c) := by
  show (cfg0.win 8).cut (grid0.coords t) ((dat0 V c).after 8 t) = _
  rw [after0_8]
  funext j
  refine (cut8_apply t _ j).trans ?_
  refine Eq.trans ?_ (read8_apply t (Karr V c) j).symm
  show kBlk V c t j = _
  unfold Karr
  obtain ⟨e0, e1, e2, e3⟩ := idx_facts8 t
  obtain ⟨m0, m1, m2⟩ := emb8_val t j
  have hj0 : (j 0).val < 1 := (j 0).isLt
  have hj1 : (j 1).val < 1024 := (j 1).isLt
  have hp : ptOf (((cfg0.win 8).blk t).view.emb j) = t := by
    apply Fin.ext
    rw [ptOf_val, m0, m1]
    omega
  have hr : rowOf (((cfg0.win 8).blk t).view.emb j) = j := by
    funext a; apply Fin.ext
    match a with
    | ⟨0, _⟩ => show 0 = (j 0).val; omega
    | ⟨1, _⟩ => show ((((cfg0.win 8).blk t).view.emb j : S2x4096x128.Idx) 1).val % 1024 = (j 1).val; rw [m1]; omega
    | ⟨2, _⟩ => show ((((cfg0.win 8).blk t).view.emb j : S2x4096x128.Idx) 2).val = (j 2).val; rw [m2]; omega
  rw [hp, hr]

/-- An index of the array is in point `t`'s block iff each coordinate is in the block's range on its axis. -/
theorem mem_blk8 (t : Fin cfg0.N) (i : S2x4096x128.Idx) :
    i ∈ ((cfg0.win 8).blk t).view.set ↔ ∀ a : Fin 3, win0_8.index t a * S1x1024x128.size a ≤ (i a).val ∧ (i a).val < win0_8.index t a * S1x1024x128.size a + S1x1024x128.size a := by
  show i ∈ ((View.whole main_v6_1).slice (win0_8.rect t)).set ↔ _
  rw [View.set_slice_whole, Rect.mem_set_unit]
  exact Iff.rfl

/-- Every index of the array is in the block of the point `4 b + n / 1024`, which writes back. -/
theorem cover8 (i : S2x4096x128.Idx) :
    ∃ t : Fin cfg0.N, (cfg0.win 8).flush t = true ∧ i ∈ ((cfg0.win 8).blk t).view.set := by
  obtain ⟨t, ht⟩ : ∃ t : Fin cfg0.N, t.val = (i 0).val * 4 + (i 1).val / 1024 := ⟨ptOf i, rfl⟩
  refine ⟨t, flush0_8 t, ?_⟩
  rw [mem_blk8]
  obtain ⟨e0, e1, e2, e3⟩ := idx_facts8 t
  have h0 : (i 0).val < 2 := (i 0).isLt
  have h1 : (i 1).val < 4096 := (i 1).isLt
  have h2 : (i 2).val < 128 := (i 2).isLt
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 128 ≤ (i 2).val ∧ (i 2).val < win0_8.index t (2 : Fin 3) * 128 + 128; omega

/-- THE KEY ARRAY after the region: `Karr` of the region-entry contents. -/
theorem final8 (c : Dev nD) : (dat0 V c).arrAt 8 cfg0.N = Karr V c :=
  (dat0 V c).arrAt_eq_of_cover 8 (Karr V c) (fun t _ => flushed8_eq V c t) cover8

/-! ## Output window 9: the value array -/

/-- What the body leaves in window 9's buffer at point `t`: the value block of the point's input blocks. -/
def vBlk (c : Dev nD) (t : Fin cfg0.N) : Vec F S1x1024x128 .bf16 :=
  out0_9 (iblk0 V c 0 t) (iblk0 V c 5 t) (iblk0 V c 6 t)

/-- THE VALUE ARRAY as one function of the region-entry contents: at `(b, n, k)`, entry `(0, n % 1024, k)` of the value
    block of the point `4 b + n / 1024`. -/
def Varr (c : Dev nD) : S2x4096x128.Idx → Elt F .bf16 :=
  fun i => vBlk V c (ptOf i) (rowOf i)

/-- The printed index map of window 9, decided over the grid: the block index is (batch, row tile, 0), and the point's
    number is `4 · batch + row tile`. -/
theorem idx_facts9 : ∀ t : Fin cfg0.N, win0_9.index t (0 : Fin 3) * 4 + win0_9.index t (1 : Fin 3) = t.val
    ∧ win0_9.index t (0 : Fin 3) ≤ 1 ∧ win0_9.index t (1 : Fin 3) ≤ 3 ∧ win0_9.index t (2 : Fin 3) = 0 :=
  (by decide +kernel : ∀ t : Fin grid0.N, _)

/-- An uncut window writes back all of its buffer; -/
theorem cut9_apply (t : Fin cfg0.N) (X : Vec F S1x1024x128 .bf16) (j : S1x1024x128.Idx) :
    (cfg0.win 9).cut (grid0.coords t) X j = X j := rfl

/-- a read through the block at `t` reads the array at the block's embedding; -/
theorem read9_apply (t : Fin cfg0.N) (G : S2x4096x128.Idx → Elt F .bf16) (j : S1x1024x128.Idx) :
    ((cfg0.win 9).blk t).view.read (Elt F) G j = G (((cfg0.win 9).blk t).view.emb j) := rfl

/-- and the embedding is, on each axis, block index × block size + the coordinate inside the block. -/
theorem emb9_val (t : Fin cfg0.N) (j : S1x1024x128.Idx) :
    ((((cfg0.win 9).blk t).view.emb j : S2x4096x128.Idx) 0).val = win0_9.index t (0 : Fin 3) * 1 + 1 * (j 0).val
    ∧ ((((cfg0.win 9).blk t).view.emb j : S2x4096x128.Idx) 1).val = win0_9.index t (1 : Fin 3) * 1024 + 1 * (j 1).val
    ∧ ((((cfg0.win 9).blk t).view.emb j : S2x4096x128.Idx) 2).val = win0_9.index t (2 : Fin 3) * 128 + 1 * (j 2).val :=
  ⟨rfl, rfl, rfl⟩

/-- WHAT POINT `t` WRITES BACK is block `t` of `Varr`: an index of block `t` is sent back to the point `t` and to its
    own place in the block. -/
theorem flushed9_eq (c : Dev nD) (t : Fin cfg0.N) :
    (dat0 V c).flushed 9 t = ((cfg0.win 9).blk t).view.read (Elt F) (Varr V c) := by
  show (cfg0.win 9).cut (grid0.coords t) ((dat0 V c).after 9 t) = _
  rw [after0_9]
  funext j
  refine (cut9_apply t _ j).trans ?_
  refine Eq.trans ?_ (read9_apply t (Varr V c) j).symm
  show vBlk V c t j = _
  unfold Varr
  obtain ⟨e0, e1, e2, e3⟩ := idx_facts9 t
  obtain ⟨m0, m1, m2⟩ := emb9_val t j
  have hj0 : (j 0).val < 1 := (j 0).isLt
  have hj1 : (j 1).val < 1024 := (j 1).isLt
  have hp : ptOf (((cfg0.win 9).blk t).view.emb j) = t := by
    apply Fin.ext
    rw [ptOf_val, m0, m1]
    omega
  have hr : rowOf (((cfg0.win 9).blk t).view.emb j) = j := by
    funext a; apply Fin.ext
    match a with
    | ⟨0, _⟩ => show 0 = (j 0).val; omega
    | ⟨1, _⟩ => show ((((cfg0.win 9).blk t).view.emb j : S2x4096x128.Idx) 1).val % 1024 = (j 1).val; rw [m1]; omega
    | ⟨2, _⟩ => show ((((cfg0.win 9).blk t).view.emb j : S2x4096x128.Idx) 2).val = (j 2).val; rw [m2]; omega
  rw [hp, hr]

/-- An index of the array is in point `t`'s block iff each coordinate is in the block's range on its axis. -/
theorem mem_blk9 (t : Fin cfg0.N) (i : S2x4096x128.Idx) :
    i ∈ ((cfg0.win 9).blk t).view.set ↔ ∀ a : Fin 3, win0_9.index t a * S1x1024x128.size a ≤ (i a).val ∧ (i a).val < win0_9.index t a * S1x1024x128.size a + S1x1024x128.size a := by
  show i ∈ ((View.whole main_v6_2).slice (win0_9.rect t)).set ↔ _
  rw [View.set_slice_whole, Rect.mem_set_unit]
  exact Iff.rfl

/-- Every index of the array is in the block of the point `4 b + n / 1024`, which writes back. -/
theorem cover9 (i : S2x4096x128.Idx) :
    ∃ t : Fin cfg0.N, (cfg0.win 9).flush t = true ∧ i ∈ ((cfg0.win 9).blk t).view.set := by
  obtain ⟨t, ht⟩ : ∃ t : Fin cfg0.N, t.val = (i 0).val * 4 + (i 1).val / 1024 := ⟨ptOf i, rfl⟩
  refine ⟨t, flush0_9 t, ?_⟩
  rw [mem_blk9]
  obtain ⟨e0, e1, e2, e3⟩ := idx_facts9 t
  have h0 : (i 0).val < 2 := (i 0).isLt
  have h1 : (i 1).val < 4096 := (i 1).isLt
  have h2 : (i 2).val < 128 := (i 2).isLt
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1024 ≤ (i 1).val ∧ (i 1).val < win0_9.index t (1 : Fin 3) * 1024 + 1024; omega
  | ⟨2, _⟩ => show win0_9.index t (2 : Fin 3) * 128 ≤ (i 2).val ∧ (i 2).val < win0_9.index t (2 : Fin 3) * 128 + 128; omega

/-- THE VALUE ARRAY after the region: `Varr` of the region-entry contents. -/
theorem final9 (c : Dev nD) : (dat0 V c).arrAt 9 cfg0.N = Varr V c :=
  (dat0 V c).arrAt_eq_of_cover 9 (Varr V c) (fun t _ => flushed9_eq V c t) cover9

/-! ## The input blocks, read at an index -/

/-- The printed index map of the feature window, decided over the grid: the block index is (batch, row tile, 0), and the
    point's number is `4 · batch + row tile`. -/
theorem idx_facts0 : ∀ t : Fin cfg0.N, win0_0.index t (0 : Fin 3) * 4 + win0_0.index t (1 : Fin 3) = t.val
    ∧ win0_0.index t (0 : Fin 3) ≤ 1 ∧ win0_0.index t (1 : Fin 3) ≤ 3 ∧ win0_0.index t (2 : Fin 3) = 0 :=
  (by decide +kernel : ∀ t : Fin grid0.N, _)

/-- The grid's coordinates of a point: batch and row tile, the point's number `4 · batch + row tile`; and the feature
    window's block index is those coordinates. -/
theorem coords_facts : ∀ t : Fin cfg0.N, (grid0.coords t (0 : Fin 2)).val * 4 + (grid0.coords t (1 : Fin 2)).val = t.val
    ∧ (grid0.coords t (0 : Fin 2)).val ≤ 1 ∧ (grid0.coords t (1 : Fin 2)).val ≤ 3
    ∧ win0_0.index t (0 : Fin 3) = (grid0.coords t (0 : Fin 2)).val ∧ win0_0.index t (1 : Fin 3) = (grid0.coords t (1 : Fin 2)).val :=
  (by decide +kernel : ∀ t : Fin grid0.N, _)

theorem read0_apply (t : Fin cfg0.N) (A : S2x4096x512.Idx → Elt F .f32) (x : S1x1024x512.Idx) :
    ((cfg0.win 0).blk t).view.read (Elt F) A x = A (((cfg0.win 0).blk t).view.emb x) := rfl

theorem emb0_val (t : Fin cfg0.N) (x : S1x1024x512.Idx) :
    ((((cfg0.win 0).blk t).view.emb x : S2x4096x512.Idx) 0).val = win0_0.index t (0 : Fin 3) * 1 + 1 * (x 0).val
    ∧ ((((cfg0.win 0).blk t).view.emb x : S2x4096x512.Idx) 1).val = win0_0.index t (1 : Fin 3) * 1024 + 1 * (x 1).val
    ∧ ((((cfg0.win 0).blk t).view.emb x : S2x4096x512.Idx) 2).val = win0_0.index t (2 : Fin 3) * 512 + 1 * (x 2).val :=
  ⟨rfl, rfl, rfl⟩

/-- THE FEATURE BLOCK at point `t`, at the block index `x = (0, r, d)`, is the feature array at `k = (b, n, d)` whenever
    `4 b + n / 1024` is the point's number and `n % 1024 = r`: rows `1024 i … 1024 i + 1023` of batch `b` at the point (b, i). -/
theorem iblk0_0_apply (c : Dev nD) (t : Fin cfg0.N) (x : S1x1024x512.Idx) (k : S2x4096x512.Idx)
    (hk0 : (k 0).val * 4 + (k 1).val / 1024 = t.val) (hk1 : (k 1).val % 1024 = (x 1).val) (hk2 : (k 2).val = (x 2).val) :
    (iblk0 V c 0 t : Vec F S1x1024x512 .f32) x = (V c (Pipeline.arrRef spec0 0) : S2x4096x512.Idx → Elt F .f32) k := by
  unfold iblk0
  refine (read0_apply t _ x).trans ?_
  obtain ⟨e0, e1, e2, e3⟩ := idx_facts0 t
  obtain ⟨m0, m1, m2⟩ := emb0_val t x
  have hx0 : (x 0).val < 1 := (x 0).isLt
  have hx1 : (x 1).val < 1024 := (x 1).isLt
  have hq0 : (k 0).val < 2 := (k 0).isLt
  have hq1 : (k 1).val < 4096 := (k 1).isLt
  have h : (((cfg0.win 0).blk t).view.emb x : S2x4096x512.Idx) = k := by
    funext a; apply Fin.ext
    match a with
    | ⟨0, _⟩ => show ((((cfg0.win 0).blk t).view.emb x : S2x4096x512.Idx) 0).val = (k 0).val; rw [m0]; omega
    | ⟨1, _⟩ => show ((((cfg0.win 0).blk t).view.emb x : S2x4096x512.Idx) 1).val = (k 1).val; rw [m1]; omega
    | ⟨2, _⟩ => show ((((cfg0.win 0).blk t).view.emb x : S2x4096x512.Idx) 2).val = (k 2).val; rw [m2]; omega
  rw [h]

/-- The same at the point that writes the output index `i = (b, n, ·)`, stated at a variable point `t` with the point's
    number given: the feature block's row `n % 1024` is row `n` of batch `b` of the feature array. -/
theorem iblk0_0_row (c : Dev nD) (i : S2x4096x128.Idx) (t : Fin cfg0.N) (ht : t.val = (i 0).val * 4 + (i 1).val / 1024) (d : Fin 512) :
    (iblk0 V c 0 t : Vec F S1x1024x512 .f32) (ix3 (0 : Fin 1) (⟨(i 1).val % 1024, Nat.mod_lt _ (by decide)⟩ : Fin 1024) d)
      = (V c (Pipeline.arrRef spec0 0) : S2x4096x512.Idx → Elt F .f32) (ix3 (⟨(i 0).val, (i 0).isLt⟩ : Fin 2) (⟨(i 1).val, (i 1).isLt⟩ : Fin 4096) d) :=
  iblk0_0_apply V c t _ _ ht.symm rfl rfl

/-- Window 1 (a weight) has the block index 0 at every point: its block is its whole array. -/
theorem idx_facts1 : ∀ t : Fin cfg0.N, win0_1.index t (0 : Fin 2) = 0 ∧ win0_1.index t (1 : Fin 2) = 0 :=
  (by decide +kernel : ∀ t : Fin grid0.N, _)

theorem read1_apply (t : Fin cfg0.N) (A : S128x512.Idx → Elt F .f32) (x : S128x512.Idx) :
    ((cfg0.win 1).blk t).view.read (Elt F) A x = A (((cfg0.win 1).blk t).view.emb x) := rfl

theorem emb1_val (t : Fin cfg0.N) (x : S128x512.Idx) :
    ((((cfg0.win 1).blk t).view.emb x : S128x512.Idx) 0).val = win0_1.index t (0 : Fin 2) * 128 + 1 * (x 0).val
    ∧ ((((cfg0.win 1).blk t).view.emb x : S128x512.Idx) 1).val = win0_1.index t (1 : Fin 2) * 512 + 1 * (x 1).val :=
  ⟨rfl, rfl⟩

/-- So window 1's block at every point IS its array as the region finds it. -/
theorem iblk0_1_eq (c : Dev nD) (t : Fin cfg0.N) :
    (iblk0 V c 1 t : Vec F S128x512 .f32) = (V c (Pipeline.arrRef spec0 1) : S128x512.Idx → Elt F .f32) := by
  funext x
  unfold iblk0
  refine (read1_apply t _ x).trans ?_
  obtain ⟨e0, e1⟩ := idx_facts1 t
  obtain ⟨m0, m1⟩ := emb1_val t x
  have h : (((cfg0.win 1).blk t).view.emb x : S128x512.Idx) = x := by
    funext a; apply Fin.ext
    match a with
    | ⟨0, _⟩ => show ((((cfg0.win 1).blk t).view.emb x : S128x512.Idx) 0).val = (x 0).val; rw [m0]; omega
    | ⟨1, _⟩ => show ((((cfg0.win 1).blk t).view.emb x : S128x512.Idx) 1).val = (x 1).val; rw [m1]; omega
  rw [h]

/-- Window 2 (a bias) has the block index 0 at every point: its block is its whole array. -/
theorem idx_facts2 : ∀ t : Fin cfg0.N, win0_2.index t (0 : Fin 1) = 0 :=
  (by decide +kernel : ∀ t : Fin grid0.N, _)

theorem read2_apply (t : Fin cfg0.N) (A : S128.Idx → Elt F .f32) (x : S128.Idx) :
    ((cfg0.win 2).blk t).view.read (Elt F) A x = A (((cfg0.win 2).blk t).view.emb x) := rfl

theorem emb2_val (t : Fin cfg0.N) (x : S128.Idx) :
    ((((cfg0.win 2).blk t).view.emb x : S128.Idx) 0).val = win0_2.index t (0 : Fin 1) * 128 + 1 * (x 0).val :=
  rfl

/-- So window 2's block at every point IS its array as the region finds it. -/
theorem iblk0_2_eq (c : Dev nD) (t : Fin cfg0.N) :
    (iblk0 V c 2 t : Vec F S128 .f32) = (V c (Pipeline.arrRef spec0 2) : S128.Idx → Elt F .f32) := by
  funext x
  unfold iblk0
  refine (read2_apply t _ x).trans ?_
  have e0 := idx_facts2 t
  have m0 := emb2_val t x
  have h : (((cfg0.win 2).blk t).view.emb x : S128.Idx) = x := by
    funext a; apply Fin.ext
    match a with
    | ⟨0, _⟩ => show ((((cfg0.win 2).blk t).view.emb x : S128.Idx) 0).val = (x 0).val; rw [m0]; omega
  rw [h]

/-- Window 3 (a weight) has the block index 0 at every point: its block is its whole array. -/
theorem idx_facts3 : ∀ t : Fin cfg0.N, win0_3.index t (0 : Fin 2) = 0 ∧ win0_3.index t (1 : Fin 2) = 0 :=
  (by decide +kernel : ∀ t : Fin grid0.N, _)

theorem read3_apply (t : Fin cfg0.N) (A : S128x512.Idx → Elt F .f32) (x : S128x512.Idx) :
    ((cfg0.win 3).blk t).view.read (Elt F) A x = A (((cfg0.win 3).blk t).view.emb x) := rfl

theorem emb3_val (t : Fin cfg0.N) (x : S128x512.Idx) :
    ((((cfg0.win 3).blk t).view.emb x : S128x512.Idx) 0).val = win0_3.index t (0 : Fin 2) * 128 + 1 * (x 0).val
    ∧ ((((cfg0.win 3).blk t).view.emb x : S128x512.Idx) 1).val = win0_3.index t (1 : Fin 2) * 512 + 1 * (x 1).val :=
  ⟨rfl, rfl⟩

/-- So window 3's block at every point IS its array as the region finds it. -/
theorem iblk0_3_eq (c : Dev nD) (t : Fin cfg0.N) :
    (iblk0 V c 3 t : Vec F S128x512 .f32) = (V c (Pipeline.arrRef spec0 3) : S128x512.Idx → Elt F .f32) := by
  funext x
  unfold iblk0
  refine (read3_apply t _ x).trans ?_
  obtain ⟨e0, e1⟩ := idx_facts3 t
  obtain ⟨m0, m1⟩ := emb3_val t x
  have h : (((cfg0.win 3).blk t).view.emb x : S128x512.Idx) = x := by
    funext a; apply Fin.ext
    match a with
    | ⟨0, _⟩ => show ((((cfg0.win 3).blk t).view.emb x : S128x512.Idx) 0).val = (x 0).val; rw [m0]; omega
    | ⟨1, _⟩ => show ((((cfg0.win 3).blk t).view.emb x : S128x512.Idx) 1).val = (x 1).val; rw [m1]; omega
  rw [h]

/-- Window 4 (a bias) has the block index 0 at every point: its block is its whole array. -/
theorem idx_facts4 : ∀ t : Fin cfg0.N, win0_4.index t (0 : Fin 1) = 0 :=
  (by decide +kernel : ∀ t : Fin grid0.N, _)

theorem read4_apply (t : Fin cfg0.N) (A : S128.Idx → Elt F .f32) (x : S128.Idx) :
    ((cfg0.win 4).blk t).view.read (Elt F) A x = A (((cfg0.win 4).blk t).view.emb x) := rfl

theorem emb4_val (t : Fin cfg0.N) (x : S128.Idx) :
    ((((cfg0.win 4).blk t).view.emb x : S128.Idx) 0).val = win0_4.index t (0 : Fin 1) * 128 + 1 * (x 0).val :=
  rfl

/-- So window 4's block at every point IS its array as the region finds it. -/
theorem iblk0_4_eq (c : Dev nD) (t : Fin cfg0.N) :
    (iblk0 V c 4 t : Vec F S128 .f32) = (V c (Pipeline.arrRef spec0 4) : S128.Idx → Elt F .f32) := by
  funext x
  unfold iblk0
  refine (read4_apply t _ x).trans ?_
  have e0 := idx_facts4 t
  have m0 := emb4_val t x
  have h : (((cfg0.win 4).blk t).view.emb x : S128.Idx) = x := by
    funext a; apply Fin.ext
    match a with
    | ⟨0, _⟩ => show ((((cfg0.win 4).blk t).view.emb x : S128.Idx) 0).val = (x 0).val; rw [m0]; omega
  rw [h]

/-- Window 5 (a weight) has the block index 0 at every point: its block is its whole array. -/
theorem idx_facts5 : ∀ t : Fin cfg0.N, win0_5.index t (0 : Fin 2) = 0 ∧ win0_5.index t (1 : Fin 2) = 0 :=
  (by decide +kernel : ∀ t : Fin grid0.N, _)

theorem read5_apply (t : Fin cfg0.N) (A : S128x512.Idx → Elt F .f32) (x : S128x512.Idx) :
    ((cfg0.win 5).blk t).view.read (Elt F) A x = A (((cfg0.win 5).blk t).view.emb x) := rfl

theorem emb5_val (t : Fin cfg0.N) (x : S128x512.Idx) :
    ((((cfg0.win 5).blk t).view.emb x : S128x512.Idx) 0).val = win0_5.index t (0 : Fin 2) * 128 + 1 * (x 0).val
    ∧ ((((cfg0.win 5).blk t).view.emb x : S128x512.Idx) 1).val = win0_5.index t (1 : Fin 2) * 512 + 1 * (x 1).val :=
  ⟨rfl, rfl⟩

/-- So window 5's block at every point IS its array as the region finds it. -/
theorem iblk0_5_eq (c : Dev nD) (t : Fin cfg0.N) :
    (iblk0 V c 5 t : Vec F S128x512 .f32) = (V c (Pipeline.arrRef spec0 5) : S128x512.Idx → Elt F .f32) := by
  funext x
  unfold iblk0
  refine (read5_apply t _ x).trans ?_
  obtain ⟨e0, e1⟩ := idx_facts5 t
  obtain ⟨m0, m1⟩ := emb5_val t x
  have h : (((cfg0.win 5).blk t).view.emb x : S128x512.Idx) = x := by
    funext a; apply Fin.ext
    match a with
    | ⟨0, _⟩ => show ((((cfg0.win 5).blk t).view.emb x : S128x512.Idx) 0).val = (x 0).val; rw [m0]; omega
    | ⟨1, _⟩ => show ((((cfg0.win 5).blk t).view.emb x : S128x512.Idx) 1).val = (x 1).val; rw [m1]; omega
  rw [h]

/-- Window 6 (a bias) has the block index 0 at every point: its block is its whole array. -/
theorem idx_facts6 : ∀ t : Fin cfg0.N, win0_6.index t (0 : Fin 1) = 0 :=
  (by decide +kernel : ∀ t : Fin grid0.N, _)

theorem read6_apply (t : Fin cfg0.N) (A : S128.Idx → Elt F .f32) (x : S128.Idx) :
    ((cfg0.win 6).blk t).view.read (Elt F) A x = A (((cfg0.win 6).blk t).view.emb x) := rfl

theorem emb6_val (t : Fin cfg0.N) (x : S128.Idx) :
    ((((cfg0.win 6).blk t).view.emb x : S128.Idx) 0).val = win0_6.index t (0 : Fin 1) * 128 + 1 * (x 0).val :=
  rfl

/-- So window 6's block at every point IS its array as the region finds it. -/
theorem iblk0_6_eq (c : Dev nD) (t : Fin cfg0.N) :
    (iblk0 V c 6 t : Vec F S128 .f32) = (V c (Pipeline.arrRef spec0 6) : S128.Idx → Elt F .f32) := by
  funext x
  unfold iblk0
  refine (read6_apply t _ x).trans ?_
  have e0 := idx_facts6 t
  have m0 := emb6_val t x
  have h : (((cfg0.win 6).blk t).view.emb x : S128.Idx) = x := by
    funext a; apply Fin.ext
    match a with
    | ⟨0, _⟩ => show ((((cfg0.win 6).blk t).view.emb x : S128.Idx) 0).val = (x 0).val; rw [m0]; omega
  rw [h]

/-! ## The input arrays after the region: as the region found them -/

/-- Input window 0 stages its array and never writes it back. -/
theorem arrAt_in0 (c : Dev nD) : (dat0 V c).arrAt 0 cfg0.N = V c (Pipeline.arrRef spec0 0) :=
  ((dat0 V c).arrAt_in 0 rfl _).trans (A_eq0 V c 0)

/-- Input window 1 stages its array and never writes it back. -/
theorem arrAt_in1 (c : Dev nD) : (dat0 V c).arrAt 1 cfg0.N = V c (Pipeline.arrRef spec0 1) :=
  ((dat0 V c).arrAt_in 1 rfl _).trans (A_eq0 V c 1)

/-- Input window 2 stages its array and never writes it back. -/
theorem arrAt_in2 (c : Dev nD) : (dat0 V c).arrAt 2 cfg0.N = V c (Pipeline.arrRef spec0 2) :=
  ((dat0 V c).arrAt_in 2 rfl _).trans (A_eq0 V c 2)

/-- Input window 3 stages its array and never writes it back. -/
theorem arrAt_in3 (c : Dev nD) : (dat0 V c).arrAt 3 cfg0.N = V c (Pipeline.arrRef spec0 3) :=
  ((dat0 V c).arrAt_in 3 rfl _).trans (A_eq0 V c 3)

/-- Input window 4 stages its array and never writes it back. -/
theorem arrAt_in4 (c : Dev nD) : (dat0 V c).arrAt 4 cfg0.N = V c (Pipeline.arrRef spec0 4) :=
  ((dat0 V c).arrAt_in 4 rfl _).trans (A_eq0 V c 4)

/-- Input window 5 stages its array and never writes it back. -/
theorem arrAt_in5 (c : Dev nD) : (dat0 V c).arrAt 5 cfg0.N = V c (Pipeline.arrRef spec0 5) :=
  ((dat0 V c).arrAt_in 5 rfl _).trans (A_eq0 V c 5)

/-- Input window 6 stages its array and never writes it back. -/
theorem arrAt_in6 (c : Dev nD) : (dat0 V c).arrAt 6 cfg0.N = V c (Pipeline.arrRef spec0 6) :=
  ((dat0 V c).arrAt_in 6 rfl _).trans (A_eq0 V c 6)

/-- info: 'Cert.KernelIdeal.Qkv.final7' depends on axioms: [propext, Classical.choice, Quot.sound] -/
#guard_msgs in #print axioms final7
/-- info: 'Cert.KernelIdeal.Qkv.final8' depends on axioms: [propext, Classical.choice, Quot.sound] -/
#guard_msgs in #print axioms final8
/-- info: 'Cert.KernelIdeal.Qkv.final9' depends on axioms: [propext, Classical.choice, Quot.sound] -/
#guard_msgs in #print axioms final9
/-- info: 'Cert.KernelIdeal.Qkv.iblk0_0_apply' depends on axioms: [propext, Classical.choice, Quot.sound] -/
#guard_msgs in #print axioms iblk0_0_apply

end Cert.KernelIdeal.Qkv

end
-- ==== Proof.ProjValue.lean ====
/-
  The three arrays the projection region leaves -- queries, keys, values, each [2, 4096, 128] -- entry by entry.

  At a grid point the body stores, whole, x W^T + c of the point's feature block (1024 rows of 512 features) against one
  padded weight (128 x 512) and its padded bias (128). Read at row r and output feature k that is the sum over the 512
  input features of x(r, d) * W(k, d), plus c(k). The blocks tile the arrays, the weights' and biases' blocks are their
  whole arrays, so entry (b, n, k) of an output array is that sum over row n of batch b of the feature array. The
  region is entered with the weights and biases padded from 64 to 128 output features by zeros: an output feature below
  64 is the projection of the specification, a padded one is (sum of x * 0) + 0 = 0.
-/
import proofs.«121072_j35897336660236_2_alg».proof.Proof.QkvValue
import proofs.«121072_j35897336660236_2_alg».proof.Proof.TilePayloads
import proofs.«121072_j35897336660236_2_alg».proof.Proof.HostGlue
import proofs.«121072_j35897336660236_2_alg».proof.Proof.AttentionAlgebra
import Idealize.ShloMosaic.Lib.Pipeline.Value

set_option maxRecDepth 16384

noncomputable section

namespace Cert.KernelIdeal.Qkv

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## What the body leaves in an output buffer, at an entry -/

/-- The zero offsets of a buffer of rank 1, 2, 3. -/
theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

section Block
variable (x : Vec Ideal S1x1024x512 .f32) (w : Vec Ideal S128x512 .f32) (b : Vec Ideal S128 .f32)

/-- The query block at (0, r, k): row r of the features against row k of the weight, plus the bias at k. -/
theorem out0_7_apply (r : Fin 1024) (k : Fin 128) :
    out0_7 (F := Ideal) x w b (ix3 0 r k) = (∑ d : Fin 512, x (ix3 0 r d) * w (ix2 k d)) + b (ix1 k) := by
  unfold out0_7
  rw [View.canon_unit_zero (S := S1x1024x128) zero3]
  simp only [View.ld_unit_zero (S := S1x1024x512) zero3, View.ld_unit_zero (S := S128x512) zero2,
    View.ld_unit_zero (S := S128) zero1]
  exact Tile.qkv_store9_apply x w b r k

/-- The key block at (0, r, k). -/
theorem out0_8_apply (r : Fin 1024) (k : Fin 128) :
    out0_8 (F := Ideal) x w b (ix3 0 r k) = (∑ d : Fin 512, x (ix3 0 r d) * w (ix2 k d)) + b (ix1 k) := by
  unfold out0_8
  rw [View.canon_unit_zero (S := S1x1024x128) zero3]
  simp only [View.ld_unit_zero (S := S1x1024x512) zero3, View.ld_unit_zero (S := S128x512) zero2,
    View.ld_unit_zero (S := S128) zero1]
  exact Tile.qkv_store10_apply x w b r k

/-- The value block at (0, r, k). -/
theorem out0_9_apply (r : Fin 1024) (k : Fin 128) :
    out0_9 (F := Ideal) x w b (ix3 0 r k) = (∑ d : Fin 512, x (ix3 0 r d) * w (ix2 k d)) + b (ix1 k) := by
  unfold out0_9
  rw [View.canon_unit_zero (S := S1x1024x128) zero3]
  simp only [View.ld_unit_zero (S := S1x1024x512) zero3, View.ld_unit_zero (S := S128x512) zero2,
    View.ld_unit_zero (S := S128) zero1]
  exact Tile.qkv_store11_apply x w b r k

end Block

/-! ## The three arrays after the region, at an entry, for any contents found at entry -/

/-- An array's contents read at an index, as an extended real. -/
abbrev rd {S : Shape} (A : S.Idx → EReal) (i : S.Idx) : EReal := A i

section Arrays
variable (V : (c : Dev nD) → (b : Ref sig .tc) → Buf (Elt Ideal) ((c : Thread nD τ).loc b))

/-- Row n % 1024 of the query block at the point 4 b + n / 1024, for a point t given by its number. -/
theorem qBlk_row (c : Dev nD) (b : Fin 2) (n : Fin 4096) (k : Fin 128) (t : Fin cfg0.N)
    (ht : t.val = b.val * 4 + n.val / 1024) :
    qBlk V c t (ix3 (0 : Fin 1) (⟨n.val % 1024, Nat.mod_lt _ (by decide)⟩ : Fin 1024) k)
      = (∑ d : Fin 512, rd (S := S2x4096x512) (V c main_arg0) (ix3 b n d) * rd (S := S128x512) (V c main_v0) (ix2 k d))
          + rd (S := S128) (V c main_v3) (ix1 k) :=
  (out0_7_apply (iblk0 V c 0 t) (iblk0 V c 1 t) (iblk0 V c 2 t)
    (⟨n.val % 1024, Nat.mod_lt _ (by decide)⟩ : Fin 1024) k).trans
    (congrArg₂ (fun p q : EReal => p + q)
      (Finset.sum_congr rfl fun d _ => congrArg₂ (fun p q : EReal => p * q)
        (iblk0_0_row V c (ix3 b n k) t ht d) (congrFun (iblk0_1_eq V c t) (ix2 k d)))
      (congrFun (iblk0_2_eq V c t) (ix1 k)))

/-- Entry (b, n, k) of the query array after the region, from the contents the region finds: row n of batch b of the
    features against row k of the padded weight, plus the padded bias at k. -/
theorem Qarr_entry (c : Dev nD) (b : Fin 2) (n : Fin 4096) (k : Fin 128) :
    rd (S := S2x4096x128) ((dat0 V c).arrAt 7 cfg0.N) (ix3 b n k)
      = (∑ d : Fin 512, rd (S := S2x4096x512) (V c main_arg0) (ix3 b n d) * rd (S := S128x512) (V c main_v0) (ix2 k d))
          + rd (S := S128) (V c main_v3) (ix1 k) := by
  rw [final7]
  show qBlk V c (ptOf (ix3 b n k)) (rowOf (ix3 b n k)) = _
  generalize ht : ptOf (ix3 b n k) = t
  have htv : t.val = b.val * 4 + n.val / 1024 := by rw [← ht]; rfl
  exact qBlk_row V c b n k t htv

/-- Row n % 1024 of the key block at the point 4 b + n / 1024, for a point t given by its number. -/
theorem kBlk_row (c : Dev nD) (b : Fin 2) (n : Fin 4096) (k : Fin 128) (t : Fin cfg0.N)
    (ht : t.val = b.val * 4 + n.val / 1024) :
    kBlk V c t (ix3 (0 : Fin 1) (⟨n.val % 1024, Nat.mod_lt _ (by decide)⟩ : Fin 1024) k)
      = (∑ d : Fin 512, rd (S := S2x4096x512) (V c main_arg0) (ix3 b n d) * rd (S := S128x512) (V c main_v1) (ix2 k d))
          + rd (S := S128) (V c main_v4) (ix1 k) :=
  (out0_8_apply (iblk0 V c 0 t) (iblk0 V c 3 t) (iblk0 V c 4 t)
    (⟨n.val % 1024, Nat.mod_lt _ (by decide)⟩ : Fin 1024) k).trans
    (congrArg₂ (fun p q : EReal => p + q)
      (Finset.sum_congr rfl fun d _ => congrArg₂ (fun p q : EReal => p * q)
        (iblk0_0_row V c (ix3 b n k) t ht d) (congrFun (iblk0_3_eq V c t) (ix2 k d)))
      (congrFun (iblk0_4_eq V c t) (ix1 k)))

/-- Entry (b, n, k) of the key array after the region, from the contents the region finds: row n of batch b of the
    features against row k of the padded weight, plus the padded bias at k. -/
theorem Karr_entry (c : Dev nD) (b : Fin 2) (n : Fin 4096) (k : Fin 128) :
    rd (S := S2x4096x128) ((dat0 V c).arrAt 8 cfg0.N) (ix3 b n k)
      = (∑ d : Fin 512, rd (S := S2x4096x512) (V c main_arg0) (ix3 b n d) * rd (S := S128x512) (V c main_v1) (ix2 k d))
          + rd (S := S128) (V c main_v4) (ix1 k) := by
  rw [final8]
  show kBlk V c (ptOf (ix3 b n k)) (rowOf (ix3 b n k)) = _
  generalize ht : ptOf (ix3 b n k) = t
  have htv : t.val = b.val * 4 + n.val / 1024 := by rw [← ht]; rfl
  exact kBlk_row V c b n k t htv

/-- Row n % 1024 of the value block at the point 4 b + n / 1024, for a point t given by its number. -/
theorem vBlk_row (c : Dev nD) (b : Fin 2) (n : Fin 4096) (k : Fin 128) (t : Fin cfg0.N)
    (ht : t.val = b.val * 4 + n.val / 1024) :
    vBlk V c t (ix3 (0 : Fin 1) (⟨n.val % 1024, Nat.mod_lt _ (by decide)⟩ : Fin 1024) k)
      = (∑ d : Fin 512, rd (S := S2x4096x512) (V c main_arg0) (ix3 b n d) * rd (S := S128x512) (V c main_v2) (ix2 k d))
          + rd (S := S128) (V c main_v5) (ix1 k) :=
  (out0_9_apply (iblk0 V c 0 t) (iblk0 V c 5 t) (iblk0 V c 6 t)
    (⟨n.val % 1024, Nat.mod_lt _ (by decide)⟩ : Fin 1024) k).trans
    (congrArg₂ (fun p q : EReal => p + q)
      (Finset.sum_congr rfl fun d _ => congrArg₂ (fun p q : EReal => p * q)
        (iblk0_0_row V c (ix3 b n k) t ht d) (congrFun (iblk0_5_eq V c t) (ix2 k d)))
      (congrFun (iblk0_6_eq V c t) (ix1 k)))

/-- Entry (b, n, k) of the value array after the region, from the contents the region finds: row n of batch b of the
    features against row k of the padded weight, plus the padded bias at k. -/
theorem Varr_entry (c : Dev nD) (b : Fin 2) (n : Fin 4096) (k : Fin 128) :
    rd (S := S2x4096x128) ((dat0 V c).arrAt 9 cfg0.N) (ix3 b n k)
      = (∑ d : Fin 512, rd (S := S2x4096x512) (V c main_arg0) (ix3 b n d) * rd (S := S128x512) (V c main_v2) (ix2 k d))
          + rd (S := S128) (V c main_v5) (ix1 k) := by
  rw [final9]
  show vBlk V c (ptOf (ix3 b n k)) (rowOf (ix3 b n k)) = _
  generalize ht : ptOf (ix3 b n k) = t
  have htv : t.val = b.val * 4 + n.val / 1024 := by rw [← ht]; rfl
  exact vBlk_row V c b n k t htv

end Arrays

/-! ## At the contents the program enters the region with -/

section AtEntry
variable (m : (ℓ : Loc nD τ sig) → Buf (Elt Ideal) ℓ)

/-- Entry (b, n, k) of the query array at the contents the program enters the region with: the specification's
    projection for an output feature below 64, zero for a padded one. -/
theorem Qarr_entry_proj (c : Dev nD) (b : Fin 2) (n : Fin 4096) (k : Fin 128) :
    rd (S := S2x4096x128) ((dat0 (fun c b => V12 m c b) c).arrAt 7 cfg0.N) (ix3 b n k)
      = if h : k.val < 64 then
          Cert.Attention.proj (fun b n d => rd (S := S2x4096x512) (m ((c : Thread nD τ).loc main_arg0)) (ix3 b n d))
            (fun k d => rd (S := S64x512) (m ((c : Thread nD τ).loc main_arg3)) (ix2 k d))
            (fun k => rd (S := S64) (m ((c : Thread nD τ).loc main_arg4)) (ix1 k)) b n ⟨k.val, h⟩
        else 0 := by
  refine (Qarr_entry (fun c b => V12 m c b) c b n k).trans ?_
  have hx : ∀ d : Fin 512, rd (S := S2x4096x512) (V12 m c main_arg0) (ix3 b n d)
      = rd (S := S2x4096x512) (m ((c : Thread nD τ).loc main_arg0)) (ix3 b n d) :=
    fun d => congrFun (HostGlue.V12_main_arg0 m c) (ix3 b n d)
  by_cases h : k.val < 64
  · rw [dif_pos h]
    refine congrArg₂ (fun p q : EReal => p + q) (Finset.sum_congr rfl fun d _ =>
      congrArg₂ (fun p q : EReal => p * q) (hx d) ((HostGlue.wq_padded m c k d).trans (dif_pos h)))
      ((HostGlue.bq_padded m c k).trans (dif_pos h))
  · rw [dif_neg h]
    refine Eq.trans (congrArg₂ (fun p q : EReal => p + q) (Finset.sum_congr rfl fun d _ =>
      congrArg₂ (fun p q : EReal => p * q) (hx d) ((HostGlue.wq_padded m c k d).trans (dif_neg h)))
      ((HostGlue.bq_padded m c k).trans (dif_neg h))) ?_
    exact Cert.Attention.padded_feature_zero _

/-- Entry (b, n, k) of the key array at the contents the program enters the region with: the specification's
    projection for an output feature below 64, zero for a padded one. -/
theorem Karr_entry_proj (c : Dev nD) (b : Fin 2) (n : Fin 4096) (k : Fin 128) :
    rd (S := S2x4096x128) ((dat0 (fun c b => V12 m c b) c).arrAt 8 cfg0.N) (ix3 b n k)
      = if h : k.val < 64 then
          Cert.Attention.proj (fun b n d => rd (S := S2x4096x512) (m ((c : Thread nD τ).loc main_arg0)) (ix3 b n d))
            (fun k d => rd (S := S64x512) (m ((c : Thread nD τ).loc main_arg5)) (ix2 k d))
            (fun k => rd (S := S64) (m ((c : Thread nD τ).loc main_arg6)) (ix1 k)) b n ⟨k.val, h⟩
        else 0 := by
  refine (Karr_entry (fun c b => V12 m c b) c b n k).trans ?_
  have hx : ∀ d : Fin 512, rd (S := S2x4096x512) (V12 m c main_arg0) (ix3 b n d)
      = rd (S := S2x4096x512) (m ((c : Thread nD τ).loc main_arg0)) (ix3 b n d) :=
    fun d => congrFun (HostGlue.V12_main_arg0 m c) (ix3 b n d)
  by_cases h : k.val < 64
  · rw [dif_pos h]
    refine congrArg₂ (fun p q : EReal => p + q) (Finset.sum_congr rfl fun d _ =>
      congrArg₂ (fun p q : EReal => p * q) (hx d) ((HostGlue.wk_padded m c k d).trans (dif_pos h)))
      ((HostGlue.bk_padded m c k).trans (dif_pos h))
  · rw [dif_neg h]
    refine Eq.trans (congrArg₂ (fun p q : EReal => p + q) (Finset.sum_congr rfl fun d _ =>
      congrArg₂ (fun p q : EReal => p * q) (hx d) ((HostGlue.wk_padded m c k d).trans (dif_neg h)))
      ((HostGlue.bk_padded m c k).trans (dif_neg h))) ?_
    exact Cert.Attention.padded_feature_zero _

/-- Entry (b, n, k) of the value array at the contents the program enters the region with: the specification's
    projection for an output feature below 64, zero for a padded one. -/
theorem Varr_entry_proj (c : Dev nD) (b : Fin 2) (n : Fin 4096) (k : Fin 128) :
    rd (S := S2x4096x128) ((dat0 (fun c b => V12 m c b) c).arrAt 9 cfg0.N) (ix3 b n k)
      = if h : k.val < 64 then
          Cert.Attention.proj (fun b n d => rd (S := S2x4096x512) (m ((c : Thread nD τ).loc main_arg0)) (ix3 b n d))
            (fun k d => rd (S := S64x512) (m ((c : Thread nD τ).loc main_arg7)) (ix2 k d))
            (fun k => rd (S := S64) (m ((c : Thread nD τ).loc main_arg8)) (ix1 k)) b n ⟨k.val, h⟩
        else 0 := by
  refine (Varr_entry (fun c b => V12 m c b) c b n k).trans ?_
  have hx : ∀ d : Fin 512, rd (S := S2x4096x512) (V12 m c main_arg0) (ix3 b n d)
      = rd (S := S2x4096x512) (m ((c : Thread nD τ).loc main_arg0)) (ix3 b n d) :=
    fun d => congrFun (HostGlue.V12_main_arg0 m c) (ix3 b n d)
  by_cases h : k.val < 64
  · rw [dif_pos h]
    refine congrArg₂ (fun p q : EReal => p + q) (Finset.sum_congr rfl fun d _ =>
      congrArg₂ (fun p q : EReal => p * q) (hx d) ((HostGlue.wv_padded m c k d).trans (dif_pos h)))
      ((HostGlue.bv_padded m c k).trans (dif_pos h))
  · rw [dif_neg h]
    refine Eq.trans (congrArg₂ (fun p q : EReal => p + q) (Finset.sum_congr rfl fun d _ =>
      congrArg₂ (fun p q : EReal => p * q) (hx d) ((HostGlue.wv_padded m c k d).trans (dif_neg h)))
      ((HostGlue.bv_padded m c k).trans (dif_neg h))) ?_
    exact Cert.Attention.padded_feature_zero _

end AtEntry

end Cert.KernelIdeal.Qkv

end
-- ==== Proof.KernelValue.lean ====
/-
  The kernel program's result, entry by entry, is the attention layer of its arguments — for finite inputs.

  An entry (b, q, k) of the sliced result is entry (b, q, k) of the attention region's output array; that array is
  written back at the last key tile of each (batch entry, query tile), where its block holds, row by row, the running
  accumulator over the running normaliser; those are the state of the online recursion after the group's four key tiles;
  the tiles' scores are the layer's scores of row q (zero-padded features add nothing, multiplying by 1/8 is dividing by
  sqrt 64) and their value columns are the value projection's column k; and for real scores and values the recursion over
  four blocks of 1024 ends at the softmax-weighted sum over all 4096 keys.
-/
import proofs.«121072_j35897336660236_2_alg».proof.Proof.ScoreBlock
import proofs.«121072_j35897336660236_2_alg».proof.Proof.ProjValue

set_option maxRecDepth 16384

noncomputable section

namespace Cert.KernelIdeal.Whole

open Cert.KernelIdeal Cert.KernelIdeal.Gen
open Idealize.ShloMosaic Idealize.ShloMosaic.TcCoe Idealize.ShloMosaic.ValueIdx
open Cert.Attention Cert.Lib.OnlineSoftmax

variable (m : (ℓ : Loc nD τ sig) → Buf (Elt Ideal) ℓ) (c : Dev nD)

/-- THE ENTRY: for finite inputs, entry (b, q, k) of the kernel program's result is the attention layer's. -/
theorem result_entry
    (hfin : (∀ i, ∃ r : ℝ, m ((c : Thread nD τ).loc main_arg0) i = (r : EReal)) ∧ (∀ i, ∃ r : ℝ, m ((c : Thread nD τ).loc main_arg1) i = (r : EReal))
      ∧ (∀ i, ∃ r : ℝ, m ((c : Thread nD τ).loc main_arg2) i = (r : EReal)) ∧ (∀ i, ∃ r : ℝ, m ((c : Thread nD τ).loc main_arg3) i = (r : EReal))
      ∧ (∀ i, ∃ r : ℝ, m ((c : Thread nD τ).loc main_arg4) i = (r : EReal)) ∧ (∀ i, ∃ r : ℝ, m ((c : Thread nD τ).loc main_arg5) i = (r : EReal))
      ∧ (∀ i, ∃ r : ℝ, m ((c : Thread nD τ).loc main_arg6) i = (r : EReal)) ∧ (∀ i, ∃ r : ℝ, m ((c : Thread nD τ).loc main_arg7) i = (r : EReal))
      ∧ (∀ i, ∃ r : ℝ, m ((c : Thread nD τ).loc main_arg8) i = (r : EReal)))
    (b : Fin 2) (q : Fin 4096) (k : Fin 64) :
    End m c main_v8 (ix3 b q k)
      = Cert.Attention.layer (fun b n d => m ((c : Thread nD τ).loc main_arg0) (ix3 b n d)) (fun b q n => m ((c : Thread nD τ).loc main_arg1) (ix3 b q n))
          (fun b q n => m ((c : Thread nD τ).loc main_arg2) (ix3 b q n)) (fun k d => m ((c : Thread nD τ).loc main_arg3) (ix2 k d))
          (fun k => m ((c : Thread nD τ).loc main_arg4) (ix1 k)) (fun k d => m ((c : Thread nD τ).loc main_arg5) (ix2 k d))
          (fun k => m ((c : Thread nD τ).loc main_arg6) (ix1 k)) (fun k d => m ((c : Thread nD τ).loc main_arg7) (ix2 k d))
          (fun k => m ((c : Thread nD τ).loc main_arg8) (ix1 k)) b q k := by
  obtain ⟨hx, hSh, hSw, hwq, hbq, hwk, hbk, hwv, hbv⟩ := hfin
  have hb := b.isLt; have hq := q.isLt; have hk := k.isLt
  -- the group of the entry: its first position, the row inside the query tile, the padded feature
  obtain ⟨g4, hg4⟩ : ∃ g4 : ℕ, g4 = b.val * 16 + q.val / 1024 * 4 := ⟨_, rfl⟩
  obtain ⟨r, hr⟩ : ∃ r : Fin 1024, r.val = q.val % 1024 := ⟨⟨q.val % 1024, Nat.mod_lt _ (by decide)⟩, rfl⟩
  obtain ⟨k', hk'⟩ : ∃ k' : Fin 128, k'.val = k.val := ⟨⟨k.val, by omega⟩, rfl⟩
  have hg : g4 % 4 = 0 := by omega
  have hN : cfg1.N = 32 := N_1
  have hn : g4 + 3 < cfg1.N := by rw [hN]; omega
  -- the projection region's three arrays, entry by entry
  have hQ := fun b n k => Qkv.Qarr_entry_proj m c b n k
  have hK := fun b n k => Qkv.Karr_entry_proj m c b n k
  have hV := fun b n k => Qkv.Varr_entry_proj m c b n k
  -- the slice, then the attention region's output array at the group's last point
  have e1 : End m c main_v8 (ix3 b q k) = (Flash.stateAt (In1 m) c (g4 + 3) hn).1 (ix3 0 r k') := by
    refine (HostGlue.slice_apply (Late m c) b q k).trans ?_
    have e := congrFun ((Late_arr m c 5).trans (Flash.final5 (In1 m) c)) (ix3 b q (⟨k.val, by omega⟩ : Fin 128))
    refine e.trans ?_
    rw [Flash.Oarr_apply, Flash.oBlk_eq]
    have hp : (Flash.ptO (ix3 b q (⟨k.val, by omega⟩ : Fin 128))).val = g4 + 3 := by rw [Flash.ptO_val, hg4]
    have hrow : Flash.rowO (ix3 b q (⟨k.val, by omega⟩ : Fin 128)) = ix3 0 r k' := by
      unfold Flash.rowO
      congr 1
      · exact Fin.ext hr.symm
      · exact Fin.ext hk'.symm
    rw [hrow]
    generalize Flash.ptO (ix3 b q (⟨k.val, by omega⟩ : Fin 128)) = t at hp
    obtain ⟨tv, ht⟩ := t
    simp only at hp
    subst hp
    rfl
  rw [e1, Flash.out_eq_run (In1 m) c g4 hg hn r k']
  -- the group's blocks are the layer's scores of row q and the value projection's column k
  refine (layer_eq_online _ _ _ _ _ _ _ _ _ (fun b n d => hx _) (fun b q n => hSh _) (fun b q n => hSw _) (fun k d => hwq _) (fun k => hbq _)
    (fun k d => hwk _) (fun k => hbk _) (fun k d => hwv _) (fun k => hbv _) b q k
    (Flash.grpS (In1 m) c g4 r) (Flash.grpV (In1 m) c g4 k') ?_ ?_).symm
  · intro j n h
    have hn1 := n.isLt
    have hlt : g4 + j < cfg1.N := by rw [hN]; omega
    rw [congrFun (Flash.grpS_eq (In1 m) c g4 r j hlt) n, tileS_eq m c _ _ _ _ _ hQ hK ⟨g4 + j, hlt⟩ r n]
    have i1 : Flash.batchOf ⟨g4 + j, hlt⟩ = b := Fin.ext (by simp only [Flash.batchOf_val]; omega)
    have i2 : Flash.rowIn (Flash.qTile ⟨g4 + j, hlt⟩) r = q := Fin.ext (by simp only [Flash.rowIn_val, Flash.qTile_val]; omega)
    have i3 : Flash.rowIn (Flash.kTile ⟨g4 + j, hlt⟩) n = ⟨j * 1024 + n, h⟩ := Fin.ext (by simp only [Flash.rowIn_val, Flash.kTile_val]; omega)
    rw [i1, i2, i3]
    rfl
  · intro j n h
    have hn1 := n.isLt
    have hlt : g4 + j < cfg1.N := by rw [hN]; omega
    rw [congrFun (Flash.grpV_eq (In1 m) c g4 k' j hlt) n, tileV_eq m c _ _ _ hV ⟨g4 + j, hlt⟩ k' n]
    have i1 : Flash.batchOf ⟨g4 + j, hlt⟩ = b := Fin.ext (by simp only [Flash.batchOf_val]; omega)
    have i3 : Flash.rowIn (Flash.kTile ⟨g4 + j, hlt⟩) n = ⟨j * 1024 + n, h⟩ := Fin.ext (by simp only [Flash.rowIn_val, Flash.kTile_val]; omega)
    have hk64 : k'.val < 64 := by omega
    rw [dif_pos hk64, i1, i3]
    have ik : (⟨k'.val, hk64⟩ : Fin 64) = k := Fin.ext hk'
    rw [ik]

end Cert.KernelIdeal.Whole

end
-- ==== Proof.FiniteInputs.lean ====
/-
  From the precondition to real entries.

  The precondition is one bit: for each of the nine argument arrays, the conjunction over all its entries of
  |entry| < +inf, and the nine conjunctions and-ed together. If the bit is 1 then every one of the nine conjunctions
  is 1, hence every comparison is 1 at every entry. On the extended reals |a| = max a (-a) is +inf exactly at the two
  infinities, so |a| < +inf says that a is (the coercion of) a real number.
-/
import proofs.«121072_j35897336660236_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The float word 0x7F800000 is +inf, the greatest extended real. -/
theorem posInf : Ideal.ofBits .f32 0x7F800000#32 = ⊤ := by simp [Ideal.ofBits, Ideal.ieee]

/-- An extended real whose absolute value max a (-a) is strictly below +inf is a real number: at -inf and at +inf
    the absolute value is +inf itself. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- The scalar shape has one index. -/
instance : Subsingleton S_.Idx := ⟨fun a b => funext fun d => d.elim0⟩

/-- One array: if the conjunction over every entry of "|a i| < +inf" is 1, every entry is a real number. -/
theorem entries_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ValueIdx.ix0 = 1#1) (i : s.Idx) : ∃ r : ℝ, a i = (r : EReal) := by
  have hi := Host.reduce_andi_all _ _ hr hu _ e i
  refine real_of_abs_lt_top (a i) ?_
  rw [← posInf]
  exact hi

variable [Cert.Pre_finite_inputs.Facts]
open Cert.Pre_finite_inputs.Facts

/-- Under the precondition — the conjunction, over all entries of all nine argument arrays, of |entry| < +inf —
    every entry of each array is the coercion of a real number. -/
theorem entries_real_of_pre (a0 : FVec Ideal S2x4096x512 .f32) (a1 a2 : FVec Ideal S2x4096x4096 .f32)
    (a3 : FVec Ideal S64x512 .f32) (a4 : FVec Ideal S64 .f32) (a5 : FVec Ideal S64x512 .f32) (a6 : FVec Ideal S64 .f32)
    (a7 : FVec Ideal S64x512 .f32) (a8 : FVec Ideal S64 .f32)
    (h : fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [fn, fn_part1, fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨entries_real a0 _ _ _ e0, entries_real a1 _ _ _ e1, entries_real a2 _ _ _ e2, entries_real a3 _ _ _ e3,
    entries_real a4 _ _ _ e4, entries_real a5 _ _ _ e5, entries_real a6 _ _ _ e6, entries_real a7 _ _ _ e7,
    entries_real a8 _ _ _ e8⟩

end Cert.FiniteInputs

end
-- ==== Proof.Algebraic.lean ====
/-
  The two idealized programs compute the same array.

  Run from memories that agree on the nine argument arrays, under the precondition that every entry of every argument
  is finite, both programs end with the attention layer of the arguments in their result array:
    * the reference, for any arguments at all, because its operations ARE the layer's formula read entry by entry;
    * the kernel program, because every entry is a real number, where its tiled projections, its online softmax over
      key tiles and its padded output features agree with the layer's formula entry by entry.
  The common value is the layer of the KERNEL memory's arguments; the reference's value is the layer of its own
  arguments, which are the same arrays by the agreement of the two memories.
-/
import proofs.«121072_j35897336660236_2_alg».proof.Defs
import proofs.«121072_j35897336660236_2_alg».proof.Proof.WholeRun
import proofs.«121072_j35897336660236_2_alg».proof.Proof.KernelValue
import proofs.«121072_j35897336660236_2_alg».proof.Proof.RefSide
import proofs.«121072_j35897336660236_2_alg».proof.Proof.FiniteInputs
import proofs.«121072_j35897336660236_2_alg».proof.Proof.Gen.KernelIdeal
import proofs.«121072_j35897336660236_2_alg».proof.Proof.Gen.ReferenceIdeal
import proofs.«121072_j35897336660236_2_alg».proof.Proof.Gen.Pre_finite_inputs

noncomputable section

namespace Cert.Proof.Algebraic

open Idealize.ShloMosaic Idealize.ShloMosaic.TcCoe Idealize.SL.Sem Idealize.ShloMosaic.ValueIdx

/-- The layer array depends on the nine arrays only. -/
theorem layerArr_congr {x x' : FVec Ideal Cert.ReferenceIdeal.S2x4096x512 .f32}
    {Sh Sh' Sw Sw' : FVec Ideal Cert.ReferenceIdeal.S2x4096x4096 .f32}
    {wq wq' wk wk' wv wv' : FVec Ideal Cert.ReferenceIdeal.S64x512 .f32} {bq bq' bk bk' bv bv' : FVec Ideal Cert.ReferenceIdeal.S64 .f32}
    (h0 : x = x') (h1 : Sh = Sh') (h2 : Sw = Sw') (h3 : wq = wq') (h4 : bq = bq') (h5 : wk = wk') (h6 : bk = bk')
    (h7 : wv = wv') (h8 : bv = bv') :
    Cert.ReferenceIdeal.RefSide.layerArr x Sh Sw wq bq wk bk wv bv
      = Cert.ReferenceIdeal.RefSide.layerArr x' Sh' Sw' wq' bq' wk' bk' wv' bv' := by
  subst h0 h1 h2 h3 h4 h5 h6 h7 h8; rfl

/-- The kernel program's result array is the layer array of its nine argument arrays, when every entry is a real:
    every index is (b, q, k) for its coordinates. -/
theorem kernel_result (m : (ℓ : Loc Cert.KernelIdeal.nD Cert.KernelIdeal.τ Cert.KernelIdeal.sig) → Buf (Elt Ideal) ℓ) (c : Dev Cert.KernelIdeal.nD)
    (hfin : (∀ i, ∃ r : ℝ, (m ((c.tc : Thread Cert.KernelIdeal.nD Cert.KernelIdeal.τ).loc Cert.KernelIdeal.main_arg0)) i = (r : EReal))
      ∧ (∀ i, ∃ r : ℝ, (m ((c.tc : Thread Cert.KernelIdeal.nD Cert.KernelIdeal.τ).loc Cert.KernelIdeal.main_arg1)) i = (r : EReal))
      ∧ (∀ i, ∃ r : ℝ, (m ((c.tc : Thread Cert.KernelIdeal.nD Cert.KernelIdeal.τ).loc Cert.KernelIdeal.main_arg2)) i = (r : EReal))
      ∧ (∀ i, ∃ r : ℝ, (m ((c.tc : Thread Cert.KernelIdeal.nD Cert.KernelIdeal.τ).loc Cert.KernelIdeal.main_arg3)) i = (r : EReal))
      ∧ (∀ i, ∃ r : ℝ, (m ((c.tc : Thread Cert.KernelIdeal.nD Cert.KernelIdeal.τ).loc Cert.KernelIdeal.main_arg4)) i = (r : EReal))
      ∧ (∀ i, ∃ r : ℝ, (m ((c.tc : Thread Cert.KernelIdeal.nD Cert.KernelIdeal.τ).loc Cert.KernelIdeal.main_arg5)) i = (r : EReal))
      ∧ (∀ i, ∃ r : ℝ, (m ((c.tc : Thread Cert.KernelIdeal.nD Cert.KernelIdeal.τ).loc Cert.KernelIdeal.main_arg6)) i = (r : EReal))
      ∧ (∀ i, ∃ r : ℝ, (m ((c.tc : Thread Cert.KernelIdeal.nD Cert.KernelIdeal.τ).loc Cert.KernelIdeal.main_arg7)) i = (r : EReal))
      ∧ (∀ i, ∃ r : ℝ, (m ((c.tc : Thread Cert.KernelIdeal.nD Cert.KernelIdeal.τ).loc Cert.KernelIdeal.main_arg8)) i = (r : EReal))) :
    Cert.KernelIdeal.Whole.End m c (Proc.devRef .tc Cert.KernelIdeal.main_v8)
      = Cert.ReferenceIdeal.RefSide.layerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨b, q, k, rfl⟩ : ∃ (b : Fin 2) (q : Fin 4096) (k : Fin 64), i = ix3 b q k := ⟨i 0, i 1, i 2, eq_ix3 i⟩
  exact Cert.KernelIdeal.Whole.result_entry m c hfin b q k

/-- From memories agreeing on the arguments, under the precondition, both idealized programs run to the end, leave
    their arguments unchanged, and end with equal results: the layer array of the kernel memory's arguments. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.ReferenceIdeal.RefSide.layerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run _ _ _).mono
      (fun r h c => ⟨(h c _ (Cert.KernelIdeal.Whole.mem_uc Cert.KernelIdeal.main_v8 (by decide))).trans
          (kernel_result m c (Cert.FiniteInputs.entries_real_of_pre _ _ _ _ _ _ _ _ _ (hpre c))),
        Cert.KernelIdeal.Whole.args_kept m r.2.mem c (h c)⟩)
      (Cert.KernelIdeal.Whole.run_all (F := Ideal) m ρ)
  · exact (θ_run _ _ _).mono
      (fun r h c => ⟨(h c).1.trans (layerArr_congr (hagree c).1 (hagree c).2.1 (hagree c).2.2.1 (hagree c).2.2.2.1
          (hagree c).2.2.2.2.1 (hagree c).2.2.2.2.2.1 (hagree c).2.2.2.2.2.2.1 (hagree c).2.2.2.2.2.2.2.1
          (hagree c).2.2.2.2.2.2.2.2), (h c).2⟩)
      (Cert.ReferenceIdeal.RefSide.run_layer m' ρ')

end Cert.Proof.Algebraic

end
-- ==== Proof.lean ====
/-
  The certificate of a flash-attention kernel against plain softmax attention.

  The kernel program pads three projection weights and biases from 64 to 128 output features on the host, projects the
  features to queries, keys and values in a first pallas_call, runs online-softmax attention with two additive biases in
  a second one — a running row maximum, normaliser and accumulator carried across four key tiles and divided out at the
  last —, and slices the result back to 64 features. The reference projects, forms (Q K^T + Sh + Sw) / sqrt 64, takes
  softmax over all keys at once and multiplies by V.

  Frames. Each kernel program's run is composed from its host stretches and its two regions; the run names every
  unscoped buffer at the end, so the arguments are read back as launched. The reference is a host program: its frame
  is its run with the result dropped.
  Preserves. The idealization rewrote no operation.
  Algebraic. On the extended reals with finite inputs both results are the attention layer of the arguments: the
  reference by reading its operations at an index; the kernel because zero-padded features add nothing to an inner
  product, multiplying by 1/8 is dividing by sqrt 64, and the online recursion over four blocks of real scores ends at
  the softmax-weighted sum over all of them.
-/
import proofs.«121072_j35897336660236_2_alg».proof.Defs
import proofs.«121072_j35897336660236_2_alg».proof.Proof.Gen.Kernel
import proofs.«121072_j35897336660236_2_alg».proof.Proof.Gen.KernelIdeal
import proofs.«121072_j35897336660236_2_alg».proof.Proof.Gen.ReferenceIdeal
import proofs.«121072_j35897336660236_2_alg».proof.Proof.Gen.Pre_finite_inputs
import proofs.«121072_j35897336660236_2_alg».proof.Proof.WordWholeRun
import proofs.«121072_j35897336660236_2_alg».proof.Proof.WholeRun
import proofs.«121072_j35897336660236_2_alg».proof.Proof.RefSide
import proofs.«121072_j35897336660236_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Whole.frame (F := Bits) m ρ,
    fun m ρ _ => Cert.KernelIdeal.Whole.frame (F := Ideal) m ρ,
    fun m ρ _ => Cert.ReferenceIdeal.RefSide.frame m ρ,
    trivial,
    Cert.Proof.Algebraic.algebraic⟩

end Cert.Proof

end
